-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v72)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v112) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S256x128 : Shape := ⟨2, ![256, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40 .f32) (main_v13 : IVec S_ 1) (main_v16 : IVec S128x40 1) : IVec S_ 1 :=
  let main_c_5 : IVec S_ 1 := constantI S_ 1 1#1
  let main_v17 : IVec S_ 1 := (fun x v => Host.reduce IntOp.andi x v reducesTo_S128x40_S_d0_1 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S50000x256 .f32) (main_arg1 : IVec S2x800000 32) (main_arg2 : FVec F S256x128 .f32) (main_arg3 : FVec F S128 .f32) (main_arg4 : FVec F S128x40 .f32) (main_arg5 : FVec F S40 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x40 .f32 := Host.absf main_arg4
  let main_cst_4 : FVec F S_ .f32 := constant S_ .f32 0x7F800000#32
  let main_v15 : FVec F S128x40 .f32 := broadcastInDim S128x40 ![] bcast_S_S128x40 main_cst_4
  let main_v16 : IVec S128x40 1 := cmpf .olt main_v14 main_v15
  fn_part1 (F := F) main_arg5 main_v13 main_v16
-- ==== Kernel.lean ====
abbrev S50000x256 : Shape := ⟨2, ![50000, 256]⟩
abbrev S2x800000 : Shape := ⟨2, ![2, 800000]⟩
abbrev S256x128 : Shape := ⟨2, ![256, 128]⟩
abbrev S128 : Shape := ⟨1, ![128]⟩
abbrev S128x40 : Shape := ⟨2, ![128, 40]⟩
abbrev S40 : Shape := ⟨1, ![40]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x128 : Shape := ⟨2, ![50000, 128]⟩
abbrev S5000x256 : Shape := ⟨2, ![5000, 256]⟩
abbrev S5000x128 : Shape := ⟨2, ![5000, 128]⟩
abbrev S50000x1 : Shape := ⟨2, ![50000, 1]⟩
abbrev S800000x128 : Shape := ⟨2, ![800000, 128]⟩
abbrev S1x128 : Shape := ⟨2, ![1, 128]⟩
abbrev S50000x40 : Shape := ⟨2, ![50000, 40]⟩
abbrev S5000x40 : Shape := ⟨2, ![5000, 40]⟩
abbrev S800000x40 : Shape := ⟨2, ![800000, 40]⟩
abbrev S1x40 : Shape := ⟨2, ![1, 40]⟩

abbrev nBuf : Space → Nat
  | .hbm => 96
  | .vmem => 10
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x128, .f32⟩
  | .hbm, ⟨3, _⟩ => ⟨S128, .f32⟩
  | .hbm, ⟨4, _⟩ => ⟨S128x40, .f32⟩
  | .hbm, ⟨5, _⟩ => ⟨S40, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S_, .f32⟩
  | .hbm, ⟨11, _⟩ => ⟨S50000, .f32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S_, .f32⟩
  | .hbm, ⟨21, _⟩ => ⟨S800000, .f32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S50000, .f32⟩
  | .hbm, ⟨28, _⟩ => ⟨S50000, .i1⟩
  | .hbm, ⟨29, _⟩ => ⟨S50000, .f32⟩
  | .hbm, ⟨30, _⟩ => ⟨S_, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x128, .f32⟩
  | .hbm, ⟨35, _⟩ => ⟨S50000x1, .f32⟩
  | .hbm, ⟨36, _⟩ => ⟨S50000x128, .f32⟩
  | .hbm, ⟨37, _⟩ => ⟨S50000x128, .f32⟩
  | .hbm, ⟨38, _⟩ => ⟨S_, .i32⟩
  | .hbm, ⟨39, _⟩ => ⟨S800000, .i32⟩
  | .hbm, ⟨40, _⟩ => ⟨S800000, .i1⟩
  | .hbm, ⟨41, _⟩ => ⟨S_, .i32⟩
  | .hbm, ⟨42, _⟩ => ⟨S800000, .i32⟩
  | .hbm, ⟨43, _⟩ => ⟨S800000, .i32⟩
  | .hbm, ⟨44, _⟩ => ⟨S800000, .i32⟩
  | .hbm, ⟨45, _⟩ => ⟨S800000x1, .i32⟩
  | .hbm, ⟨46, _⟩ => ⟨S800000x128, .f32⟩
  | .hbm, ⟨47, _⟩ => ⟨S_, .f32⟩
  | .hbm, ⟨48, _⟩ => ⟨S50000x128, .f32⟩
  | .hbm, ⟨49, _⟩ => ⟨S800000x1, .i32⟩
  | .hbm, ⟨50, _⟩ => ⟨S50000x128, .f32⟩
  | .hbm, ⟨51, _⟩ => ⟨S50000x1, .f32⟩
  | .hbm, ⟨52, _⟩ => ⟨S50000x128, .f32⟩
  | .hbm, ⟨53, _⟩ => ⟨S50000x128, .f32⟩
  | .hbm, ⟨54, _⟩ => ⟨S_, .f32⟩
  | .hbm, ⟨55, _⟩ => ⟨S50000, .f32⟩
  | .hbm, ⟨56, _⟩ => ⟨S50000, .f32⟩
  | .hbm, ⟨57, _⟩ => ⟨S50000, .f32⟩
  | .hbm, ⟨58, _⟩ => ⟨S50000x1, .f32⟩
  | .hbm, ⟨59, _⟩ => ⟨S50000x128, .f32⟩
  | .hbm, ⟨60, _⟩ => ⟨S50000x128, .f32⟩
  | .hbm, ⟨61, _⟩ => ⟨S50000x128, .f32⟩
  | .hbm, ⟨62, _⟩ => ⟨S1x128, .f32⟩
  | .hbm, ⟨63, _⟩ => ⟨S50000x128, .f32⟩
  | .hbm, ⟨64, _⟩ => ⟨S50000x128, .f32⟩
  | .hbm, ⟨65, _⟩ => ⟨S50000x40, .f32⟩
  | .hbm, ⟨66, _⟩ => ⟨S50000x1, .f32⟩
  | .hbm, ⟨67, _⟩ => ⟨S50000x40, .f32⟩
  | .hbm, ⟨68, _⟩ => ⟨S50000x40, .f32⟩
  | .hbm, ⟨69, _⟩ => ⟨S_, .i32⟩
  | .hbm, ⟨70, _⟩ => ⟨S800000, .i32⟩
  | .hbm, ⟨71, _⟩ => ⟨S800000, .i1⟩
  | .hbm, ⟨72, _⟩ => ⟨S_, .i32⟩
  | .hbm, ⟨73, _⟩ => ⟨S800000, .i32⟩
  | .hbm, ⟨74, _⟩ => ⟨S800000, .i32⟩
  | .hbm, ⟨75, _⟩ => ⟨S800000, .i32⟩
  | .hbm, ⟨76, _⟩ => ⟨S800000x1, .i32⟩
  | .hbm, ⟨77, _⟩ => ⟨S800000x40, .f32⟩
  | .hbm, ⟨78, _⟩ => ⟨S_, .f32⟩
  | .hbm, ⟨79, _⟩ => ⟨S50000x40, .f32⟩
  | .hbm, ⟨80, _⟩ => ⟨S800000x1, .i32⟩
  | .hbm, ⟨81, _⟩ => ⟨S50000x40, .f32⟩
  | .hbm, ⟨82, _⟩ => ⟨S50000x1, .f32⟩
  | .hbm, ⟨83, _⟩ => ⟨S50000x40, .f32⟩
  | .hbm, ⟨84, _⟩ => ⟨S50000x40, .f32⟩
  | .hbm, ⟨85, _⟩ => ⟨S_, .f32⟩
  | .hbm, ⟨86, _⟩ => ⟨S50000, .f32⟩
  | .hbm, ⟨87, _⟩ => ⟨S50000, .f32⟩
  | .hbm, ⟨88, _⟩ => ⟨S50000, .f32⟩
  | .hbm, ⟨89, _⟩ => ⟨S50000x1, .f32⟩
  | .hbm, ⟨90, _⟩ => ⟨S50000x40, .f32⟩
  | .hbm, ⟨91, _⟩ => ⟨S50000x40, .f32⟩
  | .hbm, ⟨92, _⟩ => ⟨S50000x40, .f32⟩
  | .hbm, ⟨93, _⟩ => ⟨S1x40, .f32⟩
  | .hbm, ⟨94, _⟩ => ⟨S50000x40, .f32⟩
  | .hbm, ⟨95, _⟩ => ⟨S50000x40, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x40, .f32⟩
  | .local _ .vmem, ⟨8, _⟩ => ⟨S5000x40, .f32⟩
  | .local _ .vmem, ⟨9, _⟩ => ⟨S5000x40, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_call0_v0 : Ref sig .tc := ⟨.hbm, 31, rfl⟩
abbrev main_call0_v1 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_5 : Ref sig .tc := ⟨.hbm, 38, rfl⟩
abbrev main_v23 : Ref sig .tc := ⟨.hbm, 39, rfl⟩
abbrev main_v24 : Ref sig .tc := ⟨.hbm, 40, rfl⟩
abbrev main_c_6 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_7 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_8 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_c_9 : Ref sig .tc := ⟨.hbm, 69, rfl⟩
abbrev main_v50 : Ref sig .tc := ⟨.hbm, 70, rfl⟩
abbrev main_v51 : Ref sig .tc := ⟨.hbm, 71, rfl⟩
abbrev main_c_10 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_11 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_12 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x40 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x40 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S_S800000 : S_.BroadcastsInDim S800000 (![] : Fin 0 → Fin S800000.rank)
  bcast_S800000_S800000x1_0 : S800000.BroadcastsInDim S800000x1 (![0] : Fin 1 → Fin S800000x1.rank)
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S5000x128_S5000x128_0_0 : ∀ a, (![0, 0] : Fin 2 → Nat) a + S5000x128.size a ≤ S5000x128.size a
  h_S5000x128 : 0 < S5000x128.numel
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S5000x128_S5000x128 : S5000x128.ShapeCasts S5000x128
  inb_S128x40_S128x40_0_0 : ∀ a, (![0, 0] : Fin 2 → Nat) a + S128x40.size a ≤ S128x40.size a
  h_S128x40 : 0 < S128x40.numel
  inb_S5000x40_S5000x40_0_0 : ∀ a, (![0, 0] : Fin 2 → Nat) a + S5000x40.size a ≤ S5000x40.size a
  h_S5000x40 : 0 < S5000x40.numel
  bcast_S50000x1_S50000x40_0_1 : S50000x1.BroadcastsInDim S50000x40 (![0, 1] : Fin 2 → Fin S50000x40.rank)
  bcast_S_S50000x40 : S_.BroadcastsInDim S50000x40 (![] : Fin 0 → Fin S50000x40.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  scatter_S50000_S800000x1_S800000_n_0_0_1_wf : ScatterDims.WF S50000 S800000x1 S800000 [] [0] [0] 1
  dot_S5000x256_S256x128_S5000x128_1_0_0_1_n_n_wf : DotDims.WF S5000x256 S256x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x40_S5000x40_1_0_0_1_n_n_wf : DotDims.WF S5000x128 S128x40 S5000x40 [1] [0] [0] [1] [] []
  gather_S50000x40_S800000x1_S800000x40_1_0_n_n_0_1_140_wf : GatherDims.WF S50000x40 S800000x1 S800000x40 [1] [0] [] [0] [] 1 ![1, 40]
  scatter_S50000x40_S800000x1_S800000x40_1_0_0_1_wf : ScatterDims.WF S50000x40 S800000x1 S800000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x40.size a ≤ S128x40.size a
  hwx1_1 : ∀ i : grid1.Coords, EltTy.bits .f32 = 32 ∨ (Rect.block (s := S128x40) S128x40.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x40.size a ≤ S50000x40.size a
  hwx1_2 : ∀ i : grid1.Coords, EltTy.bits .f32 = 32 ∨ (Rect.block (s := S50000x40) S5000x40.size (cc1_transform_2 i) (hinb1_2 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf
def gather_S50000x40_S800000x1_S800000x40_1_0_n_n_0_1_140 : GatherDims S50000x40 S800000x1 S800000x40 where
  offsetDims := [1]
  collapsedSliceDims := [0]
  operandBatchingDims := []
  startIndicesBatchingDims := []
  startIndexMap := [0]
  indexVectorDim := 1
  sliceSizes := ![1, 40]
  wf := gather_S50000x40_S800000x1_S800000x40_1_0_n_n_0_1_140_wf
def scatter_S50000x40_S800000x1_S800000x40_1_0_0_1 : ScatterDims S50000x40 S800000x1 S800000x40 where
  updateWindowDims := [1]
  insertedWindowDims := [0]
  scatterDimsToOperandDims := [0]
  indexVectorDim := 1
  wf := scatter_S50000x40_S800000x1_S800000x40_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v19) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x40.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v46) S5000x40.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S256x128 : Shape := ⟨2, ![256, 128]⟩
abbrev S128 : Shape := ⟨1, ![128]⟩
abbrev S128x40 : Shape := ⟨2, ![128, 40]⟩
abbrev S40 : Shape := ⟨1, ![40]⟩
abbrev S1x800000 : Shape := ⟨2, ![1, 800000]⟩
abbrev S800000 : Shape := ⟨1, ![800000]⟩
abbrev S50000x128 : Shape := ⟨2, ![50000, 128]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩
abbrev S50000x40 : Shape := ⟨2, ![50000, 40]⟩
abbrev S800000x40 : Shape := ⟨2, ![800000, 40]⟩
abbrev S1x40 : Shape := ⟨2, ![1, 40]⟩

abbrev nBuf : Space → Nat
  | .hbm => 155
  | .vmem => 0
  | .smem => 0
  | _ => 0

abbrev hbmTy0_0 (i : Nat) : BufTy := match i % 128 with
  | 0 => ⟨S50000x256, .f32⟩
  | 1 => ⟨S2x800000, .i32⟩
  | 2 => ⟨S256x128, .f32⟩
  | 3 => ⟨S128, .f32⟩
  | 4 => ⟨S128x40, .f32⟩
  | 5 => ⟨S40, .f32⟩
  | 6 => ⟨S1x800000, .i32⟩
  | 7 => ⟨S800000, .i32⟩
  | 8 => ⟨S1x800000, .i32⟩
  | 9 => ⟨S800000, .i32⟩
  | 10 => ⟨S50000x128, .f32⟩
  | 11 => ⟨S_, .f32⟩
  | 12 => ⟨S50000, .f32⟩
  | 13 => ⟨S_, .i32⟩
  | 14 => ⟨S800000, .i32⟩
  | 15 => ⟨S800000, .i1⟩
  | 16 => ⟨S_, .i32⟩
  | 17 => ⟨S800000, .i32⟩
  | 18 => ⟨S800000, .i32⟩
  | 19 => ⟨S800000, .i32⟩
  | 20 => ⟨S800000x1, .i32⟩
  | 21 => ⟨S_, .f32⟩
  | 22 => ⟨S800000, .f32⟩
  | 23 => ⟨S50000, .f32⟩
  | 24 => ⟨S_, .f32⟩
  | 25 => ⟨S50000, .f32⟩
  | 26 => ⟨S50000, .f32⟩
  | 27 => ⟨S_, .f32⟩
  | 28 => ⟨S50000, .f32⟩
  | 29 => ⟨S50000, .i1⟩
  | 30 => ⟨S50000, .f32⟩
  | 31 => ⟨S_, .f32⟩
  | 32 => ⟨S_, .f32⟩
  | 33 => ⟨S50000, .f32⟩
  | 34 => ⟨S50000, .f32⟩
  | 35 => ⟨S_, .i32⟩
  | 36 => ⟨S800000, .i32⟩
  | 37 => ⟨S800000, .i1⟩
  | 38 => ⟨S_, .i32⟩
  | 39 => ⟨S800000, .i32⟩
  | 40 => ⟨S800000, .i32⟩
  | 41 => ⟨S800000, .i32⟩
  | 42 => ⟨S800000x1, .i32⟩
  | 43 => ⟨S800000, .f32⟩
  | 44 => ⟨S_, .i32⟩
  | 45 => ⟨S800000, .i32⟩
  | 46 => ⟨S800000, .i1⟩
  | 47 => ⟨S_, .i32⟩
  | 48 => ⟨S800000, .i32⟩
  | 49 => ⟨S800000, .i32⟩
  | 50 => ⟨S800000, .i32⟩
  | 51 => ⟨S800000x1, .i32⟩
  | 52 => ⟨S800000, .f32⟩
  | 53 => ⟨S800000, .f32⟩
  | 54 => ⟨S800000x1, .f32⟩
  | 55 => ⟨S_, .i32⟩
  | 56 => ⟨S800000, .i32⟩
  | 57 => ⟨S800000, .i1⟩
  | 58 => ⟨S_, .i32⟩
  | 59 => ⟨S800000, .i32⟩
  | 60 => ⟨S800000, .i32⟩
  | 61 => ⟨S800000, .i32⟩
  | 62 => ⟨S800000x1, .i32⟩
  | 63 => ⟨S800000x128, .f32⟩
  | 64 => ⟨S800000x128, .f32⟩
  | 65 => ⟨S800000x128, .f32⟩
  | 66 => ⟨S_, .f32⟩
  | 67 => ⟨S50000x128, .f32⟩
  | 68 => ⟨S800000x1, .i32⟩
  | 69 => ⟨S50000x128, .f32⟩
  | 70 => ⟨S_, .f32⟩
  | 71 => ⟨S50000, .f32⟩
  | 72 => ⟨S50000, .f32⟩
  | 73 => ⟨S50000, .f32⟩
  | 74 => ⟨S50000x1, .f32⟩
  | 75 => ⟨S50000x128, .f32⟩
  | 76 => ⟨S50000x128, .f32⟩
  | 77 => ⟨S50000x128, .f32⟩
  | 78 => ⟨S1x128, .f32⟩
  | 79 => ⟨S50000x128, .f32⟩
  | 80 => ⟨S50000x128, .f32⟩
  | 81 => ⟨S_, .f32⟩
  | 82 => ⟨S50000x128, .f32⟩
  | 83 => ⟨S50000x128, .f32⟩
  | 84 => ⟨S50000x40, .f32⟩
  | 85 => ⟨S_, .f32⟩
  | 86 => ⟨S50000, .f32⟩
  | 87 => ⟨S_, .i32⟩
  | 88 => ⟨S800000, .i32⟩
  | 89 => ⟨S800000, .i1⟩
  | 90 => ⟨S_, .i32⟩
  | 91 => ⟨S800000, .i32⟩
  | 92 => ⟨S800000, .i32⟩
  | 93 => ⟨S800000, .i32⟩
  | 94 => ⟨S800000x1, .i32⟩
  | 95 => ⟨S_, .f32⟩
  | 96 => ⟨S800000, .f32⟩
  | 97 => ⟨S50000, .f32⟩
  | 98 => ⟨S_, .f32⟩
  | 99 => ⟨S50000, .f32⟩
  | 100 => ⟨S50000, .f32⟩
  | 101 => ⟨S_, .f32⟩
  | 102 => ⟨S50000, .f32⟩
  | 103 => ⟨S50000, .i1⟩
  | 104 => ⟨S50000, .f32⟩
  | 105 => ⟨S_, .f32⟩
  | 106 => ⟨S_, .f32⟩
  | 107 => ⟨S50000, .f32⟩
  | 108 => ⟨S50000, .f32⟩
  | 109 => ⟨S_, .i32⟩
  | 110 => ⟨S800000, .i32⟩
  | 111 => ⟨S800000, .i1⟩
  | 112 => ⟨S_, .i32⟩
  | 113 => ⟨S800000, .i32⟩
  | 114 => ⟨S800000, .i32⟩
  | 115 => ⟨S800000, .i32⟩
  | 116 => ⟨S800000x1, .i32⟩
  | 117 => ⟨S800000, .f32⟩
  | 118 => ⟨S_, .i32⟩
  | 119 => ⟨S800000, .i32⟩
  | 120 => ⟨S800000, .i1⟩
  | 121 => ⟨S_, .i32⟩
  | 122 => ⟨S800000, .i32⟩
  | 123 => ⟨S800000, .i32⟩
  | 124 => ⟨S800000, .i32⟩
  | 125 => ⟨S800000x1, .i32⟩
  | 126 => ⟨S800000, .f32⟩
  | 127 => ⟨S800000, .f32⟩
  | _ => ⟨S50000x256, .f32⟩

abbrev hbmTy0_1 (i : Nat) : BufTy := match i % 128 with
  | 0 => ⟨S800000x1, .f32⟩
  | 1 => ⟨S_, .i32⟩
  | 2 => ⟨S800000, .i32⟩
  | 3 => ⟨S800000, .i1⟩
  | 4 => ⟨S_, .i32⟩
  | 5 => ⟨S800000, .i32⟩
  | 6 => ⟨S800000, .i32⟩
  | 7 => ⟨S800000, .i32⟩
  | 8 => ⟨S800000x1, .i32⟩
  | 9 => ⟨S800000x40, .f32⟩
  | 10 => ⟨S800000x40, .f32⟩
  | 11 => ⟨S800000x40, .f32⟩
  | 12 => ⟨S_, .f32⟩
  | 13 => ⟨S50000x40, .f32⟩
  | 14 => ⟨S800000x1, .i32⟩
  | 15 => ⟨S50000x40, .f32⟩
  | 16 => ⟨S_, .f32⟩
  | 17 => ⟨S50000, .f32⟩
  | 18 => ⟨S50000, .f32⟩
  | 19 => ⟨S50000, .f32⟩
  | 20 => ⟨S50000x1, .f32⟩
  | 21 => ⟨S50000x40, .f32⟩
  | 22 => ⟨S50000x40, .f32⟩
  | 23 => ⟨S50000x40, .f32⟩
  | 24 => ⟨S1x40, .f32⟩
  | 25 => ⟨S50000x40, .f32⟩
  | 26 => ⟨S50000x40, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_call0_v0 : Ref sig .tc := ⟨.hbm, 32, rfl⟩
abbrev main_call0_v1 : Ref sig .tc := ⟨.hbm, 33, rfl⟩
abbrev main_v19 : Ref sig .tc := ⟨.hbm, 34, rfl⟩
abbrev main_c_5 : Ref sig .tc := ⟨.hbm, 35, rfl⟩
abbrev main_v20 : Ref sig .tc := ⟨.hbm, 36, rfl⟩
abbrev main_v21 : Ref sig .tc := ⟨.hbm, 37, rfl⟩
abbrev main_c_6 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_c_7 : Ref sig .tc := ⟨.hbm, 44, rfl⟩
abbrev main_v27 : Ref sig .tc := ⟨.hbm, 45, rfl⟩
abbrev main_v28 : Ref sig .tc := ⟨.hbm, 46, rfl⟩
abbrev main_c_8 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_c_9 : Ref sig .tc := ⟨.hbm, 55, rfl⟩
abbrev main_v36 : Ref sig .tc := ⟨.hbm, 56, rfl⟩
abbrev main_v37 : Ref sig .tc := ⟨.hbm, 57, rfl⟩
abbrev main_c_10 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_11 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_12 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_call1_cst : Ref sig .tc := ⟨.hbm, 81, rfl⟩
abbrev main_call1_v0 : Ref sig .tc := ⟨.hbm, 82, rfl⟩
abbrev main_v58 : Ref sig .tc := ⟨.hbm, 83, rfl⟩
abbrev main_v59 : Ref sig .tc := ⟨.hbm, 84, rfl⟩
abbrev main_cst_13 : Ref sig .tc := ⟨.hbm, 85, rfl⟩
abbrev main_v60 : Ref sig .tc := ⟨.hbm, 86, rfl⟩
abbrev main_c_14 : Ref sig .tc := ⟨.hbm, 87, rfl⟩
abbrev main_v61 : Ref sig .tc := ⟨.hbm, 88, rfl⟩
abbrev main_v62 : Ref sig .tc := ⟨.hbm, 89, rfl⟩
abbrev main_c_15 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_cst_16 : Ref sig .tc := ⟨.hbm, 95, rfl⟩
abbrev main_v67 : Ref sig .tc := ⟨.hbm, 96, rfl⟩
abbrev main_v68 : Ref sig .tc := ⟨.hbm, 97, rfl⟩
abbrev main_cst_17 : Ref sig .tc := ⟨.hbm, 98, rfl⟩
abbrev main_v69 : Ref sig .tc := ⟨.hbm, 99, rfl⟩
abbrev main_v70 : Ref sig .tc := ⟨.hbm, 100, rfl⟩
abbrev main_cst_18 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_cst_19 : Ref sig .tc := ⟨.hbm, 105, rfl⟩
abbrev main_call2_v0 : Ref sig .tc := ⟨.hbm, 106, rfl⟩
abbrev main_call2_v1 : Ref sig .tc := ⟨.hbm, 107, rfl⟩
abbrev main_v74 : Ref sig .tc := ⟨.hbm, 108, rfl⟩
abbrev main_c_20 : Ref sig .tc := ⟨.hbm, 109, rfl⟩
abbrev main_v75 : Ref sig .tc := ⟨.hbm, 110, rfl⟩
abbrev main_v76 : Ref sig .tc := ⟨.hbm, 111, rfl⟩
abbrev main_c_21 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_c_22 : Ref sig .tc := ⟨.hbm, 118, rfl⟩
abbrev main_v82 : Ref sig .tc := ⟨.hbm, 119, rfl⟩
abbrev main_v83 : Ref sig .tc := ⟨.hbm, 120, rfl⟩
abbrev main_c_23 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_c_24 : Ref sig .tc := ⟨.hbm, 129, rfl⟩
abbrev main_v91 : Ref sig .tc := ⟨.hbm, 130, rfl⟩
abbrev main_v92 : Ref sig .tc := ⟨.hbm, 131, rfl⟩
abbrev main_c_25 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_cst_26 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_cst_27 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S800000x1_S800000x40_0_1 : S800000x1.BroadcastsInDim S800000x40 (![0, 1] : Fin 2 → Fin S800000x40.rank)
  bcast_S_S50000x40 : S_.BroadcastsInDim S50000x40 (![] : Fin 0 → Fin S50000x40.rank)
  bcast_S50000x1_S50000x40_0_1 : S50000x1.BroadcastsInDim S50000x40 (![0, 1] : Fin 2 → Fin S50000x40.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  dot_S50000x256_S256x128_S50000x128_1_0_0_1_n_n_wf : DotDims.WF S50000x256 S256x128 S50000x128 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x40_S50000x40_1_0_0_1_n_n_wf : DotDims.WF S50000x128 S128x40 S50000x40 [1] [0] [0] [1] [] []
  gather_S50000x40_S800000x1_S800000x40_1_0_n_n_0_1_140_wf : GatherDims.WF S50000x40 S800000x1 S800000x40 [1] [0] [] [0] [] 1 ![1, 40]
  scatter_S50000x40_S800000x1_S800000x40_1_0_0_1_wf : ScatterDims.WF S50000x40 S800000x1 S800000x40 [1] [0] [0] 1

variable [Facts₀]

def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x40_S50000x40_1_0_0_1_n_n : DotDims S50000x128 S128x40 S50000x40 where
  lhsContracting := [1]
  rhsContracting := [0]
  lhsNonContracting := [0]
  rhsNonContracting := [1]
  lhsBatch := []
  rhsBatch := []
  wf := dot_S50000x128_S128x40_S50000x40_1_0_0_1_n_n_wf
def gather_S50000x40_S800000x1_S800000x40_1_0_n_n_0_1_140 : GatherDims S50000x40 S800000x1 S800000x40 where
  offsetDims := [1]
  collapsedSliceDims := [0]
  operandBatchingDims := []
  startIndicesBatchingDims := []
  startIndexMap := [0]
  indexVectorDim := 1
  sliceSizes := ![1, 40]
  wf := gather_S50000x40_S800000x1_S800000x40_1_0_n_n_0_1_140_wf
def scatter_S50000x40_S800000x1_S800000x40_1_0_0_1 : ScatterDims S50000x40 S800000x1 S800000x40 where
  updateWindowDims := [1]
  insertedWindowDims := [0]
  scatterDimsToOperandDims := [0]
  indexVectorDim := 1
  wf := scatter_S50000x40_S800000x1_S800000x40_1_0_0_1_wf

class Facts : Prop extends Facts₀ where

variable [Facts]
-- ==== Proof.Spec.lean ====
/-
  The two programs as compositions of a few array-level functions.

  Both programs compute a two-layer graph convolution over N = 50000 nodes and E = 800000 directed edges
  (row[e], col[e]).  With deg[i] = 1 + #{e | row[e] = i} and dis = deg^(-1/2) (0 where deg is not positive),
  one layer with features h : [N, C] and bias b : [C] is

      out[i, f] = (sum over the edges e with row[e] = i of  dis[row[e]] * dis[col[e]] * h[col[e], f])
                  + (1 * dis[i] * dis[i]) * h[i, f] + b[f].

  The reference forms the edge weight dis[row[e]] * dis[col[e]] per edge and scatters the weighted rows
  (`layerEdge`); the kernel scales h by dis per node first, gathers, scatters, and scales the segment sums by dis
  again (`layerNode`).  The whole computation is  layer C=40 (relu (layer C=128 (x · W1))) · W2 .
  Every function below is written once, with the operations and the dimension numbers of the printed reference;
  the printed kernel's host operations are the same terms.
-/
import proofs.«107875_j44521630990796_2_alg».proof.ReferenceIdeal
import proofs.«107875_j44521630990796_2_alg».proof.Proof.Gen.ReferenceIdeal
import Idealize.ShloMosaic.PureOps.Ideal

noncomputable section

namespace Cert.Spec

open Idealize.ShloMosaic Cert.ReferenceIdeal Cert.ReferenceIdeal.Facts₀

/-- Row 0 of the edge list: the node an edge is aggregated at. -/
def rowOf (ei : IVec S2x800000 32) : IVec S800000 32 :=
  shapeCast S800000 (extractStridedSlice S1x800000 ![0, 0] ei slices_S2x800000_S1x800000_0_0) shapeCasts_S1x800000_S800000

/-- Row 1 of the edge list: the node an edge gathers from. -/
def colOf (ei : IVec S2x800000 32) : IVec S800000 32 :=
  shapeCast S800000 (extractStridedSlice S1x800000 ![1, 0] ei slices_S2x800000_S1x800000_1_0) shapeCasts_S1x800000_S800000

/-- Node numbers as start indices `[E, 1]`, a negative number counted from the end (`r + N`). -/
def wrapIdx (r : IVec S800000 32) : IVec S800000x1 32 :=
  broadcastInDim S800000x1 ![0] bcast_S800000_S800000x1_0
    (select (cmpi .slt r (broadcastInDim S800000 ![] bcast_S_S800000 (constantI S_ 32 0#32)))
      (addi r (broadcastInDim S800000 ![] bcast_S_S800000 (constantI S_ 32 50000#32))) r)

/-- Node numbers as start indices `[E, 1]`, as they are. -/
def rawIdx (r : IVec S800000 32) : IVec S800000x1 32 :=
  broadcastInDim S800000x1 ![0] bcast_S800000_S800000x1_0 r

/-- deg = 1 + the number of edges aggregated at each node. -/
def degOf (row : IVec S800000 32) : FVec Ideal S50000 .f32 :=
  addf
    (Host.scatterAdd scatter_S50000_S800000x1_S800000_n_0_0_1
      (broadcastInDim S50000 ![] bcast_S_S50000 (constant S_ .f32 0x00000000#32))
      (wrapIdx row)
      (broadcastInDim S800000 ![] bcast_S_S800000 (constant S_ .f32 0x3F800000#32)))
    (broadcastInDim S50000 ![] bcast_S_S50000 (constant S_ .f32 0x3F800000#32))

/-- dis = deg^(-1/2) where deg > 0, else 0. -/
def disOf (row : IVec S800000 32) : FVec Ideal S50000 .f32 :=
  select (cmpf .ogt (degOf row) (broadcastInDim S50000 ![] bcast_S_S50000 (constant S_ .f32 0x00000000#32)))
    (Host.rsqrt (degOf row))
    (broadcastInDim S50000 ![] bcast_S_S50000 (constant S_ .f32 0x00000000#32))

/-- x · W1. -/
def mm1 (x : FVec Ideal S50000x256 .f32) (w : FVec Ideal S256x128 .f32) : FVec Ideal S50000x128 .f32 :=
  Host.dotGeneral dot_S50000x256_S256x128_S50000x128_1_0_0_1_n_n none x w

/-- a · W2. -/
def mm2 (a : FVec Ideal S50000x128 .f32) (w : FVec Ideal S128x40 .f32) : FVec Ideal S50000x40 .f32 :=
  Host.dotGeneral dot_S50000x128_S128x40_S50000x40_1_0_0_1_n_n none a w

/-- max(a, 0). -/
def reluOf (a : FVec Ideal S50000x128 .f32) : FVec Ideal S50000x128 .f32 :=
  maximumf a (broadcastInDim S50000x128 ![] bcast_S_S50000x128 (constant S_ .f32 0x00000000#32))

/-- The self-loop weight per node, 1 · dis · dis. -/
def selfW (dis : FVec Ideal S50000 .f32) : FVec Ideal S50000 .f32 :=
  mulf (mulf (broadcastInDim S50000 ![] bcast_S_S50000 (constant S_ .f32 0x3F800000#32)) dis) dis

/-! ## One layer with 128 features -/

/-- dis as a column, across the 128 features. -/
def col128 (v : FVec Ideal S50000 .f32) : FVec Ideal S50000x128 .f32 :=
  broadcastInDim S50000x128 ![0, 1] bcast_S50000x1_S50000x128_0_1 (broadcastInDim S50000x1 ![0] bcast_S50000_S50000x1_0 v)

/-- The segment sums, edge by edge with the edge's weight (the reference's arrangement). -/
def aggEdge128 (dis : FVec Ideal S50000 .f32) (row col : IVec S800000 32) (h : FVec Ideal S50000x128 .f32) :
    FVec Ideal S50000x128 .f32 :=
  Host.scatterAdd scatter_S50000x128_S800000x1_S800000x128_1_0_0_1
    (broadcastInDim S50000x128 ![] bcast_S_S50000x128 (constant S_ .f32 0x00000000#32))
    (rawIdx row)
    (mulf
      (broadcastInDim S800000x128 ![0, 1] bcast_S800000x1_S800000x128_0_1
        (broadcastInDim S800000x1 ![0] bcast_S800000_S800000x1_0
          (mulf (Host.gather gather_S50000_S800000x1_S800000_n_0_n_n_0_1_1 dis (wrapIdx row))
            (Host.gather gather_S50000_S800000x1_S800000_n_0_n_n_0_1_1 dis (wrapIdx col)))))
      (Host.gather gather_S50000x128_S800000x1_S800000x128_1_0_n_n_0_1_1128 h (wrapIdx col)))

/-- The segment sums of the rows scaled per node, scaled per node again (the kernel's arrangement). -/
def aggNode128 (dis : FVec Ideal S50000 .f32) (row col : IVec S800000 32) (h : FVec Ideal S50000x128 .f32) :
    FVec Ideal S50000x128 .f32 :=
  mulf (col128 dis)
    (Host.scatterAdd scatter_S50000x128_S800000x1_S800000x128_1_0_0_1
      (broadcastInDim S50000x128 ![] bcast_S_S50000x128 (constant S_ .f32 0x00000000#32))
      (rawIdx row)
      (Host.gather gather_S50000x128_S800000x1_S800000x128_1_0_n_n_0_1_1128 (mulf (col128 dis) h) (wrapIdx col)))

/-- The rest of a layer: the self-loop term and the bias. -/
def finish128 (agg : FVec Ideal S50000x128 .f32) (dis : FVec Ideal S50000 .f32) (h : FVec Ideal S50000x128 .f32)
    (b : FVec Ideal S128 .f32) : FVec Ideal S50000x128 .f32 :=
  addf (addf agg (mulf (col128 (selfW dis)) h))
    (broadcastInDim S50000x128 ![0, 1] bcast_S1x128_S50000x128_0_1 (broadcastInDim S1x128 ![1] bcast_S128_S1x128_1 b))

/-! ## One layer with 40 features -/

def col40 (v : FVec Ideal S50000 .f32) : FVec Ideal S50000x40 .f32 :=
  broadcastInDim S50000x40 ![0, 1] bcast_S50000x1_S50000x40_0_1 (broadcastInDim S50000x1 ![0] bcast_S50000_S50000x1_0 v)

def aggEdge40 (dis : FVec Ideal S50000 .f32) (row col : IVec S800000 32) (h : FVec Ideal S50000x40 .f32) :
    FVec Ideal S50000x40 .f32 :=
  Host.scatterAdd scatter_S50000x40_S800000x1_S800000x40_1_0_0_1
    (broadcastInDim S50000x40 ![] bcast_S_S50000x40 (constant S_ .f32 0x00000000#32))
    (rawIdx row)
    (mulf
      (broadcastInDim S800000x40 ![0, 1] bcast_S800000x1_S800000x40_0_1
        (broadcastInDim S800000x1 ![0] bcast_S800000_S800000x1_0
          (mulf (Host.gather gather_S50000_S800000x1_S800000_n_0_n_n_0_1_1 dis (wrapIdx row))
            (Host.gather gather_S50000_S800000x1_S800000_n_0_n_n_0_1_1 dis (wrapIdx col)))))
      (Host.gather gather_S50000x40_S800000x1_S800000x40_1_0_n_n_0_1_140 h (wrapIdx col)))

def aggNode40 (dis : FVec Ideal S50000 .f32) (row col : IVec S800000 32) (h : FVec Ideal S50000x40 .f32) :
    FVec Ideal S50000x40 .f32 :=
  mulf (col40 dis)
    (Host.scatterAdd scatter_S50000x40_S800000x1_S800000x40_1_0_0_1
      (broadcastInDim S50000x40 ![] bcast_S_S50000x40 (constant S_ .f32 0x00000000#32))
      (rawIdx row)
      (Host.gather gather_S50000x40_S800000x1_S800000x40_1_0_n_n_0_1_140 (mulf (col40 dis) h) (wrapIdx col)))

def finish40 (agg : FVec Ideal S50000x40 .f32) (dis : FVec Ideal S50000 .f32) (h : FVec Ideal S50000x40 .f32)
    (b : FVec Ideal S40 .f32) : FVec Ideal S50000x40 .f32 :=
  addf (addf agg (mulf (col40 (selfW dis)) h))
    (broadcastInDim S50000x40 ![0, 1] bcast_S1x40_S50000x40_0_1 (broadcastInDim S1x40 ![1] bcast_S40_S1x40_1 b))

/-! ## The two programs -/

/-- The reference: both layers in the edge arrangement. -/
def refOut (x : FVec Ideal S50000x256 .f32) (ei : IVec S2x800000 32) (w1 : FVec Ideal S256x128 .f32)
    (b1 : FVec Ideal S128 .f32) (w2 : FVec Ideal S128x40 .f32) (b2 : FVec Ideal S40 .f32) : FVec Ideal S50000x40 .f32 :=
  let row := rowOf ei
  let col := colOf ei
  let dis := disOf row
  let h1 := mm1 x w1
  let o1 := finish128 (aggEdge128 dis row col h1) dis h1 b1
  let h2 := mm2 (reluOf o1) w2
  finish40 (aggEdge40 dis row col h2) dis h2 b2

/-- The kernel: both layers in the node arrangement. -/
def kerOut (x : FVec Ideal S50000x256 .f32) (ei : IVec S2x800000 32) (w1 : FVec Ideal S256x128 .f32)
    (b1 : FVec Ideal S128 .f32) (w2 : FVec Ideal S128x40 .f32) (b2 : FVec Ideal S40 .f32) : FVec Ideal S50000x40 .f32 :=
  let row := rowOf ei
  let col := colOf ei
  let dis := disOf row
  let h1 := mm1 x w1
  let o1 := finish128 (aggNode128 dis row col h1) dis h1 b1
  let h2 := mm2 (reluOf o1) w2
  finish40 (aggNode40 dis row col h2) dis h2 b2

end Cert.Spec

end
-- ==== Proof.LibRowMax.lean ====
/-
  Reading a "subtract the column maximum" expression over a matrix at an index given by its coordinates, for any
  extents a × b.

  * The index over the column coordinate `q` with row coordinate `k` inserted on the first axis is `(k, q)`; hence, on
    the extended reals, a vector maximum along the FIRST axis of an `[a, b]` matrix is the fold of `max` over the row
    coordinate, and the host's maximum along the first axis is the same fold from its initial value; the vector maxima
    kept as a row `[1, b]` and broadcast down the rows again read the column's maximum at every row.
  * The host's keepdims forms: a `[b]` vector placed as the one row of `[1, b]`, that row broadcast down `a` rows, and
    a column `[a, 1]` broadcast across `b` columns.
  * A plain matrix product `[a, k] × [k, b] → [a, b]` (the left operand's last axis contracted with the right
    operand's first): its sum over the contraction index is the sum over `e : Fin k` of `lhs (i, e) * rhs (e, j)`, for
    the vector unit's product into a zero accumulator and for the host's.
-/
import Idealize.ShloMosaic.Lib.ValueLayout
import Idealize.ShloMosaic.Lib.Pipeline.Value
import Idealize.ShloMosaic.PureOps.Ideal.Laws

noncomputable section

namespace Cert.LibRowMax

open Idealize.ShloMosaic Idealize.ShloMosaic.ValueIdx

variable {α : Type} {a b : ℕ}

/-! ## The maximum along the first axis -/

/-- Over the column coordinate `q`, with `k` inserted on the first axis: `(k, q)`. -/
theorem lift_first (h : (⟨2, ![a, b]⟩ : Shape).Reduces [0] ⟨1, ![b]⟩) (q : Fin b) (k : Fin a) :
    h.lift (ix1 q) k = ix2 k q := by
  funext ax
  apply Fin.ext
  match ax with
  | ⟨0, _⟩ => rfl
  | ⟨1, _⟩ => rfl

variable {φ : FTy}

/-- A vector maximum along the first axis, at column `q`: the fold of `max` from the accumulator's value over the rows. -/
theorem multiReduction_max_first (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ)
    (q : Fin b) :
    multiReduction .maximumf [0] ⟨1, ![b]⟩ src acc h hφ hacc (ix1 q)
      = (Finset.univ : Finset (Fin a)).fold max (Ideal.ofBits φ acc) fun k => src (ix2 k q) := by
  refine (Ideal.multiReduction_maximumf_single src acc h hφ hacc (ix1 q)).trans ?_
  refine congrArg (Finset.fold max (Ideal.ofBits φ acc) · Finset.univ) (funext fun k => ?_)
  exact congrArg src (lift_first h q k)

/-- The host's maximum along the first axis, at column `q`: the fold of `max` from the initial value over the rows. -/
theorem hostReduce_max_first {u : Shape} (x : (⟨2, ![a, b]⟩ : Shape).Idx → Ideal φ) (init : u.Idx → Ideal φ)
    (h' : (⟨2, ![a, b]⟩ : Shape).ReducesTo [0] ⟨1, ![b]⟩) (h : (⟨2, ![a, b]⟩ : Shape).Reduces [0] ⟨1, ![b]⟩)
    (hu : 0 < u.numel) (q : Fin b) :
    Host.reduce (FloatOps.maximumf (F := Ideal) (φ := φ)) x init h' hu (ix1 q)
      = (Finset.univ : Finset (Fin a)).fold max (init (Shape.Idx.first hu)) fun k => x (ix2 k q) := by
  refine (Host.reduce_eq_fold_single (FloatOps.maximumf (F := Ideal) (φ := φ)) x init h' h hu (ix1 q)).trans ?_
  refine congrArg (Finset.fold max (init (Shape.Idx.first hu)) · Finset.univ) (funext fun k => ?_)
  exact congrArg x (lift_first h q k)

/-- The column maxima kept as one row `[1, b]` and broadcast down `a` rows again read, at `(p, q)`, the maximum of
    column `q`. -/
theorem colMax_broadcastTo_apply (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ)
    (hc : (⟨1, ![b]⟩ : Shape).ShapeCasts ⟨2, ![1, b]⟩) (hb : (⟨2, ![1, b]⟩ : Shape).Broadcasts ⟨2, ![a, b]⟩)
    (p : Fin a) (q : Fin b) :
    broadcastTo ⟨2, ![a, b]⟩ (shapeCast ⟨2, ![1, b]⟩ (multiReduction .maximumf [0] ⟨1, ![b]⟩ src acc h hφ hacc) hc) hb (ix2 p q)
      = (Finset.univ : Finset (Fin a)).fold max (Ideal.ofBits φ acc) fun k => src (ix2 k q) :=
  (broadcastTo_1b_ab_apply _ hb p q).trans
    ((shapeCast_a_1a_apply _ hc (0 : Fin 1) q).trans (multiReduction_max_first src acc h hφ hacc q))

/-! ## The host's keepdims forms -/

/-- A `[b]` vector placed as the row of `[1, b]` reads, at `(u, q)`, the vector at `q`. -/
theorem broadcastInDim_b_1b_apply (x : (⟨1, ![b]⟩ : Shape).Idx → α)
    (h : (⟨1, ![b]⟩ : Shape).BroadcastsInDim ⟨2, ![1, b]⟩ ![1]) (u : Fin 1) (q : Fin b) :
    broadcastInDim ⟨2, ![1, b]⟩ ![1] h x (ix2 u q) = x (ix1 q) := by
  refine broadcastInDim_apply _ h x (ix2 u q) (ix1 q) fun ax => ?_
  match ax with
  | ⟨0, _⟩ =>
    show q.val = if b = 1 then 0 else q.val
    split
    · have := q.isLt; omega
    · rfl

/-- A `[1, b]` row broadcast down `a` rows reads, at `(p, q)`, the row at `q`. -/
theorem broadcastInDim_1b_ab_apply (v : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h v (ix2 p q) = v (ix2 (0 : Fin 1) q) := by
  refine broadcastInDim_apply _ h v (ix2 p q) (ix2 (0 : Fin 1) q) fun ax => ?_
  match ax with
  | ⟨0, _⟩ =>
    show 0 = if (1 : ℕ) = 1 then 0 else p.val
    rw [if_pos rfl]
  | ⟨1, _⟩ =>
    show q.val = if b = 1 then 0 else q.val
    split
    · have := q.isLt; omega
    · rfl

/-- An `[a, 1]` column broadcast across `b` columns reads, at `(p, q)`, the column's entry in row `p`. -/
theorem broadcastInDim_a1_ab_apply (v : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h v (ix2 p q) = v (ix2 p (0 : Fin 1)) := by
  refine broadcastInDim_apply _ h v (ix2 p q) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else q.val
    rw [if_pos rfl]

/-! ## A plain matrix product -/

variable {k : ℕ}

/-- The dimension numbers of a plain product `[a, k] × [k, b] → [a, b]`: no batch axis, the left operand's last axis
    contracted with the right operand's first. -/
abbrev plainDims (a k b : ℕ)
    (wf : DotDims.WF ⟨2, ![a, k]⟩ ⟨2, ![k, b]⟩ ⟨2, ![a, b]⟩ [1] [0] [0] [1] [] []) :
    DotDims ⟨2, ![a, k]⟩ ⟨2, ![k, b]⟩ ⟨2, ![a, b]⟩ where
  lhsContracting := [1]
  rhsContracting := [0]
  lhsNonContracting := [0]
  rhsNonContracting := [1]
  lhsBatch := []
  rhsBatch := []
  wf := wf

/-- The left operand's index at output `(i, j)` and contraction coordinate `e` is `(i, e)`. -/
theorem plain_lhsIdx (wf : DotDims.WF ⟨2, ![a, k]⟩ ⟨2, ![k, b]⟩ ⟨2, ![a, b]⟩ [1] [0] [0] [1] [] [])
    (i : Fin a) (j : Fin b) (e : Fin k) :
    (plainDims a k b wf).lhsIdx (ix2 i j) ((contrEquiv1 (plainDims a k b wf) k rfl rfl).symm e) = ix2 i e := by
  funext ax
  apply Fin.ext
  match ax with
  | ⟨0, _⟩ => rfl
  | ⟨1, _⟩ =>
    exact ((plainDims a k b wf).lhsIdx_val_of_single rfl (ix2 i j) _).trans
      (contrEquiv1_symm_val (plainDims a k b wf) k rfl rfl e)

/-- The right operand's index at output `(i, j)` and contraction coordinate `e` is `(e, j)`. -/
theorem plain_rhsIdx (wf : DotDims.WF ⟨2, ![a, k]⟩ ⟨2, ![k, b]⟩ ⟨2, ![a, b]⟩ [1] [0] [0] [1] [] [])
    (i : Fin a) (j : Fin b) (e : Fin k) :
    (plainDims a k b wf).rhsIdx (ix2 i j) ((contrEquiv1 (plainDims a k b wf) k rfl rfl).symm e) = ix2 e j := by
  funext ax
  apply Fin.ext
  match ax with
  | ⟨0, _⟩ =>
    exact ((plainDims a k b wf).rhsIdx_val_of_single rfl (ix2 i j) _).trans
      (contrEquiv1_symm_val (plainDims a k b wf) k rfl rfl e)
  | ⟨1, _⟩ => rfl

/-- The contraction's sum of products, over the contracted coordinate. -/
theorem plain_sum (wf : DotDims.WF ⟨2, ![a, k]⟩ ⟨2, ![k, b]⟩ ⟨2, ![a, b]⟩ [1] [0] [0] [1] [] [])
    (lhs : (⟨2, ![a, k]⟩ : Shape).Idx → EReal) (rhs : (⟨2, ![k, b]⟩ : Shape).Idx → EReal) (i : Fin a) (j : Fin b) :
    ∑ kk : (plainDims a k b wf).contr.Idx,
        lhs ((plainDims a k b wf).lhsIdx (ix2 i j) kk) * rhs ((plainDims a k b wf).rhsIdx (ix2 i j) kk)
      = ∑ e : Fin k, lhs (ix2 i e) * rhs (ix2 e j) := by
  rw [← Equiv.sum_comp (contrEquiv1 (plainDims a k b wf) k rfl rfl).symm]
  refine Finset.sum_congr rfl fun e _ => ?_
  rw [plain_lhsIdx wf i j e, plain_rhsIdx wf i j e]

/-- The vector unit's plain product into a zero accumulator, at `(i, j)`: the sum over `e` of `lhs (i, e) * rhs (e, j)`. -/
theorem matmul_plain_apply {φ₁ φ₂ : FTy} (wf : DotDims.WF ⟨2, ![a, k]⟩ ⟨2, ![k, b]⟩ ⟨2, ![a, b]⟩ [1] [0] [0] [1] [] [])
    (prec : Option ContractPrecision) (lhs : FVec Ideal ⟨2, ![a, k]⟩ φ₁) (rhs : FVec Ideal ⟨2, ![k, b]⟩ φ₂)
    (i : Fin a) (j : Fin b) :
    FloatOps.matmul (plainDims a k b wf) prec lhs rhs (constant ⟨2, ![a, b]⟩ .f32 0x00000000#32) (ix2 i j)
      = ∑ e : Fin k, lhs (ix2 i e) * rhs (ix2 e j) :=
  (Ideal.matmul_constant_zero_apply (plainDims a k b wf) prec lhs rhs (ix2 i j)).trans (plain_sum wf lhs rhs i j)

/-- The host's plain product, at `(i, j)`: the same sum. -/
theorem dotGeneral_plain_apply {φ₁ φ₂ : FTy} (wf : DotDims.WF ⟨2, ![a, k]⟩ ⟨2, ![k, b]⟩ ⟨2, ![a, b]⟩ [1] [0] [0] [1] [] [])
    (prec : Option ContractPrecision) (sched : HostSchedule) (lhs : FVec Ideal ⟨2, ![a, k]⟩ φ₁)
    (rhs : FVec Ideal ⟨2, ![k, b]⟩ φ₂) (i : Fin a) (j : Fin b) :
    FloatOps.dotGeneral (plainDims a k b wf) prec sched lhs rhs (ix2 i j)
      = ∑ e : Fin k, lhs (ix2 i e) * rhs (ix2 e j) :=
  (Ideal.dotGeneral_apply (plainDims a k b wf) prec sched lhs rhs (ix2 i j)).trans (plain_sum wf lhs rhs i j)

end Cert.LibRowMax

end
-- ==== Proof.KernelRegions.lean ====
/-
  What each of the kernel's two regions leaves in its output array, as one whole-array function of the arrays the
  region finds.  Region 0 multiplies x : [50000, 256] by W1 : [256, 128], 5000 rows per grid point; region 1 clamps
  its left operand at zero first and multiplies by W2 : [128, 40].  Each output block is the product of the matching
  row block, the ten blocks tile the rows, so the array after the region is the whole product.
-/
import proofs.«107875_j44521630990796_2_alg».proof.Proof.Gen.KernelIdeal.Frame
import proofs.«107875_j44521630990796_2_alg».proof.Proof.Spec
import proofs.«107875_j44521630990796_2_alg».proof.Proof.LibRowMax
import Idealize.ShloMosaic.Lib.Pipeline.Value
import Idealize.ShloMosaic.Lib.ValueIdx
import Idealize.ShloMosaic.PureOps.Ideal.Laws

set_option maxRecDepth 16384

noncomputable section

namespace Cert.KernelRegions

open Idealize.ShloMosaic Idealize.ShloMosaic.TcCoe Idealize.SL.Sem Idealize.ShloMosaic.ValueIdx
open Cert.KernelIdeal Cert.KernelIdeal.Gen

/-! ## Both regions: the zero offsets of a whole-buffer access -/

theorem hz : (![0, 0] : Fin 2 → Nat) = fun _ => 0 := funext fun a => by fin_cases a <;> rfl

/-! ## Region 0: x · W1 -/

/-- The entry of the block product at row p, column q: the sum over the contracted coordinate. -/
theorem pay0_apply (x0 : Vec Ideal S5000x256 .f32) (x1 : Vec Ideal S256x128 .f32) (p : Fin 5000) (q : Fin 128) :
    k0_pay1 x0 x1 (ix2 p q) = ∑ k : Fin 256, x0 (ix2 p k) * x1 (ix2 k q) := by
  unfold k0_pay1
  exact Cert.LibRowMax.matmul_plain_apply dot_S5000x256_S256x128_S5000x128_1_0_0_1_n_n_wf none x0 x1 p q

/-- x · w as one function of the two whole arrays, index by index. -/
abbrev prod0 (x : S50000x256.Idx → EReal) (w : S256x128.Idx → EReal) : S50000x128.Idx → EReal :=
  fun j => ∑ k : Fin 256, x (ix2 (n0 := 50000) (n1 := 256) (j 0) k) * w (ix2 (n0 := 256) (n1 := 128) k (j 1))

/-- The block product at a block index, when the left block's row and the right block's column are the whole
    arrays' at an array index: the whole product there. -/
theorem pay0_block (x0 : Vec Ideal S5000x256 .f32) (x1 : Vec Ideal S256x128 .f32)
    (x : S50000x256.Idx → EReal) (w : S256x128.Idx → EReal) (y : S5000x128.Idx) (i : S50000x128.Idx)
    (hx : ∀ k : Fin 256, x0 (ix2 (n0 := 5000) (n1 := 256) (y 0) k) = x (ix2 (n0 := 50000) (n1 := 256) (i 0) k))
    (hw : ∀ k : Fin 256, x1 (ix2 (n0 := 256) (n1 := 128) k (y 1)) = w (ix2 (n0 := 256) (n1 := 128) k (i 1))) :
    k0_pay1 x0 x1 y = prod0 x w i := by
  obtain ⟨p, q, rfl⟩ : ∃ (p : Fin 5000) (q : Fin 128), y = ix2 p q := ⟨y 0, y 1, eq_ix2 y⟩
  rw [pay0_apply]
  exact Finset.sum_congr rfl fun k _ => by rw [hx k, hw k]

/-- The block indices at point t: the row blocks of x and of the output are the t-th, W1 is one block. -/
theorem idx_facts0 : ∀ t : Fin cfg0.N,
    win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- An index of the output array is in point t's block iff each coordinate is in the block's range on its axis. -/
theorem mem_blk0 (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v19).slice (win0_2.rect t)).set ↔ _
  rw [View.set_slice_whole, Rect.mem_set_unit]
  exact Iff.rfl

/-- The ten row blocks tile the rows: row r is in the block of point r / 5000. -/
theorem cover0 (i : S50000x128.Idx) :
    ∃ t : Fin cfg0.N, (cfg0.win 2).flush t = true ∧ i ∈ ((cfg0.win 2).blk t).view.set := by
  have h0 : (i 0).val < 50000 := idx2_lt0 i
  have h1 : (i 1).val < 128 := idx2_lt1 i
  have hN : cfg0.N = 10 := N_0
  obtain ⟨t, ht⟩ : ∃ t : Fin cfg0.N, t.val = (i 0).val / 5000 := ⟨⟨(i 0).val / 5000, by rw [hN]; omega⟩, rfl⟩
  refine ⟨t, flush0_2 t, ?_⟩
  rw [mem_blk0]
  obtain ⟨-, -, -, -, e4, e5⟩ := idx_facts0 t
  intro a
  match a with
  | ⟨0, _⟩ =>
    show win0_2.index t (0 : Fin 2) * 5000 ≤ (i 0).val ∧ (i 0).val < win0_2.index t (0 : Fin 2) * 5000 + 5000
    rw [e4, ht]; omega
  | ⟨1, _⟩ =>
    show win0_2.index t (1 : Fin 2) * 128 ≤ (i 1).val ∧ (i 1).val < win0_2.index t (1 : Fin 2) * 128 + 128
    rw [e5]; omega

/-- The host's product of the two whole arrays is the same sum, index by index. -/
theorem prod0_eq_mm1 (x : S50000x256.Idx → EReal) (w : S256x128.Idx → EReal) : prod0 x w = Cert.Spec.mm1 x w := by
  funext j
  obtain ⟨p, q, rfl⟩ : ∃ (p : Fin 50000) (q : Fin 128), j = ix2 p q := ⟨j 0, j 1, eq_ix2 j⟩
  exact (Cert.LibRowMax.dotGeneral_plain_apply Cert.ReferenceIdeal.Gen.dot_S50000x256_S256x128_S50000x128_1_0_0_1_n_n_wf
    none .single x w p q).symm

/-! ## Region 1: max(a, 0) · W2 -/

/-- The entry of the clamped block product at row p, column q. -/
theorem pay1_apply (x0 : Vec Ideal S5000x128 .f32) (x1 : Vec Ideal S128x40 .f32) (p : Fin 5000) (q : Fin 40) :
    k1_pay1 x0 x1 (ix2 p q) = ∑ k : Fin 128, max (x0 (ix2 p k)) 0 * x1 (ix2 k q) := by
  unfold k1_pay1
  refine (Cert.LibRowMax.matmul_plain_apply dot_S5000x128_S128x40_S5000x40_1_0_0_1_n_n_wf none _ _ p q).trans ?_
  refine Finset.sum_congr rfl fun k _ => ?_
  show max (shapeCast S5000x128 x0 shapeCasts_S5000x128_S5000x128 (ix2 p k)) (Ideal.ofBits .f32 0x00000000#32) * x1 (ix2 k q) = _
  rw [shapeCast_self, Ideal.ofBits_zero_f32]

/-- max(a, 0) · w as one function of the two whole arrays, index by index. -/
abbrev prod1 (a : S50000x128.Idx → EReal) (w : S128x40.Idx → EReal) : S50000x40.Idx → EReal :=
  fun j => ∑ k : Fin 128, max (a (ix2 (n0 := 50000) (n1 := 128) (j 0) k)) 0 * w (ix2 (n0 := 128) (n1 := 40) k (j 1))

/-- The clamped block product at a block index, when the left block's row and the right block's column are the
    whole arrays' at an array index: the whole clamped product there. -/
theorem pay1_block (x0 : Vec Ideal S5000x128 .f32) (x1 : Vec Ideal S128x40 .f32)
    (a : S50000x128.Idx → EReal) (w : S128x40.Idx → EReal) (y : S5000x40.Idx) (i : S50000x40.Idx)
    (hx : ∀ k : Fin 128, x0 (ix2 (n0 := 5000) (n1 := 128) (y 0) k) = a (ix2 (n0 := 50000) (n1 := 128) (i 0) k))
    (hw : ∀ k : Fin 128, x1 (ix2 (n0 := 128) (n1 := 40) k (y 1)) = w (ix2 (n0 := 128) (n1 := 40) k (i 1))) :
    k1_pay1 x0 x1 y = prod1 a w i := by
  obtain ⟨p, q, rfl⟩ : ∃ (p : Fin 5000) (q : Fin 40), y = ix2 p q := ⟨y 0, y 1, eq_ix2 y⟩
  rw [pay1_apply]
  exact Finset.sum_congr rfl fun k _ => by rw [hx k, hw k]

/-- The block indices at point t: the row blocks of the left operand and of the output are the t-th, W2 is one block. -/
theorem idx_facts1 : ∀ t : Fin cfg1.N,
    win1_0.index t (0 : Fin 2) = t.val
    ∧ win1_0.index t (1 : Fin 2) = 0
    ∧ win1_1.index t (0 : Fin 2) = 0
    ∧ win1_1.index t (1 : Fin 2) = 0
    ∧ win1_2.index t (0 : Fin 2) = t.val
    ∧ win1_2.index t (1 : Fin 2) = 0 :=
  (by decide +kernel : ∀ t : Fin grid1.N, _)

/-- An index of the output array is in point t's block iff each coordinate is in the block's range on its axis. -/
theorem mem_blk1 (t : Fin cfg1.N) (i : S50000x40.Idx) :
    i ∈ ((cfg1.win 2).blk t).view.set ↔ ∀ a : Fin 2, win1_2.index t a * S5000x40.size a ≤ (i a).val ∧ (i a).val < win1_2.index t a * S5000x40.size a + S5000x40.size a := by
  show i ∈ ((View.whole main_v46).slice (win1_2.rect t)).set ↔ _
  rw [View.set_slice_whole, Rect.mem_set_unit]
  exact Iff.rfl

/-- The ten row blocks tile the rows: row r is in the block of point r / 5000. -/
theorem cover1 (i : S50000x40.Idx) :
    ∃ t : Fin cfg1.N, (cfg1.win 2).flush t = true ∧ i ∈ ((cfg1.win 2).blk t).view.set := by
  have h0 : (i 0).val < 50000 := idx2_lt0 i
  have h1 : (i 1).val < 40 := idx2_lt1 i
  have hN : cfg1.N = 10 := N_1
  obtain ⟨t, ht⟩ : ∃ t : Fin cfg1.N, t.val = (i 0).val / 5000 := ⟨⟨(i 0).val / 5000, by rw [hN]; omega⟩, rfl⟩
  refine ⟨t, flush1_2 t, ?_⟩
  rw [mem_blk1]
  obtain ⟨-, -, -, -, e4, e5⟩ := idx_facts1 t
  intro a
  match a with
  | ⟨0, _⟩ =>
    show win1_2.index t (0 : Fin 2) * 5000 ≤ (i 0).val ∧ (i 0).val < win1_2.index t (0 : Fin 2) * 5000 + 5000
    rw [e4, ht]; omega
  | ⟨1, _⟩ =>
    show win1_2.index t (1 : Fin 2) * 40 ≤ (i 1).val ∧ (i 1).val < win1_2.index t (1 : Fin 2) * 40 + 40
    rw [e5]; omega

/-- The clamp at zero of a whole array, index by index. -/
theorem reluOf_apply (a : S50000x128.Idx → EReal) (i : S50000x128.Idx) : Cert.Spec.reluOf a i = max (a i) 0 := by
  unfold Cert.Spec.reluOf
  rw [maximumf_apply, broadcastInDim_apply _ _ _ i ix0 (fun d => d.elim0), constant_apply, Ideal.ofBits_zero_f32]

/-- The host's product of the clamped array and the weights is the same sum, index by index. -/
theorem prod1_eq_mm2 (a : S50000x128.Idx → EReal) (w : S128x40.Idx → EReal) :
    prod1 a w = Cert.Spec.mm2 (Cert.Spec.reluOf a) w := by
  funext j
  obtain ⟨p, q, rfl⟩ : ∃ (p : Fin 50000) (q : Fin 40), j = ix2 p q := ⟨j 0, j 1, eq_ix2 j⟩
  refine (Finset.sum_congr rfl fun k _ => ?_).trans
    (Cert.LibRowMax.dotGeneral_plain_apply Cert.ReferenceIdeal.Gen.dot_S50000x128_S128x40_S50000x40_1_0_0_1_n_n_wf
      none .single (Cert.Spec.reluOf a) w p q).symm
  rw [reluOf_apply]

/-! ## The two regions at the arrays they find -/

variable (V : (c : Dev nD) → (b : Ref sig .tc) → Buf (Elt Ideal) ((c : Thread nD τ).loc b))

/-- What point t of region 0 writes back is block t of the whole product of the arrays the region finds. -/
theorem flushed0_eq (c : Dev nD) (t : Fin cfg0.N) :
    (dat0 (F := Ideal) V c).flushed 2 t = ((cfg0.win 2).blk t).view.read (Elt Ideal) (prod0 (V c main_arg0) (V c main_arg2)) := by
  show (cfg0.win 2).cut (grid0.coords t) ((dat0 (F := Ideal) V c).after 2 t) = _
  rw [after0_2]
  unfold out0_2
  rw [View.canon_unit_zero hz]
  simp only [View.ld_unit_zero (S := S5000x256) hz, View.ld_unit_zero (S := S256x128) hz]
  obtain ⟨e0, e1, e2, e3, e4, e5⟩ := idx_facts0 t
  funext j
  refine pay0_block (iblk0 V c 0 t) (iblk0 V c 1 t) (V c main_arg0) (V c main_arg2) ((win0 2).xinj (grid0.coords t) j)
    (((cfg0.win 2).blk t).view.emb j) (fun k => ?_) (fun k => ?_)
  · show V c main_arg0 (((cfg0.win 0).blk t).view.emb (ix2 ((win0 2).xinj (grid0.coords t) j 0) k)) = _
    refine congrArg (V c main_arg0) (funext fun a => Fin.ext ?_)
    match a with
    | ⟨0, _⟩ =>
      show win0_0.index t (0 : Fin 2) * 5000 + 1 * (j 0).val = win0_2.index t (0 : Fin 2) * 5000 + 1 * (j 0).val
      rw [e0, e4]
    | ⟨1, _⟩ =>
      show win0_0.index t (1 : Fin 2) * 256 + 1 * k.val = k.val
      rw [e1]; omega
  · show V c main_arg2 (((cfg0.win 1).blk t).view.emb (ix2 k ((win0 2).xinj (grid0.coords t) j 1))) = _
    refine congrArg (V c main_arg2) (funext fun a => Fin.ext ?_)
    match a with
    | ⟨0, _⟩ =>
      show win0_1.index t (0 : Fin 2) * 256 + 1 * k.val = k.val
      rw [e2]; omega
    | ⟨1, _⟩ =>
      show win0_1.index t (1 : Fin 2) * 128 + 1 * (j 1).val = win0_2.index t (1 : Fin 2) * 128 + 1 * (j 1).val
      rw [e3, e5]

/-- Region 0's output array after the region: x · W1 of the arrays it finds. -/
theorem region0 (c : Dev nD) :
    (dat0 (F := Ideal) V c).arrAt 2 cfg0.N = Cert.Spec.mm1 (V c main_arg0) (V c main_arg2) := by
  exact ((dat0 (F := Ideal) V c).arrAt_eq_of_cover 2 (prod0 (V c main_arg0) (V c main_arg2))
    (fun t _ => flushed0_eq V c t) cover0).trans (prod0_eq_mm1 (V c main_arg0) (V c main_arg2))

/-- What point t of region 1 writes back is block t of the whole clamped product of the arrays the region finds. -/
theorem flushed1_eq (c : Dev nD) (t : Fin cfg1.N) :
    (dat1 (F := Ideal) V c).flushed 2 t = ((cfg1.win 2).blk t).view.read (Elt Ideal) (prod1 (V c main_v45) (V c main_arg4)) := by
  show (cfg1.win 2).cut (grid1.coords t) ((dat1 (F := Ideal) V c).after 2 t) = _
  rw [after1_2]
  unfold out1_2
  rw [View.canon_unit_zero hz]
  simp only [View.ld_unit_zero (S := S5000x128) hz, View.ld_unit_zero (S := S128x40) hz]
  obtain ⟨e0, e1, e2, e3, e4, e5⟩ := idx_facts1 t
  funext j
  refine pay1_block (iblk1 V c 0 t) (iblk1 V c 1 t) (V c main_v45) (V c main_arg4) ((win1 2).xinj (grid1.coords t) j)
    (((cfg1.win 2).blk t).view.emb j) (fun k => ?_) (fun k => ?_)
  · show V c main_v45 (((cfg1.win 0).blk t).view.emb (ix2 ((win1 2).xinj (grid1.coords t) j 0) k)) = _
    refine congrArg (V c main_v45) (funext fun a => Fin.ext ?_)
    match a with
    | ⟨0, _⟩ =>
      show win1_0.index t (0 : Fin 2) * 5000 + 1 * (j 0).val = win1_2.index t (0 : Fin 2) * 5000 + 1 * (j 0).val
      rw [e0, e4]
    | ⟨1, _⟩ =>
      show win1_0.index t (1 : Fin 2) * 128 + 1 * k.val = k.val
      rw [e1]; omega
  · show V c main_arg4 (((cfg1.win 1).blk t).view.emb (ix2 k ((win1 2).xinj (grid1.coords t) j 1))) = _
    refine congrArg (V c main_arg4) (funext fun a => Fin.ext ?_)
    match a with
    | ⟨0, _⟩ =>
      show win1_1.index t (0 : Fin 2) * 128 + 1 * k.val = k.val
      rw [e2]; omega
    | ⟨1, _⟩ =>
      show win1_1.index t (1 : Fin 2) * 40 + 1 * (j 1).val = win1_2.index t (1 : Fin 2) * 40 + 1 * (j 1).val
      rw [e3, e5]

/-- Region 1's output array after the region: max(a, 0) · W2 of the arrays it finds. -/
theorem region1 (c : Dev nD) :
    (dat1 (F := Ideal) V c).arrAt 2 cfg1.N = Cert.Spec.mm2 (Cert.Spec.reluOf (V c main_v45)) (V c main_arg4) := by
  exact ((dat1 (F := Ideal) V c).arrAt_eq_of_cover 2 (prod1 (V c main_v45) (V c main_arg4))
    (fun t _ => flushed1_eq V c t) cover1).trans (prod1_eq_mm2 (V c main_v45) (V c main_arg4))

end Cert.KernelRegions

end
-- ==== Proof.KernelRun.lean ====
/-
  The idealized kernel's run with its result named: every weakly fair execution of @main terminates, the result array
  holds the node arrangement of the two layers (`Spec.kerOut`) of the argument arrays, and the arguments are unchanged.
-/
import proofs.«107875_j44521630990796_2_alg».proof.Proof.Gen.KernelIdeal.Frame
import proofs.«107875_j44521630990796_2_alg».proof.Proof.Spec
import proofs.«107875_j44521630990796_2_alg».proof.Proof.KernelRegions
import Idealize.ShloMosaic.Lib.StableHlo.Run

set_option maxRecDepth 16384

noncomputable section

namespace Cert.KernelRun

open Idealize.ShloMosaic Idealize.ShloMosaic.TcCoe Idealize.SL.Sem
open Cert.KernelIdeal Cert.KernelIdeal.Gen

/-! ## The host stretches, one at a time, from arbitrary contents

Each lemma reads one buffer after one stretch of host operations as an array-level function (`Cert.Spec`) of the
contents the stretch starts from, or says the stretch leaves the buffer as it found it. -/

section Stages

variable (W : Valuation τ sig (Elt Ideal))

/-! ### The first stretch: the edge rows and deg^(-1/2) -/

/-- Row 0 of the edge list. -/
theorem stage00_v1 :
    StableHlo.after hostOps0 W (Proc.devRef .tc main_v1) = Cert.Spec.rowOf (W (Proc.devRef .tc main_arg1)) := by
  after_results_simp
  rfl

/-- Row 1 of the edge list. -/
theorem stage00_v3 :
    StableHlo.after hostOps0 W (Proc.devRef .tc main_v3) = Cert.Spec.colOf (W (Proc.devRef .tc main_arg1)) := by
  after_results_simp
  rfl

/-- Where the degree is positive. -/
theorem stage00_v16 :
    StableHlo.after hostOps0 W (Proc.devRef .tc main_v16)
      = cmpf .ogt (Cert.Spec.degOf (Cert.Spec.rowOf (W (Proc.devRef .tc main_arg1))))
          (broadcastInDim S50000 ![] bcast_S_S50000 (constant S_ .f32 0x00000000#32)) := by
  after_results_simp
  rfl

/-- The degree's inverse square root. -/
theorem stage00_v17 :
    StableHlo.after hostOps0 W (Proc.devRef .tc main_v17)
      = Host.rsqrt (Cert.Spec.degOf (Cert.Spec.rowOf (W (Proc.devRef .tc main_arg1)))) := by
  after_results_simp
  rfl

/-- The zero the selection falls back to. -/
theorem stage00_cst_4 :
    StableHlo.after hostOps0 W (Proc.devRef .tc main_cst_4) = (constant S_ .f32 0x00000000#32 : FVec Ideal S_ .f32) := by
  after_results_simp

/-- The first stretch writes no argument array. -/
theorem stage00_arg0 : StableHlo.after hostOps0 W (Proc.devRef .tc main_arg0) = W (Proc.devRef .tc main_arg0) := by
  after_results_simp
theorem stage00_arg2 : StableHlo.after hostOps0 W (Proc.devRef .tc main_arg2) = W (Proc.devRef .tc main_arg2) := by
  after_results_simp
theorem stage00_arg3 : StableHlo.after hostOps0 W (Proc.devRef .tc main_arg3) = W (Proc.devRef .tc main_arg3) := by
  after_results_simp
theorem stage00_arg4 : StableHlo.after hostOps0 W (Proc.devRef .tc main_arg4) = W (Proc.devRef .tc main_arg4) := by
  after_results_simp
theorem stage00_arg5 : StableHlo.after hostOps0 W (Proc.devRef .tc main_arg5) = W (Proc.devRef .tc main_arg5) := by
  after_results_simp

/-! ### The selection (the called function's three operations) -/

/-- The selection between two arrays and a broadcast scalar. -/
theorem stage01_v18 :
    StableHlo.after hostOps0_1 W (Proc.devRef .tc main_v18)
      = select (W (Proc.devRef .tc main_v16)) (W (Proc.devRef .tc main_v17))
          (broadcastInDim S50000 ![] bcast_S_S50000 (W (Proc.devRef .tc main_cst_4))) := by
  after_results_simp
  rfl

/-- It writes neither edge row and no argument array. -/
theorem stage01_v1 : StableHlo.after hostOps0_1 W (Proc.devRef .tc main_v1) = W (Proc.devRef .tc main_v1) := by
  after_results_simp
theorem stage01_v3 : StableHlo.after hostOps0_1 W (Proc.devRef .tc main_v3) = W (Proc.devRef .tc main_v3) := by
  after_results_simp
theorem stage01_arg0 : StableHlo.after hostOps0_1 W (Proc.devRef .tc main_arg0) = W (Proc.devRef .tc main_arg0) := by
  after_results_simp
theorem stage01_arg2 : StableHlo.after hostOps0_1 W (Proc.devRef .tc main_arg2) = W (Proc.devRef .tc main_arg2) := by
  after_results_simp
theorem stage01_arg3 : StableHlo.after hostOps0_1 W (Proc.devRef .tc main_arg3) = W (Proc.devRef .tc main_arg3) := by
  after_results_simp
theorem stage01_arg4 : StableHlo.after hostOps0_1 W (Proc.devRef .tc main_arg4) = W (Proc.devRef .tc main_arg4) := by
  after_results_simp
theorem stage01_arg5 : StableHlo.after hostOps0_1 W (Proc.devRef .tc main_arg5) = W (Proc.devRef .tc main_arg5) := by
  after_results_simp

/-! ### The first stretch and the selection together -/

/-- deg^(-1/2) of the aggregation nodes. -/
theorem stage0_v18 :
    StableHlo.after hostOps0_1 (StableHlo.after hostOps0 W) (Proc.devRef .tc main_v18)
      = Cert.Spec.disOf (Cert.Spec.rowOf (W (Proc.devRef .tc main_arg1))) := by
  rw [stage01_v18, stage00_v16, stage00_v17, stage00_cst_4]
  rfl

theorem stage0_v1 :
    StableHlo.after hostOps0_1 (StableHlo.after hostOps0 W) (Proc.devRef .tc main_v1)
      = Cert.Spec.rowOf (W (Proc.devRef .tc main_arg1)) := by
  rw [stage01_v1, stage00_v1]

theorem stage0_v3 :
    StableHlo.after hostOps0_1 (StableHlo.after hostOps0 W) (Proc.devRef .tc main_v3)
      = Cert.Spec.colOf (W (Proc.devRef .tc main_arg1)) := by
  rw [stage01_v3, stage00_v3]

theorem stage0_arg0 :
    StableHlo.after hostOps0_1 (StableHlo.after hostOps0 W) (Proc.devRef .tc main_arg0) = W (Proc.devRef .tc main_arg0) := by
  rw [stage01_arg0, stage00_arg0]
theorem stage0_arg2 :
    StableHlo.after hostOps0_1 (StableHlo.after hostOps0 W) (Proc.devRef .tc main_arg2) = W (Proc.devRef .tc main_arg2) := by
  rw [stage01_arg2, stage00_arg2]
theorem stage0_arg3 :
    StableHlo.after hostOps0_1 (StableHlo.after hostOps0 W) (Proc.devRef .tc main_arg3) = W (Proc.devRef .tc main_arg3) := by
  rw [stage01_arg3, stage00_arg3]
theorem stage0_arg4 :
    StableHlo.after hostOps0_1 (StableHlo.after hostOps0 W) (Proc.devRef .tc main_arg4) = W (Proc.devRef .tc main_arg4) := by
  rw [stage01_arg4, stage00_arg4]
theorem stage0_arg5 :
    StableHlo.after hostOps0_1 (StableHlo.after hostOps0 W) (Proc.devRef .tc main_arg5) = W (Proc.devRef .tc main_arg5) := by
  rw [stage01_arg5, stage00_arg5]

/-! ### The second stretch: the first layer around region 0's product -/

/-- The first layer, in the node arrangement. -/
theorem stage1_v45 :
    StableHlo.after hostOps1 W (Proc.devRef .tc main_v45)
      = Cert.Spec.finish128
          (Cert.Spec.aggNode128 (W (Proc.devRef .tc main_v18)) (W (Proc.devRef .tc main_v1)) (W (Proc.devRef .tc main_v3))
            (W (Proc.devRef .tc main_v19)))
          (W (Proc.devRef .tc main_v18)) (W (Proc.devRef .tc main_v19)) (W (Proc.devRef .tc main_arg3)) := by
  after_results_simp
  rfl

/-- The second stretch keeps the edge rows, deg^(-1/2) and the last two arguments. -/
theorem stage1_v1 : StableHlo.after hostOps1 W (Proc.devRef .tc main_v1) = W (Proc.devRef .tc main_v1) := by
  after_results_simp
theorem stage1_v3 : StableHlo.after hostOps1 W (Proc.devRef .tc main_v3) = W (Proc.devRef .tc main_v3) := by
  after_results_simp
theorem stage1_v18 : StableHlo.after hostOps1 W (Proc.devRef .tc main_v18) = W (Proc.devRef .tc main_v18) := by
  after_results_simp
theorem stage1_arg4 : StableHlo.after hostOps1 W (Proc.devRef .tc main_arg4) = W (Proc.devRef .tc main_arg4) := by
  after_results_simp
theorem stage1_arg5 : StableHlo.after hostOps1 W (Proc.devRef .tc main_arg5) = W (Proc.devRef .tc main_arg5) := by
  after_results_simp

/-! ### The last stretch: the second layer around region 1's product -/

/-- The second layer, in the node arrangement. -/
theorem stage2_v72 :
    StableHlo.after hostOps2 W (Proc.devRef .tc main_v72)
      = Cert.Spec.finish40
          (Cert.Spec.aggNode40 (W (Proc.devRef .tc main_v18)) (W (Proc.devRef .tc main_v1)) (W (Proc.devRef .tc main_v3))
            (W (Proc.devRef .tc main_v46)))
          (W (Proc.devRef .tc main_v18)) (W (Proc.devRef .tc main_v46)) (W (Proc.devRef .tc main_arg5)) := by
  after_results_simp
  rfl

end Stages

/-! ## The walk from the launch memory to the result

The buffer contents at each segment boundary (`W0 … W6`), read at the buffers the next stage uses, as array-level
functions of the six argument arrays. -/

section Walk

variable (m : (ℓ : Loc nD τ sig) → Buf (Elt Ideal) ℓ) (ρ : Dev nD → PrngReg) (c : Dev nD)

/-- The six argument arrays of core `c` at launch. -/
abbrev aX : FVec Ideal Cert.ReferenceIdeal.S50000x256 .f32 := m ((c.tc : Thread nD τ).loc main_arg0)
abbrev aEi : IVec Cert.ReferenceIdeal.S2x800000 32 := m ((c.tc : Thread nD τ).loc main_arg1)
abbrev aW1 : FVec Ideal Cert.ReferenceIdeal.S256x128 .f32 := m ((c.tc : Thread nD τ).loc main_arg2)
abbrev aB1 : FVec Ideal Cert.ReferenceIdeal.S128 .f32 := m ((c.tc : Thread nD τ).loc main_arg3)
abbrev aW2 : FVec Ideal Cert.ReferenceIdeal.S128x40 .f32 := m ((c.tc : Thread nD τ).loc main_arg4)
abbrev aB2 : FVec Ideal Cert.ReferenceIdeal.S40 .f32 := m ((c.tc : Thread nD τ).loc main_arg5)

/-- The values `Spec.kerOut` names on the way. -/
abbrev vRow := Cert.Spec.rowOf (aEi m c)
abbrev vCol := Cert.Spec.colOf (aEi m c)
abbrev vDis := Cert.Spec.disOf (vRow m c)
abbrev vH1 := Cert.Spec.mm1 (aX m c) (aW1 m c)
abbrev vO1 :=
  Cert.Spec.finish128 (Cert.Spec.aggNode128 (vDis m c) (vRow m c) (vCol m c) (vH1 m c)) (vDis m c) (vH1 m c) (aB1 m c)
abbrev vH2 := Cert.Spec.mm2 (Cert.Spec.reluOf (vO1 m c)) (aW2 m c)

/-! ### At region 0's entry (`W2`) -/

theorem W2_v1 : W2 m ρ c (Proc.devRef .tc main_v1) = vRow m c := stage0_v1 (W0 m ρ c)
theorem W2_v3 : W2 m ρ c (Proc.devRef .tc main_v3) = vCol m c := stage0_v3 (W0 m ρ c)
theorem W2_v18 : W2 m ρ c (Proc.devRef .tc main_v18) = vDis m c := stage0_v18 (W0 m ρ c)
theorem W2_arg0 : W2 m ρ c (Proc.devRef .tc main_arg0) = aX m c := stage0_arg0 (W0 m ρ c)
theorem W2_arg2 : W2 m ρ c (Proc.devRef .tc main_arg2) = aW1 m c := stage0_arg2 (W0 m ρ c)
theorem W2_arg3 : W2 m ρ c (Proc.devRef .tc main_arg3) = aB1 m c := stage0_arg3 (W0 m ρ c)
theorem W2_arg4 : W2 m ρ c (Proc.devRef .tc main_arg4) = aW2 m c := stage0_arg4 (W0 m ρ c)
theorem W2_arg5 : W2 m ρ c (Proc.devRef .tc main_arg5) = aB2 m c := stage0_arg5 (W0 m ρ c)

/-! ### At region 0's exit (`W3`): its output array holds x · W1, every other buffer is as entered -/

theorem W3_v19 : W3 m ρ c (Proc.devRef .tc main_v19) = vH1 m c :=
  (W3_arr m ρ c 2).trans ((Cert.KernelRegions.region0 (V2 m ρ) c).trans
    (congrArg₂ Cert.Spec.mm1 (W2_arg0 m ρ c) (W2_arg2 m ρ c)))
theorem W3_v1 : W3 m ρ c (Proc.devRef .tc main_v1) = vRow m c :=
  (W3_of_ne m ρ c main_v1 (by decide)).trans (W2_v1 m ρ c)
theorem W3_v3 : W3 m ρ c (Proc.devRef .tc main_v3) = vCol m c :=
  (W3_of_ne m ρ c main_v3 (by decide)).trans (W2_v3 m ρ c)
theorem W3_v18 : W3 m ρ c (Proc.devRef .tc main_v18) = vDis m c :=
  (W3_of_ne m ρ c main_v18 (by decide)).trans (W2_v18 m ρ c)
theorem W3_arg3 : W3 m ρ c (Proc.devRef .tc main_arg3) = aB1 m c :=
  (W3_of_ne m ρ c main_arg3 (by decide)).trans (W2_arg3 m ρ c)
theorem W3_arg4 : W3 m ρ c (Proc.devRef .tc main_arg4) = aW2 m c :=
  (W3_of_ne m ρ c main_arg4 (by decide)).trans (W2_arg4 m ρ c)
theorem W3_arg5 : W3 m ρ c (Proc.devRef .tc main_arg5) = aB2 m c :=
  (W3_of_ne m ρ c main_arg5 (by decide)).trans (W2_arg5 m ρ c)

/-! ### At region 1's entry (`W4`) -/

theorem W4_v45 : W4 m ρ c (Proc.devRef .tc main_v45) = vO1 m c := by
  refine (stage1_v45 (W3 m ρ c)).trans ?_
  rw [W3_v18, W3_v1, W3_v3, W3_v19, W3_arg3]
theorem W4_v1 : W4 m ρ c (Proc.devRef .tc main_v1) = vRow m c := (stage1_v1 _).trans (W3_v1 m ρ c)
theorem W4_v3 : W4 m ρ c (Proc.devRef .tc main_v3) = vCol m c := (stage1_v3 _).trans (W3_v3 m ρ c)
theorem W4_v18 : W4 m ρ c (Proc.devRef .tc main_v18) = vDis m c := (stage1_v18 _).trans (W3_v18 m ρ c)
theorem W4_arg4 : W4 m ρ c (Proc.devRef .tc main_arg4) = aW2 m c := (stage1_arg4 _).trans (W3_arg4 m ρ c)
theorem W4_arg5 : W4 m ρ c (Proc.devRef .tc main_arg5) = aB2 m c := (stage1_arg5 _).trans (W3_arg5 m ρ c)

/-! ### At region 1's exit (`W5`): its output array holds max(o1, 0) · W2, every other buffer is as entered -/

theorem W5_v46 : W5 m ρ c (Proc.devRef .tc main_v46) = vH2 m c :=
  (W5_arr m ρ c 2).trans ((Cert.KernelRegions.region1 (V4 m ρ) c).trans
    (congrArg₂ (fun a w => Cert.Spec.mm2 (Cert.Spec.reluOf a) w) (W4_v45 m ρ c) (W4_arg4 m ρ c)))
theorem W5_v1 : W5 m ρ c (Proc.devRef .tc main_v1) = vRow m c :=
  (W5_of_ne m ρ c main_v1 (by decide)).trans (W4_v1 m ρ c)
theorem W5_v3 : W5 m ρ c (Proc.devRef .tc main_v3) = vCol m c :=
  (W5_of_ne m ρ c main_v3 (by decide)).trans (W4_v3 m ρ c)
theorem W5_v18 : W5 m ρ c (Proc.devRef .tc main_v18) = vDis m c :=
  (W5_of_ne m ρ c main_v18 (by decide)).trans (W4_v18 m ρ c)
theorem W5_arg5 : W5 m ρ c (Proc.devRef .tc main_arg5) = aB2 m c :=
  (W5_of_ne m ρ c main_arg5 (by decide)).trans (W4_arg5 m ρ c)

/-- The result buffer at the last boundary holds the two layers in the node arrangement. -/
theorem W6_eq :
    W6 m ρ c (Proc.devRef .tc main_v72)
      = Cert.Spec.kerOut (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  refine (stage2_v72 (W5 m ρ c)).trans ?_
  rw [W5_v18, W5_v1, W5_v3, W5_v46, W5_arg5]
  rfl

end Walk

/-! ## The run with the result buffer read at the last boundary's contents -/

section Run

open Idealize.ShloMosaic.Tactic
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, and in every final state the result buffer holds the last
    boundary's contents `W6` at it and the six argument arrays are as launched. -/
theorem run_W6 : θ_run defs (onTc (τ := τ) (main (F := F))) ⟨m, fun _ => 0, ρ⟩ (fun r => ∀ c : Dev nD,
      r.2.mem ((c.tc : Thread nD τ).loc main_v72) = W6 m ρ c (Proc.devRef .tc main_v72)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨(h c _ (mem_uc main_v72 (by decide))),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c)⟩)

end Run

/-! ## The run -/

theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v72)
          = Cert.Spec.kerOut (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run (defs (F := Ideal)) _ _).mono (fun r h c => ⟨(h c).1.trans (W6_eq m ρ c), (h c).2⟩) (run_W6 m ρ)

end Cert.KernelRun

end
-- ==== Proof.RefRun.lean ====
/-
  The idealized reference's run with its result named: every weakly fair execution of @main terminates, the result
  array holds the edge arrangement of the two layers (`Spec.refOut`) of the argument arrays, and the arguments are
  unchanged.

  @main is a straight line of 149 host operations.  The line is cut into four consecutive stages; what each stage
  leaves in the buffers the later stages read is stated over an arbitrary valuation of the buffers, as one of the
  array-level functions of `Spec` applied to the stage's own inputs, so that no composed term is ever formed:
    A  the two rows of the edge list, x · W1, and dis (degree, inverse square root, zero where the degree is not positive);
    B  layer 1 on 128 features, relu, and the product with W2;
    C  dis a second time (the program recomputes it from the same row);
    D  layer 2 on 40 features.
  The four stage values composed are `Spec.refOut`'s lets, read in order.
-/
import proofs.«107875_j44521630990796_2_alg».proof.ReferenceIdeal
import proofs.«107875_j44521630990796_2_alg».proof.Proof.Gen.ReferenceIdeal
import proofs.«107875_j44521630990796_2_alg».proof.Proof.Spec
import Idealize.ShloMosaic.Lib.StableHlo.Run

noncomputable section

namespace Cert.RefRun

open Idealize.ShloMosaic Idealize.ShloMosaic.TcCoe Idealize.SL.Sem Idealize.ShloMosaic.StableHlo
open Cert.ReferenceIdeal Cert.ReferenceIdeal.Gen

variable {F : FTy → Type} [FloatOps F]

/-- @main's 149 operations, in order (a called function's operations stand in its call's place, spelt `TRef.…`). -/
abbrev ops : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    binary main_arg0 main_arg2 main_v4 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    nullary main_cst (constant S_ .f32 0x00000000#32),
    unary main_cst main_v5 (broadcastInDim S50000 ![] bcast_S_S50000 : (⟨S_, .f32⟩ : BufTy).Contents (Elt F) → (⟨S50000, .f32⟩ : BufTy).Contents (Elt F)),
    nullary main_c (constantI S_ 32 0#32),
    unary main_c main_v6 (broadcastInDim S800000 ![] bcast_S_S800000 : (⟨S_, .i32⟩ : BufTy).Contents (Elt F) → (⟨S800000, .i32⟩ : BufTy).Contents (Elt F)),
    binary main_v1 main_v6 main_v7 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v8 (broadcastInDim S800000 ![] bcast_S_S800000 : (⟨S_, .i32⟩ : BufTy).Contents (Elt F) → (⟨S800000, .i32⟩ : BufTy).Contents (Elt F)),
    binary main_v1 main_v8 main_v9 (addi : (⟨S800000, .i32⟩ : BufTy).Contents (Elt F) → (⟨S800000, .i32⟩ : BufTy).Contents (Elt F) → (⟨S800000, .i32⟩ : BufTy).Contents (Elt F)),
    ternary main_v7 main_v9 main_v1 main_v10 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v10 main_v11 (broadcastInDim S800000x1 ![0] bcast_S800000_S800000x1_0 : (⟨S800000, .i32⟩ : BufTy).Contents (Elt F) → (⟨S800000x1, .i32⟩ : BufTy).Contents (Elt F)),
    nullary main_cst_1 (constant S_ .f32 0x3F800000#32),
    unary main_cst_1 main_v12 (broadcastInDim S800000 ![] bcast_S_S800000 : (⟨S_, .f32⟩ : BufTy).Contents (Elt F) → (⟨S800000, .f32⟩ : BufTy).Contents (Elt F)),
    ternary main_v5 main_v11 main_v12 main_v13 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_2 (constant S_ .f32 0x3F800000#32),
    unary main_cst_2 main_v14 (broadcastInDim S50000 ![] bcast_S_S50000 : (⟨S_, .f32⟩ : BufTy).Contents (Elt F) → (⟨S50000, .f32⟩ : BufTy).Contents (Elt F)),
    binary main_v13 main_v14 main_v15 (addf : (⟨S50000, .f32⟩ : BufTy).Contents (Elt F) → (⟨S50000, .f32⟩ : BufTy).Contents (Elt F) → (⟨S50000, .f32⟩ : BufTy).Contents (Elt F)),
    nullary main_cst_3 (constant S_ .f32 0x00000000#32),
    unary main_cst_3 main_v16 (broadcastInDim S50000 ![] bcast_S_S50000 : (⟨S_, .f32⟩ : BufTy).Contents (Elt F) → (⟨S50000, .f32⟩ : BufTy).Contents (Elt F)),
    binary main_v15 main_v16 main_v17 (cmpf .ogt : (⟨S50000, .f32⟩ : BufTy).Contents (Elt F) → (⟨S50000, .f32⟩ : BufTy).Contents (Elt F) → (⟨S50000, .i1⟩ : BufTy).Contents (Elt F)),
    unary main_v15 main_v18 (Host.rsqrt : (⟨S50000, .f32⟩ : BufTy).Contents (Elt F) → (⟨S50000, .f32⟩ : BufTy).Contents (Elt F)),
    nullary main_cst_4 (constant S_ .f32 0x00000000#32),
    TRef.unary (TRef.of (T := ⟨S_, .f32⟩) main_cst_4) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v17) (TRef.of (T := ⟨S50000, .f32⟩) main_v18) (TRef.of (T := ⟨S50000, .f32⟩) main_call0_v1) (TRef.of (T := ⟨S50000, .f32⟩) main_v19) select,
    nullary main_c_5 (constantI S_ 32 0#32),
    unary main_c_5 main_v20 (broadcastInDim S800000 ![] bcast_S_S800000 : (⟨S_, .i32⟩ : BufTy).Contents (Elt F) → (⟨S800000, .i32⟩ : BufTy).Contents (Elt F)),
    binary main_v1 main_v20 main_v21 (cmpi .slt : (⟨S800000, .i32⟩ : BufTy).Contents (Elt F) → (⟨S800000, .i32⟩ : BufTy).Contents (Elt F) → (⟨S800000, .i1⟩ : BufTy).Contents (Elt F)),
    nullary main_c_6 (constantI S_ 32 50000#32),
    unary main_c_6 main_v22 (broadcastInDim S800000 ![] bcast_S_S800000 : (⟨S_, .i32⟩ : BufTy).Contents (Elt F) → (⟨S800000, .i32⟩ : BufTy).Contents (Elt F)),
    binary main_v1 main_v22 main_v23 (addi : (⟨S800000, .i32⟩ : BufTy).Contents (Elt F) → (⟨S800000, .i32⟩ : BufTy).Contents (Elt F) → (⟨S800000, .i32⟩ : BufTy).Contents (Elt F)),
    ternary main_v21 main_v23 main_v1 main_v24 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v24 main_v25 (broadcastInDim S800000x1 ![0] bcast_S800000_S800000x1_0 : (⟨S800000, .i32⟩ : BufTy).Contents (Elt F) → (⟨S800000x1, .i32⟩ : BufTy).Contents (Elt F)),
    binary main_v19 main_v25 main_v26 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    nullary main_c_7 (constantI S_ 32 0#32),
    unary main_c_7 main_v27 (broadcastInDim S800000 ![] bcast_S_S800000 : (⟨S_, .i32⟩ : BufTy).Contents (Elt F) → (⟨S800000, .i32⟩ : BufTy).Contents (Elt F)),
    binary main_v3 main_v27 main_v28 (cmpi .slt : (⟨S800000, .i32⟩ : BufTy).Contents (Elt F) → (⟨S800000, .i32⟩ : BufTy).Contents (Elt F) → (⟨S800000, .i1⟩ : BufTy).Contents (Elt F)),
    nullary main_c_8 (constantI S_ 32 50000#32),
    unary main_c_8 main_v29 (broadcastInDim S800000 ![] bcast_S_S800000 : (⟨S_, .i32⟩ : BufTy).Contents (Elt F) → (⟨S800000, .i32⟩ : BufTy).Contents (Elt F)),
    binary main_v3 main_v29 main_v30 (addi : (⟨S800000, .i32⟩ : BufTy).Contents (Elt F) → (⟨S800000, .i32⟩ : BufTy).Contents (Elt F) → (⟨S800000, .i32⟩ : BufTy).Contents (Elt F)),
    ternary main_v28 main_v30 main_v3 main_v31 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v31 main_v32 (broadcastInDim S800000x1 ![0] bcast_S800000_S800000x1_0 : (⟨S800000, .i32⟩ : BufTy).Contents (Elt F) → (⟨S800000x1, .i32⟩ : BufTy).Contents (Elt F)),
    binary main_v19 main_v32 main_v33 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    binary main_v26 main_v33 main_v34 (mulf : (⟨S800000, .f32⟩ : BufTy).Contents (Elt F) → (⟨S800000, .f32⟩ : BufTy).Contents (Elt F) → (⟨S800000, .f32⟩ : BufTy).Contents (Elt F)),
    unary main_v34 main_v35 (broadcastInDim S800000x1 ![0] bcast_S800000_S800000x1_0 : (⟨S800000, .f32⟩ : BufTy).Contents (Elt F) → (⟨S800000x1, .f32⟩ : BufTy).Contents (Elt F)),
    nullary main_c_9 (constantI S_ 32 0#32),
    unary main_c_9 main_v36 (broadcastInDim S800000 ![] bcast_S_S800000 : (⟨S_, .i32⟩ : BufTy).Contents (Elt F) → (⟨S800000, .i32⟩ : BufTy).Contents (Elt F)),
    binary main_v3 main_v36 main_v37 (cmpi .slt : (⟨S800000, .i32⟩ : BufTy).Contents (Elt F) → (⟨S800000, .i32⟩ : BufTy).Contents (Elt F) → (⟨S800000, .i1⟩ : BufTy).Contents (Elt F)),
    nullary main_c_10 (constantI S_ 32 50000#32),
    unary main_c_10 main_v38 (broadcastInDim S800000 ![] bcast_S_S800000 : (⟨S_, .i32⟩ : BufTy).Contents (Elt F) → (⟨S800000, .i32⟩ : BufTy).Contents (Elt F)),
    binary main_v3 main_v38 main_v39 (addi : (⟨S800000, .i32⟩ : BufTy).Contents (Elt F) → (⟨S800000, .i32⟩ : BufTy).Contents (Elt F) → (⟨S800000, .i32⟩ : BufTy).Contents (Elt F)),
    ternary main_v37 main_v39 main_v3 main_v40 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v40 main_v41 (broadcastInDim S800000x1 ![0] bcast_S800000_S800000x1_0 : (⟨S800000, .i32⟩ : BufTy).Contents (Elt F) → (⟨S800000x1, .i32⟩ : BufTy).Contents (Elt F)),
    binary main_v4 main_v41 main_v42 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    unary main_v35 main_v43 (broadcastInDim S800000x128 ![0, 1] bcast_S800000x1_S800000x128_0_1 : (⟨S800000x1, .f32⟩ : BufTy).Contents (Elt F) → (⟨S800000x128, .f32⟩ : BufTy).Contents (Elt F)),
    binary main_v43 main_v42 main_v44 (mulf : (⟨S800000x128, .f32⟩ : BufTy).Contents (Elt F) → (⟨S800000x128, .f32⟩ : BufTy).Contents (Elt F) → (⟨S800000x128, .f32⟩ : BufTy).Contents (Elt F)),
    nullary main_cst_11 (constant S_ .f32 0x00000000#32),
    unary main_cst_11 main_v45 (broadcastInDim S50000x128 ![] bcast_S_S50000x128 : (⟨S_, .f32⟩ : BufTy).Contents (Elt F) → (⟨S50000x128, .f32⟩ : BufTy).Contents (Elt F)),
    unary main_v1 main_v46 (broadcastInDim S800000x1 ![0] bcast_S800000_S800000x1_0 : (⟨S800000, .i32⟩ : BufTy).Contents (Elt F) → (⟨S800000x1, .i32⟩ : BufTy).Contents (Elt F)),
    ternary main_v45 main_v46 main_v44 main_v47 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    nullary main_cst_12 (constant S_ .f32 0x3F800000#32),
    unary main_cst_12 main_v48 (broadcastInDim S50000 ![] bcast_S_S50000 : (⟨S_, .f32⟩ : BufTy).Contents (Elt F) → (⟨S50000, .f32⟩ : BufTy).Contents (Elt F)),
    binary main_v48 main_v19 main_v49 (mulf : (⟨S50000, .f32⟩ : BufTy).Contents (Elt F) → (⟨S50000, .f32⟩ : BufTy).Contents (Elt F) → (⟨S50000, .f32⟩ : BufTy).Contents (Elt F)),
    binary main_v49 main_v19 main_v50 (mulf : (⟨S50000, .f32⟩ : BufTy).Contents (Elt F) → (⟨S50000, .f32⟩ : BufTy).Contents (Elt F) → (⟨S50000, .f32⟩ : BufTy).Contents (Elt F)),
    unary main_v50 main_v51 (broadcastInDim S50000x1 ![0] bcast_S50000_S50000x1_0 : (⟨S50000, .f32⟩ : BufTy).Contents (Elt F) → (⟨S50000x1, .f32⟩ : BufTy).Contents (Elt F)),
    unary main_v51 main_v52 (broadcastInDim S50000x128 ![0, 1] bcast_S50000x1_S50000x128_0_1 : (⟨S50000x1, .f32⟩ : BufTy).Contents (Elt F) → (⟨S50000x128, .f32⟩ : BufTy).Contents (Elt F)),
    binary main_v52 main_v4 main_v53 (mulf : (⟨S50000x128, .f32⟩ : BufTy).Contents (Elt F) → (⟨S50000x128, .f32⟩ : BufTy).Contents (Elt F) → (⟨S50000x128, .f32⟩ : BufTy).Contents (Elt F)),
    binary main_v47 main_v53 main_v54 (addf : (⟨S50000x128, .f32⟩ : BufTy).Contents (Elt F) → (⟨S50000x128, .f32⟩ : BufTy).Contents (Elt F) → (⟨S50000x128, .f32⟩ : BufTy).Contents (Elt F)),
    unary main_arg3 main_v55 (broadcastInDim S1x128 ![1] bcast_S128_S1x128_1 : (⟨S128, .f32⟩ : BufTy).Contents (Elt F) → (⟨S1x128, .f32⟩ : BufTy).Contents (Elt F)),
    unary main_v55 main_v56 (broadcastInDim S50000x128 ![0, 1] bcast_S1x128_S50000x128_0_1 : (⟨S1x128, .f32⟩ : BufTy).Contents (Elt F) → (⟨S50000x128, .f32⟩ : BufTy).Contents (Elt F)),
    binary main_v54 main_v56 main_v57 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v57) (TRef.of (T := ⟨S50000x128, .f32⟩) main_call1_v0) (TRef.of (T := ⟨S50000x128, .f32⟩) main_v58) maximumf,
    binary main_v58 main_arg4 main_v59 ((fun l r => Host.dotGeneral dot_S50000x128_S128x40_S50000x40_1_0_0_1_n_n none l r) : (⟨S50000x128, .f32⟩ : BufTy).Contents (Elt F) → (⟨S128x40, .f32⟩ : BufTy).Contents (Elt F) → (⟨S50000x40, .f32⟩ : BufTy).Contents (Elt F)),
    nullary main_cst_13 (constant S_ .f32 0x00000000#32),
    unary main_cst_13 main_v60 (broadcastInDim S50000 ![] bcast_S_S50000 : (⟨S_, .f32⟩ : BufTy).Contents (Elt F) → (⟨S50000, .f32⟩ : BufTy).Contents (Elt F)),
    nullary main_c_14 (constantI S_ 32 0#32),
    unary main_c_14 main_v61 (broadcastInDim S800000 ![] bcast_S_S800000 : (⟨S_, .i32⟩ : BufTy).Contents (Elt F) → (⟨S800000, .i32⟩ : BufTy).Contents (Elt F)),
    binary main_v1 main_v61 main_v62 (cmpi .slt : (⟨S800000, .i32⟩ : BufTy).Contents (Elt F) → (⟨S800000, .i32⟩ : BufTy).Contents (Elt F) → (⟨S800000, .i1⟩ : BufTy).Contents (Elt F)),
    nullary main_c_15 (constantI S_ 32 50000#32),
    unary main_c_15 main_v63 (broadcastInDim S800000 ![] bcast_S_S800000 : (⟨S_, .i32⟩ : BufTy).Contents (Elt F) → (⟨S800000, .i32⟩ : BufTy).Contents (Elt F)),
    binary main_v1 main_v63 main_v64 (addi : (⟨S800000, .i32⟩ : BufTy).Contents (Elt F) → (⟨S800000, .i32⟩ : BufTy).Contents (Elt F) → (⟨S800000, .i32⟩ : BufTy).Contents (Elt F)),
    ternary main_v62 main_v64 main_v1 main_v65 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v65 main_v66 (broadcastInDim S800000x1 ![0] bcast_S800000_S800000x1_0 : (⟨S800000, .i32⟩ : BufTy).Contents (Elt F) → (⟨S800000x1, .i32⟩ : BufTy).Contents (Elt F)),
    nullary main_cst_16 (constant S_ .f32 0x3F800000#32),
    unary main_cst_16 main_v67 (broadcastInDim S800000 ![] bcast_S_S800000 : (⟨S_, .f32⟩ : BufTy).Contents (Elt F) → (⟨S800000, .f32⟩ : BufTy).Contents (Elt F)),
    ternary main_v60 main_v66 main_v67 main_v68 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_17 (constant S_ .f32 0x3F800000#32),
    unary main_cst_17 main_v69 (broadcastInDim S50000 ![] bcast_S_S50000 : (⟨S_, .f32⟩ : BufTy).Contents (Elt F) → (⟨S50000, .f32⟩ : BufTy).Contents (Elt F)),
    binary main_v68 main_v69 main_v70 (addf : (⟨S50000, .f32⟩ : BufTy).Contents (Elt F) → (⟨S50000, .f32⟩ : BufTy).Contents (Elt F) → (⟨S50000, .f32⟩ : BufTy).Contents (Elt F)),
    nullary main_cst_18 (constant S_ .f32 0x00000000#32),
    unary main_cst_18 main_v71 (broadcastInDim S50000 ![] bcast_S_S50000 : (⟨S_, .f32⟩ : BufTy).Contents (Elt F) → (⟨S50000, .f32⟩ : BufTy).Contents (Elt F)),
    binary main_v70 main_v71 main_v72 (cmpf .ogt : (⟨S50000, .f32⟩ : BufTy).Contents (Elt F) → (⟨S50000, .f32⟩ : BufTy).Contents (Elt F) → (⟨S50000, .i1⟩ : BufTy).Contents (Elt F)),
    unary main_v70 main_v73 (Host.rsqrt : (⟨S50000, .f32⟩ : BufTy).Contents (Elt F) → (⟨S50000, .f32⟩ : BufTy).Contents (Elt F)),
    nullary main_cst_19 (constant S_ .f32 0x00000000#32),
    TRef.unary (TRef.of (T := ⟨S_, .f32⟩) main_cst_19) (TRef.of (T := ⟨S_, .f32⟩) main_call2_v0) id,
    TRef.unary (TRef.of (T := ⟨S_, .f32⟩) main_call2_v0) (TRef.of (T := ⟨S50000, .f32⟩) main_call2_v1) (broadcastInDim S50000 ![] bcast_S_S50000),
    TRef.ternary (TRef.of (T := ⟨S50000, .i1⟩) main_v72) (TRef.of (T := ⟨S50000, .f32⟩) main_v73) (TRef.of (T := ⟨S50000, .f32⟩) main_call2_v1) (TRef.of (T := ⟨S50000, .f32⟩) main_v74) select,
    nullary main_c_20 (constantI S_ 32 0#32),
    unary main_c_20 main_v75 (broadcastInDim S800000 ![] bcast_S_S800000 : (⟨S_, .i32⟩ : BufTy).Contents (Elt F) → (⟨S800000, .i32⟩ : BufTy).Contents (Elt F)),
    binary main_v1 main_v75 main_v76 (cmpi .slt : (⟨S800000, .i32⟩ : BufTy).Contents (Elt F) → (⟨S800000, .i32⟩ : BufTy).Contents (Elt F) → (⟨S800000, .i1⟩ : BufTy).Contents (Elt F)),
    nullary main_c_21 (constantI S_ 32 50000#32),
    unary main_c_21 main_v77 (broadcastInDim S800000 ![] bcast_S_S800000 : (⟨S_, .i32⟩ : BufTy).Contents (Elt F) → (⟨S800000, .i32⟩ : BufTy).Contents (Elt F)),
    binary main_v1 main_v77 main_v78 (addi : (⟨S800000, .i32⟩ : BufTy).Contents (Elt F) → (⟨S800000, .i32⟩ : BufTy).Contents (Elt F) → (⟨S800000, .i32⟩ : BufTy).Contents (Elt F)),
    ternary main_v76 main_v78 main_v1 main_v79 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v79 main_v80 (broadcastInDim S800000x1 ![0] bcast_S800000_S800000x1_0 : (⟨S800000, .i32⟩ : BufTy).Contents (Elt F) → (⟨S800000x1, .i32⟩ : BufTy).Contents (Elt F)),
    binary main_v74 main_v80 main_v81 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    nullary main_c_22 (constantI S_ 32 0#32),
    unary main_c_22 main_v82 (broadcastInDim S800000 ![] bcast_S_S800000 : (⟨S_, .i32⟩ : BufTy).Contents (Elt F) → (⟨S800000, .i32⟩ : BufTy).Contents (Elt F)),
    binary main_v3 main_v82 main_v83 (cmpi .slt : (⟨S800000, .i32⟩ : BufTy).Contents (Elt F) → (⟨S800000, .i32⟩ : BufTy).Contents (Elt F) → (⟨S800000, .i1⟩ : BufTy).Contents (Elt F)),
    nullary main_c_23 (constantI S_ 32 50000#32),
    unary main_c_23 main_v84 (broadcastInDim S800000 ![] bcast_S_S800000 : (⟨S_, .i32⟩ : BufTy).Contents (Elt F) → (⟨S800000, .i32⟩ : BufTy).Contents (Elt F)),
    binary main_v3 main_v84 main_v85 (addi : (⟨S800000, .i32⟩ : BufTy).Contents (Elt F) → (⟨S800000, .i32⟩ : BufTy).Contents (Elt F) → (⟨S800000, .i32⟩ : BufTy).Contents (Elt F)),
    ternary main_v83 main_v85 main_v3 main_v86 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v86 main_v87 (broadcastInDim S800000x1 ![0] bcast_S800000_S800000x1_0 : (⟨S800000, .i32⟩ : BufTy).Contents (Elt F) → (⟨S800000x1, .i32⟩ : BufTy).Contents (Elt F)),
    binary main_v74 main_v87 main_v88 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    binary main_v81 main_v88 main_v89 (mulf : (⟨S800000, .f32⟩ : BufTy).Contents (Elt F) → (⟨S800000, .f32⟩ : BufTy).Contents (Elt F) → (⟨S800000, .f32⟩ : BufTy).Contents (Elt F)),
    unary main_v89 main_v90 (broadcastInDim S800000x1 ![0] bcast_S800000_S800000x1_0 : (⟨S800000, .f32⟩ : BufTy).Contents (Elt F) → (⟨S800000x1, .f32⟩ : BufTy).Contents (Elt F)),
    nullary main_c_24 (constantI S_ 32 0#32),
    unary main_c_24 main_v91 (broadcastInDim S800000 ![] bcast_S_S800000 : (⟨S_, .i32⟩ : BufTy).Contents (Elt F) → (⟨S800000, .i32⟩ : BufTy).Contents (Elt F)),
    binary main_v3 main_v91 main_v92 (cmpi .slt : (⟨S800000, .i32⟩ : BufTy).Contents (Elt F) → (⟨S800000, .i32⟩ : BufTy).Contents (Elt F) → (⟨S800000, .i1⟩ : BufTy).Contents (Elt F)),
    nullary main_c_25 (constantI S_ 32 50000#32),
    unary main_c_25 main_v93 (broadcastInDim S800000 ![] bcast_S_S800000 : (⟨S_, .i32⟩ : BufTy).Contents (Elt F) → (⟨S800000, .i32⟩ : BufTy).Contents (Elt F)),
    binary main_v3 main_v93 main_v94 (addi : (⟨S800000, .i32⟩ : BufTy).Contents (Elt F) → (⟨S800000, .i32⟩ : BufTy).Contents (Elt F) → (⟨S800000, .i32⟩ : BufTy).Contents (Elt F)),
    ternary main_v92 main_v94 main_v3 main_v95 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v95 main_v96 (broadcastInDim S800000x1 ![0] bcast_S800000_S800000x1_0 : (⟨S800000, .i32⟩ : BufTy).Contents (Elt F) → (⟨S800000x1, .i32⟩ : BufTy).Contents (Elt F)),
    binary main_v59 main_v96 main_v97 ((fun x i => Host.gather gather_S50000x40_S800000x1_S800000x40_1_0_n_n_0_1_140 x i) : (⟨S50000x40, .f32⟩ : BufTy).Contents (Elt F) → (⟨S800000x1, .i32⟩ : BufTy).Contents (Elt F) → (⟨S800000x40, .f32⟩ : BufTy).Contents (Elt F)),
    unary main_v90 main_v98 (broadcastInDim S800000x40 ![0, 1] bcast_S800000x1_S800000x40_0_1 : (⟨S800000x1, .f32⟩ : BufTy).Contents (Elt F) → (⟨S800000x40, .f32⟩ : BufTy).Contents (Elt F)),
    binary main_v98 main_v97 main_v99 (mulf : (⟨S800000x40, .f32⟩ : BufTy).Contents (Elt F) → (⟨S800000x40, .f32⟩ : BufTy).Contents (Elt F) → (⟨S800000x40, .f32⟩ : BufTy).Contents (Elt F)),
    nullary main_cst_26 (constant S_ .f32 0x00000000#32),
    unary main_cst_26 main_v100 (broadcastInDim S50000x40 ![] bcast_S_S50000x40 : (⟨S_, .f32⟩ : BufTy).Contents (Elt F) → (⟨S50000x40, .f32⟩ : BufTy).Contents (Elt F)),
    unary main_v1 main_v101 (broadcastInDim S800000x1 ![0] bcast_S800000_S800000x1_0 : (⟨S800000, .i32⟩ : BufTy).Contents (Elt F) → (⟨S800000x1, .i32⟩ : BufTy).Contents (Elt F)),
    ternary main_v100 main_v101 main_v99 main_v102 ((fun x i u => Host.scatterAdd scatter_S50000x40_S800000x1_S800000x40_1_0_0_1 x i u) : (⟨S50000x40, .f32⟩ : BufTy).Contents (Elt F) → (⟨S800000x1, .i32⟩ : BufTy).Contents (Elt F) → (⟨S800000x40, .f32⟩ : BufTy).Contents (Elt F) → (⟨S50000x40, .f32⟩ : BufTy).Contents (Elt F)),
    nullary main_cst_27 (constant S_ .f32 0x3F800000#32),
    unary main_cst_27 main_v103 (broadcastInDim S50000 ![] bcast_S_S50000 : (⟨S_, .f32⟩ : BufTy).Contents (Elt F) → (⟨S50000, .f32⟩ : BufTy).Contents (Elt F)),
    binary main_v103 main_v74 main_v104 (mulf : (⟨S50000, .f32⟩ : BufTy).Contents (Elt F) → (⟨S50000, .f32⟩ : BufTy).Contents (Elt F) → (⟨S50000, .f32⟩ : BufTy).Contents (Elt F)),
    binary main_v104 main_v74 main_v105 (mulf : (⟨S50000, .f32⟩ : BufTy).Contents (Elt F) → (⟨S50000, .f32⟩ : BufTy).Contents (Elt F) → (⟨S50000, .f32⟩ : BufTy).Contents (Elt F)),
    unary main_v105 main_v106 (broadcastInDim S50000x1 ![0] bcast_S50000_S50000x1_0 : (⟨S50000, .f32⟩ : BufTy).Contents (Elt F) → (⟨S50000x1, .f32⟩ : BufTy).Contents (Elt F)),
    unary main_v106 main_v107 (broadcastInDim S50000x40 ![0, 1] bcast_S50000x1_S50000x40_0_1 : (⟨S50000x1, .f32⟩ : BufTy).Contents (Elt F) → (⟨S50000x40, .f32⟩ : BufTy).Contents (Elt F)),
    binary main_v107 main_v59 main_v108 (mulf : (⟨S50000x40, .f32⟩ : BufTy).Contents (Elt F) → (⟨S50000x40, .f32⟩ : BufTy).Contents (Elt F) → (⟨S50000x40, .f32⟩ : BufTy).Contents (Elt F)),
    binary main_v102 main_v108 main_v109 (addf : (⟨S50000x40, .f32⟩ : BufTy).Contents (Elt F) → (⟨S50000x40, .f32⟩ : BufTy).Contents (Elt F) → (⟨S50000x40, .f32⟩ : BufTy).Contents (Elt F)),
    unary main_arg5 main_v110 (broadcastInDim S1x40 ![1] bcast_S40_S1x40_1 : (⟨S40, .f32⟩ : BufTy).Contents (Elt F) → (⟨S1x40, .f32⟩ : BufTy).Contents (Elt F)),
    unary main_v110 main_v111 (broadcastInDim S50000x40 ![0, 1] bcast_S1x40_S50000x40_0_1 : (⟨S1x40, .f32⟩ : BufTy).Contents (Elt F) → (⟨S50000x40, .f32⟩ : BufTy).Contents (Elt F)),
    binary main_v109 main_v111 main_v112 (addf : (⟨S50000x40, .f32⟩ : BufTy).Contents (Elt F) → (⟨S50000x40, .f32⟩ : BufTy).Contents (Elt F) → (⟨S50000x40, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., reshape_bufs_sub .., unary_bufs_sub .., reshape_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., binary_bufs_sub .., unary_bufs_sub .., unary_bufs_sub .., binary_bufs_sub .., binary_bufs_sub .., unary_bufs_sub .., unary_bufs_sub .., binary_bufs_sub .., nullary_bufs_sub .., unary_bufs_sub .., binary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., binary_bufs_sub .., unary_bufs_sub .., unary_bufs_sub .., binary_bufs_sub .., binary_bufs_sub .., unary_bufs_sub .., unary_bufs_sub .., binary_bufs_sub ..⟩

/-! ## The stages

The line is cut at the operations that write `main_v19` (dis), `main_v59` (layer 1, relu, · W2), `main_v74` (dis again) and
`main_v112` (layer 2); a stage that ends in an outlined call (the select of dis, the relu) is cut once more before the
call, so that the call's three operations are read over an arbitrary valuation of their operands. -/

/-- Stage A, first part: the two rows of the edge list, x · W1, the degree's comparison with zero and its inverse square root, and the zero constant the call below selects (up to `main_cst_4`). -/
abbrev opsA0 : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    binary main_arg0 main_arg2 main_v4 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    nullary main_cst (constant S_ .f32 0x00000000#32),
    unary main_cst main_v5 (broadcastInDim S50000 ![] bcast_S_S50000 : (⟨S_, .f32⟩ : BufTy).Contents (Elt F) → (⟨S50000, .f32⟩ : BufTy).Contents (Elt F)),
    nullary main_c (constantI S_ 32 0#32),
    unary main_c main_v6 (broadcastInDim S800000 ![] bcast_S_S800000 : (⟨S_, .i32⟩ : BufTy).Contents (Elt F) → (⟨S800000, .i32⟩ : BufTy).Contents (Elt F)),
    binary main_v1 main_v6 main_v7 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v8 (broadcastInDim S800000 ![] bcast_S_S800000 : (⟨S_, .i32⟩ : BufTy).Contents (Elt F) → (⟨S800000, .i32⟩ : BufTy).Contents (Elt F)),
    binary main_v1 main_v8 main_v9 (addi : (⟨S800000, .i32⟩ : BufTy).Contents (Elt F) → (⟨S800000, .i32⟩ : BufTy).Contents (Elt F) → (⟨S800000, .i32⟩ : BufTy).Contents (Elt F)),
    ternary main_v7 main_v9 main_v1 main_v10 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v10 main_v11 (broadcastInDim S800000x1 ![0] bcast_S800000_S800000x1_0 : (⟨S800000, .i32⟩ : BufTy).Contents (Elt F) → (⟨S800000x1, .i32⟩ : BufTy).Contents (Elt F)),
    nullary main_cst_1 (constant S_ .f32 0x3F800000#32),
    unary main_cst_1 main_v12 (broadcastInDim S800000 ![] bcast_S_S800000 : (⟨S_, .f32⟩ : BufTy).Contents (Elt F) → (⟨S800000, .f32⟩ : BufTy).Contents (Elt F)),
    ternary main_v5 main_v11 main_v12 main_v13 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_2 (constant S_ .f32 0x3F800000#32),
    unary main_cst_2 main_v14 (broadcastInDim S50000 ![] bcast_S_S50000 : (⟨S_, .f32⟩ : BufTy).Contents (Elt F) → (⟨S50000, .f32⟩ : BufTy).Contents (Elt F)),
    binary main_v13 main_v14 main_v15 (addf : (⟨S50000, .f32⟩ : BufTy).Contents (Elt F) → (⟨S50000, .f32⟩ : BufTy).Contents (Elt F) → (⟨S50000, .f32⟩ : BufTy).Contents (Elt F)),
    nullary main_cst_3 (constant S_ .f32 0x00000000#32),
    unary main_cst_3 main_v16 (broadcastInDim S50000 ![] bcast_S_S50000 : (⟨S_, .f32⟩ : BufTy).Contents (Elt F) → (⟨S50000, .f32⟩ : BufTy).Contents (Elt F)),
    binary main_v15 main_v16 main_v17 (cmpf .ogt : (⟨S50000, .f32⟩ : BufTy).Contents (Elt F) → (⟨S50000, .f32⟩ : BufTy).Contents (Elt F) → (⟨S50000, .i1⟩ : BufTy).Contents (Elt F)),
    unary main_v15 main_v18 (Host.rsqrt : (⟨S50000, .f32⟩ : BufTy).Contents (Elt F) → (⟨S50000, .f32⟩ : BufTy).Contents (Elt F)),
    nullary main_cst_4 (constant S_ .f32 0x00000000#32) ]

/-- Stage A, second part: the outlined select that makes dis (writes `main_v19`). -/
abbrev opsA1 : List (HloOp τ sig (Elt F)) :=
  [ TRef.unary (TRef.of (T := ⟨S_, .f32⟩) main_cst_4) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v17) (TRef.of (T := ⟨S50000, .f32⟩) main_v18) (TRef.of (T := ⟨S50000, .f32⟩) main_call0_v1) (TRef.of (T := ⟨S50000, .f32⟩) main_v19) select ]

/-- Stage B, first part: layer 1 on 128 features up to the bias (writes `main_v57`). -/
abbrev opsB0 : List (HloOp τ sig (Elt F)) :=
  [ nullary main_c_5 (constantI S_ 32 0#32),
    unary main_c_5 main_v20 (broadcastInDim S800000 ![] bcast_S_S800000 : (⟨S_, .i32⟩ : BufTy).Contents (Elt F) → (⟨S800000, .i32⟩ : BufTy).Contents (Elt F)),
    binary main_v1 main_v20 main_v21 (cmpi .slt : (⟨S800000, .i32⟩ : BufTy).Contents (Elt F) → (⟨S800000, .i32⟩ : BufTy).Contents (Elt F) → (⟨S800000, .i1⟩ : BufTy).Contents (Elt F)),
    nullary main_c_6 (constantI S_ 32 50000#32),
    unary main_c_6 main_v22 (broadcastInDim S800000 ![] bcast_S_S800000 : (⟨S_, .i32⟩ : BufTy).Contents (Elt F) → (⟨S800000, .i32⟩ : BufTy).Contents (Elt F)),
    binary main_v1 main_v22 main_v23 (addi : (⟨S800000, .i32⟩ : BufTy).Contents (Elt F) → (⟨S800000, .i32⟩ : BufTy).Contents (Elt F) → (⟨S800000, .i32⟩ : BufTy).Contents (Elt F)),
    ternary main_v21 main_v23 main_v1 main_v24 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v24 main_v25 (broadcastInDim S800000x1 ![0] bcast_S800000_S800000x1_0 : (⟨S800000, .i32⟩ : BufTy).Contents (Elt F) → (⟨S800000x1, .i32⟩ : BufTy).Contents (Elt F)),
    binary main_v19 main_v25 main_v26 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    nullary main_c_7 (constantI S_ 32 0#32),
    unary main_c_7 main_v27 (broadcastInDim S800000 ![] bcast_S_S800000 : (⟨S_, .i32⟩ : BufTy).Contents (Elt F) → (⟨S800000, .i32⟩ : BufTy).Contents (Elt F)),
    binary main_v3 main_v27 main_v28 (cmpi .slt : (⟨S800000, .i32⟩ : BufTy).Contents (Elt F) → (⟨S800000, .i32⟩ : BufTy).Contents (Elt F) → (⟨S800000, .i1⟩ : BufTy).Contents (Elt F)),
    nullary main_c_8 (constantI S_ 32 50000#32),
    unary main_c_8 main_v29 (broadcastInDim S800000 ![] bcast_S_S800000 : (⟨S_, .i32⟩ : BufTy).Contents (Elt F) → (⟨S800000, .i32⟩ : BufTy).Contents (Elt F)),
    binary main_v3 main_v29 main_v30 (addi : (⟨S800000, .i32⟩ : BufTy).Contents (Elt F) → (⟨S800000, .i32⟩ : BufTy).Contents (Elt F) → (⟨S800000, .i32⟩ : BufTy).Contents (Elt F)),
    ternary main_v28 main_v30 main_v3 main_v31 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v31 main_v32 (broadcastInDim S800000x1 ![0] bcast_S800000_S800000x1_0 : (⟨S800000, .i32⟩ : BufTy).Contents (Elt F) → (⟨S800000x1, .i32⟩ : BufTy).Contents (Elt F)),
    binary main_v19 main_v32 main_v33 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    binary main_v26 main_v33 main_v34 (mulf : (⟨S800000, .f32⟩ : BufTy).Contents (Elt F) → (⟨S800000, .f32⟩ : BufTy).Contents (Elt F) → (⟨S800000, .f32⟩ : BufTy).Contents (Elt F)),
    unary main_v34 main_v35 (broadcastInDim S800000x1 ![0] bcast_S800000_S800000x1_0 : (⟨S800000, .f32⟩ : BufTy).Contents (Elt F) → (⟨S800000x1, .f32⟩ : BufTy).Contents (Elt F)),
    nullary main_c_9 (constantI S_ 32 0#32),
    unary main_c_9 main_v36 (broadcastInDim S800000 ![] bcast_S_S800000 : (⟨S_, .i32⟩ : BufTy).Contents (Elt F) → (⟨S800000, .i32⟩ : BufTy).Contents (Elt F)),
    binary main_v3 main_v36 main_v37 (cmpi .slt : (⟨S800000, .i32⟩ : BufTy).Contents (Elt F) → (⟨S800000, .i32⟩ : BufTy).Contents (Elt F) → (⟨S800000, .i1⟩ : BufTy).Contents (Elt F)),
    nullary main_c_10 (constantI S_ 32 50000#32),
    unary main_c_10 main_v38 (broadcastInDim S800000 ![] bcast_S_S800000 : (⟨S_, .i32⟩ : BufTy).Contents (Elt F) → (⟨S800000, .i32⟩ : BufTy).Contents (Elt F)),
    binary main_v3 main_v38 main_v39 (addi : (⟨S800000, .i32⟩ : BufTy).Contents (Elt F) → (⟨S800000, .i32⟩ : BufTy).Contents (Elt F) → (⟨S800000, .i32⟩ : BufTy).Contents (Elt F)),
    ternary main_v37 main_v39 main_v3 main_v40 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v40 main_v41 (broadcastInDim S800000x1 ![0] bcast_S800000_S800000x1_0 : (⟨S800000, .i32⟩ : BufTy).Contents (Elt F) → (⟨S800000x1, .i32⟩ : BufTy).Contents (Elt F)),
    binary main_v4 main_v41 main_v42 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    unary main_v35 main_v43 (broadcastInDim S800000x128 ![0, 1] bcast_S800000x1_S800000x128_0_1 : (⟨S800000x1, .f32⟩ : BufTy).Contents (Elt F) → (⟨S800000x128, .f32⟩ : BufTy).Contents (Elt F)),
    binary main_v43 main_v42 main_v44 (mulf : (⟨S800000x128, .f32⟩ : BufTy).Contents (Elt F) → (⟨S800000x128, .f32⟩ : BufTy).Contents (Elt F) → (⟨S800000x128, .f32⟩ : BufTy).Contents (Elt F)),
    nullary main_cst_11 (constant S_ .f32 0x00000000#32),
    unary main_cst_11 main_v45 (broadcastInDim S50000x128 ![] bcast_S_S50000x128 : (⟨S_, .f32⟩ : BufTy).Contents (Elt F) → (⟨S50000x128, .f32⟩ : BufTy).Contents (Elt F)),
    unary main_v1 main_v46 (broadcastInDim S800000x1 ![0] bcast_S800000_S800000x1_0 : (⟨S800000, .i32⟩ : BufTy).Contents (Elt F) → (⟨S800000x1, .i32⟩ : BufTy).Contents (Elt F)),
    ternary main_v45 main_v46 main_v44 main_v47 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    nullary main_cst_12 (constant S_ .f32 0x3F800000#32),
    unary main_cst_12 main_v48 (broadcastInDim S50000 ![] bcast_S_S50000 : (⟨S_, .f32⟩ : BufTy).Contents (Elt F) → (⟨S50000, .f32⟩ : BufTy).Contents (Elt F)),
    binary main_v48 main_v19 main_v49 (mulf : (⟨S50000, .f32⟩ : BufTy).Contents (Elt F) → (⟨S50000, .f32⟩ : BufTy).Contents (Elt F) → (⟨S50000, .f32⟩ : BufTy).Contents (Elt F)),
    binary main_v49 main_v19 main_v50 (mulf : (⟨S50000, .f32⟩ : BufTy).Contents (Elt F) → (⟨S50000, .f32⟩ : BufTy).Contents (Elt F) → (⟨S50000, .f32⟩ : BufTy).Contents (Elt F)),
    unary main_v50 main_v51 (broadcastInDim S50000x1 ![0] bcast_S50000_S50000x1_0 : (⟨S50000, .f32⟩ : BufTy).Contents (Elt F) → (⟨S50000x1, .f32⟩ : BufTy).Contents (Elt F)),
    unary main_v51 main_v52 (broadcastInDim S50000x128 ![0, 1] bcast_S50000x1_S50000x128_0_1 : (⟨S50000x1, .f32⟩ : BufTy).Contents (Elt F) → (⟨S50000x128, .f32⟩ : BufTy).Contents (Elt F)),
    binary main_v52 main_v4 main_v53 (mulf : (⟨S50000x128, .f32⟩ : BufTy).Contents (Elt F) → (⟨S50000x128, .f32⟩ : BufTy).Contents (Elt F) → (⟨S50000x128, .f32⟩ : BufTy).Contents (Elt F)),
    binary main_v47 main_v53 main_v54 (addf : (⟨S50000x128, .f32⟩ : BufTy).Contents (Elt F) → (⟨S50000x128, .f32⟩ : BufTy).Contents (Elt F) → (⟨S50000x128, .f32⟩ : BufTy).Contents (Elt F)),
    unary main_arg3 main_v55 (broadcastInDim S1x128 ![1] bcast_S128_S1x128_1 : (⟨S128, .f32⟩ : BufTy).Contents (Elt F) → (⟨S1x128, .f32⟩ : BufTy).Contents (Elt F)),
    unary main_v55 main_v56 (broadcastInDim S50000x128 ![0, 1] bcast_S1x128_S50000x128_0_1 : (⟨S1x128, .f32⟩ : BufTy).Contents (Elt F) → (⟨S50000x128, .f32⟩ : BufTy).Contents (Elt F)),
    binary main_v54 main_v56 main_v57 (addf : (⟨S50000x128, .f32⟩ : BufTy).Contents (Elt F) → (⟨S50000x128, .f32⟩ : BufTy).Contents (Elt F) → (⟨S50000x128, .f32⟩ : BufTy).Contents (Elt F)) ]

/-- Stage B, second part: the outlined relu and the product with W2 (writes `main_v59`). -/
abbrev opsB1 : List (HloOp τ sig (Elt F)) :=
  [ TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v57) (TRef.of (T := ⟨S50000x128, .f32⟩) main_call1_v0) (TRef.of (T := ⟨S50000x128, .f32⟩) main_v58) maximumf,
    binary main_v58 main_arg4 main_v59 ((fun l r => Host.dotGeneral dot_S50000x128_S128x40_S50000x40_1_0_0_1_n_n none l r) : (⟨S50000x128, .f32⟩ : BufTy).Contents (Elt F) → (⟨S128x40, .f32⟩ : BufTy).Contents (Elt F) → (⟨S50000x40, .f32⟩ : BufTy).Contents (Elt F)) ]

/-- Stage C, first part: the degree's comparison and inverse square root again (up to `main_cst_19`). -/
abbrev opsC0 : List (HloOp τ sig (Elt F)) :=
  [ nullary main_cst_13 (constant S_ .f32 0x00000000#32),
    unary main_cst_13 main_v60 (broadcastInDim S50000 ![] bcast_S_S50000 : (⟨S_, .f32⟩ : BufTy).Contents (Elt F) → (⟨S50000, .f32⟩ : BufTy).Contents (Elt F)),
    nullary main_c_14 (constantI S_ 32 0#32),
    unary main_c_14 main_v61 (broadcastInDim S800000 ![] bcast_S_S800000 : (⟨S_, .i32⟩ : BufTy).Contents (Elt F) → (⟨S800000, .i32⟩ : BufTy).Contents (Elt F)),
    binary main_v1 main_v61 main_v62 (cmpi .slt : (⟨S800000, .i32⟩ : BufTy).Contents (Elt F) → (⟨S800000, .i32⟩ : BufTy).Contents (Elt F) → (⟨S800000, .i1⟩ : BufTy).Contents (Elt F)),
    nullary main_c_15 (constantI S_ 32 50000#32),
    unary main_c_15 main_v63 (broadcastInDim S800000 ![] bcast_S_S800000 : (⟨S_, .i32⟩ : BufTy).Contents (Elt F) → (⟨S800000, .i32⟩ : BufTy).Contents (Elt F)),
    binary main_v1 main_v63 main_v64 (addi : (⟨S800000, .i32⟩ : BufTy).Contents (Elt F) → (⟨S800000, .i32⟩ : BufTy).Contents (Elt F) → (⟨S800000, .i32⟩ : BufTy).Contents (Elt F)),
    ternary main_v62 main_v64 main_v1 main_v65 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v65 main_v66 (broadcastInDim S800000x1 ![0] bcast_S800000_S800000x1_0 : (⟨S800000, .i32⟩ : BufTy).Contents (Elt F) → (⟨S800000x1, .i32⟩ : BufTy).Contents (Elt F)),
    nullary main_cst_16 (constant S_ .f32 0x3F800000#32),
    unary main_cst_16 main_v67 (broadcastInDim S800000 ![] bcast_S_S800000 : (⟨S_, .f32⟩ : BufTy).Contents (Elt F) → (⟨S800000, .f32⟩ : BufTy).Contents (Elt F)),
    ternary main_v60 main_v66 main_v67 main_v68 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_17 (constant S_ .f32 0x3F800000#32),
    unary main_cst_17 main_v69 (broadcastInDim S50000 ![] bcast_S_S50000 : (⟨S_, .f32⟩ : BufTy).Contents (Elt F) → (⟨S50000, .f32⟩ : BufTy).Contents (Elt F)),
    binary main_v68 main_v69 main_v70 (addf : (⟨S50000, .f32⟩ : BufTy).Contents (Elt F) → (⟨S50000, .f32⟩ : BufTy).Contents (Elt F) → (⟨S50000, .f32⟩ : BufTy).Contents (Elt F)),
    nullary main_cst_18 (constant S_ .f32 0x00000000#32),
    unary main_cst_18 main_v71 (broadcastInDim S50000 ![] bcast_S_S50000 : (⟨S_, .f32⟩ : BufTy).Contents (Elt F) → (⟨S50000, .f32⟩ : BufTy).Contents (Elt F)),
    binary main_v70 main_v71 main_v72 (cmpf .ogt : (⟨S50000, .f32⟩ : BufTy).Contents (Elt F) → (⟨S50000, .f32⟩ : BufTy).Contents (Elt F) → (⟨S50000, .i1⟩ : BufTy).Contents (Elt F)),
    unary main_v70 main_v73 (Host.rsqrt : (⟨S50000, .f32⟩ : BufTy).Contents (Elt F) → (⟨S50000, .f32⟩ : BufTy).Contents (Elt F)),
    nullary main_cst_19 (constant S_ .f32 0x00000000#32) ]

/-- Stage C, second part: the outlined select again (writes `main_v74`). -/
abbrev opsC1 : List (HloOp τ sig (Elt F)) :=
  [ TRef.unary (TRef.of (T := ⟨S_, .f32⟩) main_cst_19) (TRef.of (T := ⟨S_, .f32⟩) main_call2_v0) id,
    TRef.unary (TRef.of (T := ⟨S_, .f32⟩) main_call2_v0) (TRef.of (T := ⟨S50000, .f32⟩) main_call2_v1) (broadcastInDim S50000 ![] bcast_S_S50000),
    TRef.ternary (TRef.of (T := ⟨S50000, .i1⟩) main_v72) (TRef.of (T := ⟨S50000, .f32⟩) main_v73) (TRef.of (T := ⟨S50000, .f32⟩) main_call2_v1) (TRef.of (T := ⟨S50000, .f32⟩) main_v74) select ]

/-- Stage D: layer 2 on 40 features (writes `main_v112`). -/
abbrev opsD : List (HloOp τ sig (Elt F)) :=
  [ nullary main_c_20 (constantI S_ 32 0#32),
    unary main_c_20 main_v75 (broadcastInDim S800000 ![] bcast_S_S800000 : (⟨S_, .i32⟩ : BufTy).Contents (Elt F) → (⟨S800000, .i32⟩ : BufTy).Contents (Elt F)),
    binary main_v1 main_v75 main_v76 (cmpi .slt : (⟨S800000, .i32⟩ : BufTy).Contents (Elt F) → (⟨S800000, .i32⟩ : BufTy).Contents (Elt F) → (⟨S800000, .i1⟩ : BufTy).Contents (Elt F)),
    nullary main_c_21 (constantI S_ 32 50000#32),
    unary main_c_21 main_v77 (broadcastInDim S800000 ![] bcast_S_S800000 : (⟨S_, .i32⟩ : BufTy).Contents (Elt F) → (⟨S800000, .i32⟩ : BufTy).Contents (Elt F)),
    binary main_v1 main_v77 main_v78 (addi : (⟨S800000, .i32⟩ : BufTy).Contents (Elt F) → (⟨S800000, .i32⟩ : BufTy).Contents (Elt F) → (⟨S800000, .i32⟩ : BufTy).Contents (Elt F)),
    ternary main_v76 main_v78 main_v1 main_v79 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v79 main_v80 (broadcastInDim S800000x1 ![0] bcast_S800000_S800000x1_0 : (⟨S800000, .i32⟩ : BufTy).Contents (Elt F) → (⟨S800000x1, .i32⟩ : BufTy).Contents (Elt F)),
    binary main_v74 main_v80 main_v81 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    nullary main_c_22 (constantI S_ 32 0#32),
    unary main_c_22 main_v82 (broadcastInDim S800000 ![] bcast_S_S800000 : (⟨S_, .i32⟩ : BufTy).Contents (Elt F) → (⟨S800000, .i32⟩ : BufTy).Contents (Elt F)),
    binary main_v3 main_v82 main_v83 (cmpi .slt : (⟨S800000, .i32⟩ : BufTy).Contents (Elt F) → (⟨S800000, .i32⟩ : BufTy).Contents (Elt F) → (⟨S800000, .i1⟩ : BufTy).Contents (Elt F)),
    nullary main_c_23 (constantI S_ 32 50000#32),
    unary main_c_23 main_v84 (broadcastInDim S800000 ![] bcast_S_S800000 : (⟨S_, .i32⟩ : BufTy).Contents (Elt F) → (⟨S800000, .i32⟩ : BufTy).Contents (Elt F)),
    binary main_v3 main_v84 main_v85 (addi : (⟨S800000, .i32⟩ : BufTy).Contents (Elt F) → (⟨S800000, .i32⟩ : BufTy).Contents (Elt F) → (⟨S800000, .i32⟩ : BufTy).Contents (Elt F)),
    ternary main_v83 main_v85 main_v3 main_v86 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v86 main_v87 (broadcastInDim S800000x1 ![0] bcast_S800000_S800000x1_0 : (⟨S800000, .i32⟩ : BufTy).Contents (Elt F) → (⟨S800000x1, .i32⟩ : BufTy).Contents (Elt F)),
    binary main_v74 main_v87 main_v88 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    binary main_v81 main_v88 main_v89 (mulf : (⟨S800000, .f32⟩ : BufTy).Contents (Elt F) → (⟨S800000, .f32⟩ : BufTy).Contents (Elt F) → (⟨S800000, .f32⟩ : BufTy).Contents (Elt F)),
    unary main_v89 main_v90 (broadcastInDim S800000x1 ![0] bcast_S800000_S800000x1_0 : (⟨S800000, .f32⟩ : BufTy).Contents (Elt F) → (⟨S800000x1, .f32⟩ : BufTy).Contents (Elt F)),
    nullary main_c_24 (constantI S_ 32 0#32),
    unary main_c_24 main_v91 (broadcastInDim S800000 ![] bcast_S_S800000 : (⟨S_, .i32⟩ : BufTy).Contents (Elt F) → (⟨S800000, .i32⟩ : BufTy).Contents (Elt F)),
    binary main_v3 main_v91 main_v92 (cmpi .slt : (⟨S800000, .i32⟩ : BufTy).Contents (Elt F) → (⟨S800000, .i32⟩ : BufTy).Contents (Elt F) → (⟨S800000, .i1⟩ : BufTy).Contents (Elt F)),
    nullary main_c_25 (constantI S_ 32 50000#32),
    unary main_c_25 main_v93 (broadcastInDim S800000 ![] bcast_S_S800000 : (⟨S_, .i32⟩ : BufTy).Contents (Elt F) → (⟨S800000, .i32⟩ : BufTy).Contents (Elt F)),
    binary main_v3 main_v93 main_v94 (addi : (⟨S800000, .i32⟩ : BufTy).Contents (Elt F) → (⟨S800000, .i32⟩ : BufTy).Contents (Elt F) → (⟨S800000, .i32⟩ : BufTy).Contents (Elt F)),
    ternary main_v92 main_v94 main_v3 main_v95 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v95 main_v96 (broadcastInDim S800000x1 ![0] bcast_S800000_S800000x1_0 : (⟨S800000, .i32⟩ : BufTy).Contents (Elt F) → (⟨S800000x1, .i32⟩ : BufTy).Contents (Elt F)),
    binary main_v59 main_v96 main_v97 ((fun x i => Host.gather gather_S50000x40_S800000x1_S800000x40_1_0_n_n_0_1_140 x i) : (⟨S50000x40, .f32⟩ : BufTy).Contents (Elt F) → (⟨S800000x1, .i32⟩ : BufTy).Contents (Elt F) → (⟨S800000x40, .f32⟩ : BufTy).Contents (Elt F)),
    unary main_v90 main_v98 (broadcastInDim S800000x40 ![0, 1] bcast_S800000x1_S800000x40_0_1 : (⟨S800000x1, .f32⟩ : BufTy).Contents (Elt F) → (⟨S800000x40, .f32⟩ : BufTy).Contents (Elt F)),
    binary main_v98 main_v97 main_v99 (mulf : (⟨S800000x40, .f32⟩ : BufTy).Contents (Elt F) → (⟨S800000x40, .f32⟩ : BufTy).Contents (Elt F) → (⟨S800000x40, .f32⟩ : BufTy).Contents (Elt F)),
    nullary main_cst_26 (constant S_ .f32 0x00000000#32),
    unary main_cst_26 main_v100 (broadcastInDim S50000x40 ![] bcast_S_S50000x40 : (⟨S_, .f32⟩ : BufTy).Contents (Elt F) → (⟨S50000x40, .f32⟩ : BufTy).Contents (Elt F)),
    unary main_v1 main_v101 (broadcastInDim S800000x1 ![0] bcast_S800000_S800000x1_0 : (⟨S800000, .i32⟩ : BufTy).Contents (Elt F) → (⟨S800000x1, .i32⟩ : BufTy).Contents (Elt F)),
    ternary main_v100 main_v101 main_v99 main_v102 ((fun x i u => Host.scatterAdd scatter_S50000x40_S800000x1_S800000x40_1_0_0_1 x i u) : (⟨S50000x40, .f32⟩ : BufTy).Contents (Elt F) → (⟨S800000x1, .i32⟩ : BufTy).Contents (Elt F) → (⟨S800000x40, .f32⟩ : BufTy).Contents (Elt F) → (⟨S50000x40, .f32⟩ : BufTy).Contents (Elt F)),
    nullary main_cst_27 (constant S_ .f32 0x3F800000#32),
    unary main_cst_27 main_v103 (broadcastInDim S50000 ![] bcast_S_S50000 : (⟨S_, .f32⟩ : BufTy).Contents (Elt F) → (⟨S50000, .f32⟩ : BufTy).Contents (Elt F)),
    binary main_v103 main_v74 main_v104 (mulf : (⟨S50000, .f32⟩ : BufTy).Contents (Elt F) → (⟨S50000, .f32⟩ : BufTy).Contents (Elt F) → (⟨S50000, .f32⟩ : BufTy).Contents (Elt F)),
    binary main_v104 main_v74 main_v105 (mulf : (⟨S50000, .f32⟩ : BufTy).Contents (Elt F) → (⟨S50000, .f32⟩ : BufTy).Contents (Elt F) → (⟨S50000, .f32⟩ : BufTy).Contents (Elt F)),
    unary main_v105 main_v106 (broadcastInDim S50000x1 ![0] bcast_S50000_S50000x1_0 : (⟨S50000, .f32⟩ : BufTy).Contents (Elt F) → (⟨S50000x1, .f32⟩ : BufTy).Contents (Elt F)),
    unary main_v106 main_v107 (broadcastInDim S50000x40 ![0, 1] bcast_S50000x1_S50000x40_0_1 : (⟨S50000x1, .f32⟩ : BufTy).Contents (Elt F) → (⟨S50000x40, .f32⟩ : BufTy).Contents (Elt F)),
    binary main_v107 main_v59 main_v108 (mulf : (⟨S50000x40, .f32⟩ : BufTy).Contents (Elt F) → (⟨S50000x40, .f32⟩ : BufTy).Contents (Elt F) → (⟨S50000x40, .f32⟩ : BufTy).Contents (Elt F)),
    binary main_v102 main_v108 main_v109 (addf : (⟨S50000x40, .f32⟩ : BufTy).Contents (Elt F) → (⟨S50000x40, .f32⟩ : BufTy).Contents (Elt F) → (⟨S50000x40, .f32⟩ : BufTy).Contents (Elt F)),
    unary main_arg5 main_v110 (broadcastInDim S1x40 ![1] bcast_S40_S1x40_1 : (⟨S40, .f32⟩ : BufTy).Contents (Elt F) → (⟨S1x40, .f32⟩ : BufTy).Contents (Elt F)),
    unary main_v110 main_v111 (broadcastInDim S50000x40 ![0, 1] bcast_S1x40_S50000x40_0_1 : (⟨S1x40, .f32⟩ : BufTy).Contents (Elt F) → (⟨S50000x40, .f32⟩ : BufTy).Contents (Elt F)),
    binary main_v109 main_v111 main_v112 (addf : (⟨S50000x40, .f32⟩ : BufTy).Contents (Elt F) → (⟨S50000x40, .f32⟩ : BufTy).Contents (Elt F) → (⟨S50000x40, .f32⟩ : BufTy).Contents (Elt F)) ]

set_option maxRecDepth 8192 in
/-- The line is its pieces one after the other. -/
theorem ops_split : (ops : List (HloOp τ sig (Elt F))) = opsA0 ++ opsA1 ++ opsB0 ++ opsB1 ++ opsC0 ++ opsC1 ++ opsD := rfl

/-- The contents after two lines run one after the other. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-! ## What each piece leaves, over an arbitrary valuation of the buffers

Each lemma reads one buffer after one piece, from an arbitrary valuation `V` of the buffers before it: a buffer the piece
writes holds an array-level function of the piece's own inputs, a buffer it does not write holds what it held. -/

section Pieces

open Cert.Spec

/-! ### Stage A: the rows, x · W1, dis -/

/-- Row 0 of the edge list. -/
theorem A0_v1 (V : Valuation τ sig (Elt Ideal)) :
    after opsA0 V (Proc.devRef .tc main_v1)
      = rowOf (V (Proc.devRef .tc main_arg1)) := by
  after_results_simp; rfl

/-- Row 1 of the edge list. -/
theorem A0_v3 (V : Valuation τ sig (Elt Ideal)) :
    after opsA0 V (Proc.devRef .tc main_v3)
      = colOf (V (Proc.devRef .tc main_arg1)) := by
  after_results_simp; rfl

/-- x · W1. -/
theorem A0_v4 (V : Valuation τ sig (Elt Ideal)) :
    after opsA0 V (Proc.devRef .tc main_v4)
      = mm1 (V (Proc.devRef .tc main_arg0)) (V (Proc.devRef .tc main_arg2)) := by
  after_results_simp; rfl

/-- Where the degree is positive. -/
theorem A0_v17 (V : Valuation τ sig (Elt Ideal)) :
    after opsA0 V (Proc.devRef .tc main_v17)
      = cmpf .ogt (degOf (rowOf (V (Proc.devRef .tc main_arg1)))) (broadcastInDim S50000 ![] bcast_S_S50000 (constant S_ .f32 0x00000000#32)) := by
  after_results_simp; rfl

/-- The degree's inverse square root. -/
theorem A0_v18 (V : Valuation τ sig (Elt Ideal)) :
    after opsA0 V (Proc.devRef .tc main_v18)
      = Host.rsqrt (degOf (rowOf (V (Proc.devRef .tc main_arg1)))) := by
  after_results_simp; rfl

/-- The zero the select falls back to. -/
theorem A0_cst_4 (V : Valuation τ sig (Elt Ideal)) :
    after opsA0 V (Proc.devRef .tc main_cst_4)
      = (constant S_ .f32 0x00000000#32 : FVec Ideal S_ .f32) := by
  after_results_simp

theorem keepA0_arg0 (V : Valuation τ sig (Elt Ideal)) :
    after opsA0 V (Proc.devRef .tc main_arg0) = V (Proc.devRef .tc main_arg0) := by after_results_simp
theorem keepA0_arg1 (V : Valuation τ sig (Elt Ideal)) :
    after opsA0 V (Proc.devRef .tc main_arg1) = V (Proc.devRef .tc main_arg1) := by after_results_simp
theorem keepA0_arg2 (V : Valuation τ sig (Elt Ideal)) :
    after opsA0 V (Proc.devRef .tc main_arg2) = V (Proc.devRef .tc main_arg2) := by after_results_simp
theorem keepA0_arg3 (V : Valuation τ sig (Elt Ideal)) :
    after opsA0 V (Proc.devRef .tc main_arg3) = V (Proc.devRef .tc main_arg3) := by after_results_simp
theorem keepA0_arg4 (V : Valuation τ sig (Elt Ideal)) :
    after opsA0 V (Proc.devRef .tc main_arg4) = V (Proc.devRef .tc main_arg4) := by after_results_simp
theorem keepA0_arg5 (V : Valuation τ sig (Elt Ideal)) :
    after opsA0 V (Proc.devRef .tc main_arg5) = V (Proc.devRef .tc main_arg5) := by after_results_simp

/-- The outlined select, of its three operands (the scalar passes through an identity and is broadcast). -/
theorem A1_v19 (V : Valuation τ sig (Elt Ideal)) :
    after opsA1 V (Proc.devRef .tc main_v19)
      = select (V (Proc.devRef .tc main_v17)) (V (Proc.devRef .tc main_v18)) (broadcastInDim S50000 ![] bcast_S_S50000 (V (Proc.devRef .tc main_cst_4))) := by
  after_results_simp; rfl

theorem keepA1_v1 (V : Valuation τ sig (Elt Ideal)) :
    after opsA1 V (Proc.devRef .tc main_v1) = V (Proc.devRef .tc main_v1) := by after_results_simp
theorem keepA1_v3 (V : Valuation τ sig (Elt Ideal)) :
    after opsA1 V (Proc.devRef .tc main_v3) = V (Proc.devRef .tc main_v3) := by after_results_simp
theorem keepA1_v4 (V : Valuation τ sig (Elt Ideal)) :
    after opsA1 V (Proc.devRef .tc main_v4) = V (Proc.devRef .tc main_v4) := by after_results_simp
theorem keepA1_arg0 (V : Valuation τ sig (Elt Ideal)) :
    after opsA1 V (Proc.devRef .tc main_arg0) = V (Proc.devRef .tc main_arg0) := by after_results_simp
theorem keepA1_arg1 (V : Valuation τ sig (Elt Ideal)) :
    after opsA1 V (Proc.devRef .tc main_arg1) = V (Proc.devRef .tc main_arg1) := by after_results_simp
theorem keepA1_arg2 (V : Valuation τ sig (Elt Ideal)) :
    after opsA1 V (Proc.devRef .tc main_arg2) = V (Proc.devRef .tc main_arg2) := by after_results_simp
theorem keepA1_arg3 (V : Valuation τ sig (Elt Ideal)) :
    after opsA1 V (Proc.devRef .tc main_arg3) = V (Proc.devRef .tc main_arg3) := by after_results_simp
theorem keepA1_arg4 (V : Valuation τ sig (Elt Ideal)) :
    after opsA1 V (Proc.devRef .tc main_arg4) = V (Proc.devRef .tc main_arg4) := by after_results_simp
theorem keepA1_arg5 (V : Valuation τ sig (Elt Ideal)) :
    after opsA1 V (Proc.devRef .tc main_arg5) = V (Proc.devRef .tc main_arg5) := by after_results_simp

/-- dis of row 0 after stage A. -/
theorem A_v19 (V : Valuation τ sig (Elt Ideal)) :
    after opsA1 (after opsA0 V) (Proc.devRef .tc main_v19) = disOf (rowOf (V (Proc.devRef .tc main_arg1))) := by
  rw [A1_v19, A0_v17, A0_v18, A0_cst_4]; rfl

/-! ### Stage B: layer 1, relu, · W2 -/

set_option maxRecDepth 8192 in
/-- Layer 1 in the edge arrangement, of the buffers stage A left. -/
theorem B0_v57 (V : Valuation τ sig (Elt Ideal)) :
    after opsB0 V (Proc.devRef .tc main_v57)
      = finish128 (aggEdge128 (V (Proc.devRef .tc main_v19)) (V (Proc.devRef .tc main_v1)) (V (Proc.devRef .tc main_v3)) (V (Proc.devRef .tc main_v4))) (V (Proc.devRef .tc main_v19)) (V (Proc.devRef .tc main_v4)) (V (Proc.devRef .tc main_arg3)) := by
  after_results_simp; rfl

theorem keepB0_v1 (V : Valuation τ sig (Elt Ideal)) :
    after opsB0 V (Proc.devRef .tc main_v1) = V (Proc.devRef .tc main_v1) := by after_results_simp
theorem keepB0_v3 (V : Valuation τ sig (Elt Ideal)) :
    after opsB0 V (Proc.devRef .tc main_v3) = V (Proc.devRef .tc main_v3) := by after_results_simp
theorem keepB0_arg0 (V : Valuation τ sig (Elt Ideal)) :
    after opsB0 V (Proc.devRef .tc main_arg0) = V (Proc.devRef .tc main_arg0) := by after_results_simp
theorem keepB0_arg1 (V : Valuation τ sig (Elt Ideal)) :
    after opsB0 V (Proc.devRef .tc main_arg1) = V (Proc.devRef .tc main_arg1) := by after_results_simp
theorem keepB0_arg2 (V : Valuation τ sig (Elt Ideal)) :
    after opsB0 V (Proc.devRef .tc main_arg2) = V (Proc.devRef .tc main_arg2) := by after_results_simp
theorem keepB0_arg3 (V : Valuation τ sig (Elt Ideal)) :
    after opsB0 V (Proc.devRef .tc main_arg3) = V (Proc.devRef .tc main_arg3) := by after_results_simp
theorem keepB0_arg4 (V : Valuation τ sig (Elt Ideal)) :
    after opsB0 V (Proc.devRef .tc main_arg4) = V (Proc.devRef .tc main_arg4) := by after_results_simp
theorem keepB0_arg5 (V : Valuation τ sig (Elt Ideal)) :
    after opsB0 V (Proc.devRef .tc main_arg5) = V (Proc.devRef .tc main_arg5) := by after_results_simp

/-- The outlined relu and the product with W2. -/
theorem B1_v59 (V : Valuation τ sig (Elt Ideal)) :
    after opsB1 V (Proc.devRef .tc main_v59)
      = mm2 (reluOf (V (Proc.devRef .tc main_v57))) (V (Proc.devRef .tc main_arg4)) := by
  after_results_simp; rfl

theorem keepB1_v1 (V : Valuation τ sig (Elt Ideal)) :
    after opsB1 V (Proc.devRef .tc main_v1) = V (Proc.devRef .tc main_v1) := by after_results_simp
theorem keepB1_v3 (V : Valuation τ sig (Elt Ideal)) :
    after opsB1 V (Proc.devRef .tc main_v3) = V (Proc.devRef .tc main_v3) := by after_results_simp
theorem keepB1_arg0 (V : Valuation τ sig (Elt Ideal)) :
    after opsB1 V (Proc.devRef .tc main_arg0) = V (Proc.devRef .tc main_arg0) := by after_results_simp
theorem keepB1_arg1 (V : Valuation τ sig (Elt Ideal)) :
    after opsB1 V (Proc.devRef .tc main_arg1) = V (Proc.devRef .tc main_arg1) := by after_results_simp
theorem keepB1_arg2 (V : Valuation τ sig (Elt Ideal)) :
    after opsB1 V (Proc.devRef .tc main_arg2) = V (Proc.devRef .tc main_arg2) := by after_results_simp
theorem keepB1_arg3 (V : Valuation τ sig (Elt Ideal)) :
    after opsB1 V (Proc.devRef .tc main_arg3) = V (Proc.devRef .tc main_arg3) := by after_results_simp
theorem keepB1_arg4 (V : Valuation τ sig (Elt Ideal)) :
    after opsB1 V (Proc.devRef .tc main_arg4) = V (Proc.devRef .tc main_arg4) := by after_results_simp
theorem keepB1_arg5 (V : Valuation τ sig (Elt Ideal)) :
    after opsB1 V (Proc.devRef .tc main_arg5) = V (Proc.devRef .tc main_arg5) := by after_results_simp

/-- relu (layer 1) · W2 after stage B. -/
theorem B_v59 (V : Valuation τ sig (Elt Ideal)) :
    after opsB1 (after opsB0 V) (Proc.devRef .tc main_v59)
      = mm2 (reluOf (finish128 (aggEdge128 (V (Proc.devRef .tc main_v19)) (V (Proc.devRef .tc main_v1)) (V (Proc.devRef .tc main_v3)) (V (Proc.devRef .tc main_v4))) (V (Proc.devRef .tc main_v19)) (V (Proc.devRef .tc main_v4)) (V (Proc.devRef .tc main_arg3)))) (V (Proc.devRef .tc main_arg4)) := by
  rw [B1_v59, B0_v57, keepB0_arg4]

/-! ### Stage C: dis again -/

/-- Where the degree is positive, again. -/
theorem C0_v72 (V : Valuation τ sig (Elt Ideal)) :
    after opsC0 V (Proc.devRef .tc main_v72)
      = cmpf .ogt (degOf (V (Proc.devRef .tc main_v1))) (broadcastInDim S50000 ![] bcast_S_S50000 (constant S_ .f32 0x00000000#32)) := by
  after_results_simp; rfl

/-- The degree's inverse square root, again. -/
theorem C0_v73 (V : Valuation τ sig (Elt Ideal)) :
    after opsC0 V (Proc.devRef .tc main_v73)
      = Host.rsqrt (degOf (V (Proc.devRef .tc main_v1))) := by
  after_results_simp; rfl

/-- The zero the select falls back to. -/
theorem C0_cst_19 (V : Valuation τ sig (Elt Ideal)) :
    after opsC0 V (Proc.devRef .tc main_cst_19)
      = (constant S_ .f32 0x00000000#32 : FVec Ideal S_ .f32) := by
  after_results_simp

theorem keepC0_v1 (V : Valuation τ sig (Elt Ideal)) :
    after opsC0 V (Proc.devRef .tc main_v1) = V (Proc.devRef .tc main_v1) := by after_results_simp
theorem keepC0_v3 (V : Valuation τ sig (Elt Ideal)) :
    after opsC0 V (Proc.devRef .tc main_v3) = V (Proc.devRef .tc main_v3) := by after_results_simp
theorem keepC0_v59 (V : Valuation τ sig (Elt Ideal)) :
    after opsC0 V (Proc.devRef .tc main_v59) = V (Proc.devRef .tc main_v59) := by after_results_simp
theorem keepC0_arg0 (V : Valuation τ sig (Elt Ideal)) :
    after opsC0 V (Proc.devRef .tc main_arg0) = V (Proc.devRef .tc main_arg0) := by after_results_simp
theorem keepC0_arg1 (V : Valuation τ sig (Elt Ideal)) :
    after opsC0 V (Proc.devRef .tc main_arg1) = V (Proc.devRef .tc main_arg1) := by after_results_simp
theorem keepC0_arg2 (V : Valuation τ sig (Elt Ideal)) :
    after opsC0 V (Proc.devRef .tc main_arg2) = V (Proc.devRef .tc main_arg2) := by after_results_simp
theorem keepC0_arg3 (V : Valuation τ sig (Elt Ideal)) :
    after opsC0 V (Proc.devRef .tc main_arg3) = V (Proc.devRef .tc main_arg3) := by after_results_simp
theorem keepC0_arg4 (V : Valuation τ sig (Elt Ideal)) :
    after opsC0 V (Proc.devRef .tc main_arg4) = V (Proc.devRef .tc main_arg4) := by after_results_simp
theorem keepC0_arg5 (V : Valuation τ sig (Elt Ideal)) :
    after opsC0 V (Proc.devRef .tc main_arg5) = V (Proc.devRef .tc main_arg5) := by after_results_simp

/-- The outlined select, again. -/
theorem C1_v74 (V : Valuation τ sig (Elt Ideal)) :
    after opsC1 V (Proc.devRef .tc main_v74)
      = select (V (Proc.devRef .tc main_v72)) (V (Proc.devRef .tc main_v73)) (broadcastInDim S50000 ![] bcast_S_S50000 (V (Proc.devRef .tc main_cst_19))) := by
  after_results_simp; rfl

theorem keepC1_v1 (V : Valuation τ sig (Elt Ideal)) :
    after opsC1 V (Proc.devRef .tc main_v1) = V (Proc.devRef .tc main_v1) := by after_results_simp
theorem keepC1_v3 (V : Valuation τ sig (Elt Ideal)) :
    after opsC1 V (Proc.devRef .tc main_v3) = V (Proc.devRef .tc main_v3) := by after_results_simp
theorem keepC1_v59 (V : Valuation τ sig (Elt Ideal)) :
    after opsC1 V (Proc.devRef .tc main_v59) = V (Proc.devRef .tc main_v59) := by after_results_simp
theorem keepC1_arg0 (V : Valuation τ sig (Elt Ideal)) :
    after opsC1 V (Proc.devRef .tc main_arg0) = V (Proc.devRef .tc main_arg0) := by after_results_simp
theorem keepC1_arg1 (V : Valuation τ sig (Elt Ideal)) :
    after opsC1 V (Proc.devRef .tc main_arg1) = V (Proc.devRef .tc main_arg1) := by after_results_simp
theorem keepC1_arg2 (V : Valuation τ sig (Elt Ideal)) :
    after opsC1 V (Proc.devRef .tc main_arg2) = V (Proc.devRef .tc main_arg2) := by after_results_simp
theorem keepC1_arg3 (V : Valuation τ sig (Elt Ideal)) :
    after opsC1 V (Proc.devRef .tc main_arg3) = V (Proc.devRef .tc main_arg3) := by after_results_simp
theorem keepC1_arg4 (V : Valuation τ sig (Elt Ideal)) :
    after opsC1 V (Proc.devRef .tc main_arg4) = V (Proc.devRef .tc main_arg4) := by after_results_simp
theorem keepC1_arg5 (V : Valuation τ sig (Elt Ideal)) :
    after opsC1 V (Proc.devRef .tc main_arg5) = V (Proc.devRef .tc main_arg5) := by after_results_simp

/-- dis of the row stage A left, after stage C. -/
theorem C_v74 (V : Valuation τ sig (Elt Ideal)) :
    after opsC1 (after opsC0 V) (Proc.devRef .tc main_v74) = disOf (V (Proc.devRef .tc main_v1)) := by
  rw [C1_v74, C0_v72, C0_v73, C0_cst_19]; rfl

/-! ### Stage D: layer 2 -/

set_option maxRecDepth 8192 in
/-- Layer 2 in the edge arrangement, of the buffers the earlier stages left. -/
theorem D_v112 (V : Valuation τ sig (Elt Ideal)) :
    after opsD V (Proc.devRef .tc main_v112)
      = finish40 (aggEdge40 (V (Proc.devRef .tc main_v74)) (V (Proc.devRef .tc main_v1)) (V (Proc.devRef .tc main_v3)) (V (Proc.devRef .tc main_v59))) (V (Proc.devRef .tc main_v74)) (V (Proc.devRef .tc main_v59)) (V (Proc.devRef .tc main_arg5)) := by
  after_results_simp; rfl

theorem keepD_arg0 (V : Valuation τ sig (Elt Ideal)) :
    after opsD V (Proc.devRef .tc main_arg0) = V (Proc.devRef .tc main_arg0) := by after_results_simp
theorem keepD_arg1 (V : Valuation τ sig (Elt Ideal)) :
    after opsD V (Proc.devRef .tc main_arg1) = V (Proc.devRef .tc main_arg1) := by after_results_simp
theorem keepD_arg2 (V : Valuation τ sig (Elt Ideal)) :
    after opsD V (Proc.devRef .tc main_arg2) = V (Proc.devRef .tc main_arg2) := by after_results_simp
theorem keepD_arg3 (V : Valuation τ sig (Elt Ideal)) :
    after opsD V (Proc.devRef .tc main_arg3) = V (Proc.devRef .tc main_arg3) := by after_results_simp
theorem keepD_arg4 (V : Valuation τ sig (Elt Ideal)) :
    after opsD V (Proc.devRef .tc main_arg4) = V (Proc.devRef .tc main_arg4) := by after_results_simp
theorem keepD_arg5 (V : Valuation τ sig (Elt Ideal)) :
    after opsD V (Proc.devRef .tc main_arg5) = V (Proc.devRef .tc main_arg5) := by after_results_simp

end Pieces

/-! ## The stages composed -/

section Whole

variable (m : (ℓ : Loc nD τ sig) → Buf (Elt Ideal) ℓ) (c : Dev nD)

/-- The whole line as the pieces run one after the other. -/
theorem after_ops (V : Valuation τ sig (Elt Ideal)) :
    after (ops (F := Ideal)) V
      = after opsD (after opsC1 (after opsC0 (after opsB1 (after opsB0 (after opsA1 (after opsA0 V)))))) := by
  rw [ops_split, after_append, after_append, after_append, after_append, after_append, after_append]

/-- The result buffer after the whole line: stage D's value of what stages C, B and A left, which are `Spec.refOut`'s
    lets in order (the second dis is the first: both are `disOf` of row 0). -/
theorem out_eq :
    after (ops (F := Ideal)) (launchContents m c) (Proc.devRef .tc main_v112)
      = Cert.Spec.refOut (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  rw [after_ops, D_v112, C_v74, keepC1_v1, keepC1_v3, keepC1_v59, keepC1_arg5, keepC0_v1, keepC0_v3, keepC0_v59, keepC0_arg5,
    B_v59, keepB1_v1, keepB1_v3, keepB1_arg5, keepB0_v1, keepB0_v3, keepB0_arg5,
    A_v19, keepA1_v1, keepA1_v3, keepA1_v4, keepA1_arg3, keepA1_arg4, keepA1_arg5,
    A0_v1, A0_v3, A0_v4, keepA0_arg3, keepA0_arg4, keepA0_arg5]
  rfl

/-- No piece writes `main_arg0`. -/
theorem arg0_eq :
    after (ops (F := Ideal)) (launchContents m c) (Proc.devRef .tc main_arg0) = m ((c.tc : Thread nD τ).loc main_arg0) := by
  rw [after_ops, keepD_arg0, keepC1_arg0, keepC0_arg0, keepB1_arg0, keepB0_arg0, keepA1_arg0, keepA0_arg0]

/-- No piece writes `main_arg1`. -/
theorem arg1_eq :
    after (ops (F := Ideal)) (launchContents m c) (Proc.devRef .tc main_arg1) = m ((c.tc : Thread nD τ).loc main_arg1) := by
  rw [after_ops, keepD_arg1, keepC1_arg1, keepC0_arg1, keepB1_arg1, keepB0_arg1, keepA1_arg1, keepA0_arg1]

/-- No piece writes `main_arg2`. -/
theorem arg2_eq :
    after (ops (F := Ideal)) (launchContents m c) (Proc.devRef .tc main_arg2) = m ((c.tc : Thread nD τ).loc main_arg2) := by
  rw [after_ops, keepD_arg2, keepC1_arg2, keepC0_arg2, keepB1_arg2, keepB0_arg2, keepA1_arg2, keepA0_arg2]

/-- No piece writes `main_arg3`. -/
theorem arg3_eq :
    after (ops (F := Ideal)) (launchContents m c) (Proc.devRef .tc main_arg3) = m ((c.tc : Thread nD τ).loc main_arg3) := by
  rw [after_ops, keepD_arg3, keepC1_arg3, keepC0_arg3, keepB1_arg3, keepB0_arg3, keepA1_arg3, keepA0_arg3]

/-- No piece writes `main_arg4`. -/
theorem arg4_eq :
    after (ops (F := Ideal)) (launchContents m c) (Proc.devRef .tc main_arg4) = m ((c.tc : Thread nD τ).loc main_arg4) := by
  rw [after_ops, keepD_arg4, keepC1_arg4, keepC0_arg4, keepB1_arg4, keepB0_arg4, keepA1_arg4, keepA0_arg4]

/-- No piece writes `main_arg5`. -/
theorem arg5_eq :
    after (ops (F := Ideal)) (launchContents m c) (Proc.devRef .tc main_arg5) = m ((c.tc : Thread nD τ).loc main_arg5) := by
  rw [after_ops, keepD_arg5, keepC1_arg5, keepC0_arg5, keepB1_arg5, keepB0_arg5, keepA1_arg5, keepA0_arg5]

end Whole

/-- On every device, from any memory with zero counters: every weakly fair execution of the idealized reference's @main
    terminates with the result buffer at `Spec.refOut` of the argument arrays and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v112)
          = Cert.Spec.refOut (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c main_v112).trans (out_eq m c),
      (h c main_arg0).trans (arg0_eq m c),
      (h c main_arg1).trans (arg1_eq m c),
      (h c main_arg2).trans (arg2_eq m c),
      (h c main_arg3).trans (arg3_eq m c),
      (h c main_arg4).trans (arg4_eq m c),
      (h c main_arg5).trans (arg5_eq m c)⟩)
    (run_seq scopedRefs_eq scopedSems_eq defs main (fun _ => ops) main_eq (fun _ => ops_sub) m ρ)

end Cert.RefRun

end
-- ==== Proof.LibRowGather.lean ====
/-
  `stablehlo.gather` of WHOLE ROWS of a matrix, read at an index.

  What `x[idx]` lowers to for a matrix `x : [N, C]` and an integer array `idx` of row numbers: a gather whose one offset
  axis is the result's last axis, with collapsed_slice_dims `[0]`, start_index_map `[0]`, slice_sizes `[1, C]` and the
  index vector on the start indices' last axis, of extent one. The operand has two axes. Axis 0 is collapsed and named by
  the start index map: its coordinate is the start index, read as a signed integer and clamped into `[0, N − 1]` (the
  clamp that makes the one-row slice fit), with no batching and no offset part. Axis 1 is the one offset axis: it is not
  in the start index map, so its slice starts at `0`, it is not a batching axis, and its offset coordinate is the
  result's coordinate on the offset axis, that is the result's last coordinate. So result element `(…, k)` is `x` at the
  clamped row and column `k`. Stated for start indices `[R, 1]` with result `[R, C]` (`rowsDims`, `gather_rows_apply`)
  and for start indices `[P, A, 1]` with result `[P, A, C]` (`rowsDims3`, `gather_rows3_apply`).
-/
import Idealize.ShloMosaic.PureOps.Ideal
import Idealize.ShloMosaic.Lib.ValueIdx

noncomputable section

namespace Idealize.ShloMosaic.RowGather

open Idealize.ShloMosaic Idealize.ShloMosaic.ValueIdx

/-- The dimension numbers of a gather of whole rows, for an operand `[N, C]`, start indices `[R, 1]` and result `[R, C]`:
    the result's axis 1 is the offset axis, the operand's axis 0 is collapsed and is the one axis the start index names,
    the index vector is the start indices' axis 1, and a slice is one row, `[1, C]`. Their conditions `wf` are decided on
    a program's literal shapes. -/
abbrev rowsDims (N C R : Nat) (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- THE GATHER OF ROWS READ AT `(r, k)`: the operand at the row `idx[r, 0]`, read signed and clamped into `[0, N − 1]`,
    and column `k`. On the operand's axis 0 the start is the clamped index and the batching and offset parts are zero; on
    its axis 1 the start and the batching part are zero and the offset part is the result's coordinate `k`. -/
theorem gather_rows_apply {α : Type} {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (k : Fin C) :
    Host.gather (rowsDims N C R wf) x idx (ix2 r k)
      = x (ix2 (⟨min (idx (ix2 r (0 : Fin 1))).toInt.toNat (N - 1), by omega⟩ : Fin N) k) := by
  unfold Host.gather
  congr 1
  funext a
  refine Fin.ext ?_
  match a with
  | ⟨0, _⟩ =>
    show (rowsDims N C R wf).start (ix2 r k) idx 0 + (rowsDims N C R wf).batchCoord (ix2 r k) 0
      + (rowsDims N C R wf).offCoord (ix2 r k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N C R wf).startIndexMap from List.mem_singleton.mpr rfl)]
    have hsi : (rowsDims N C R wf).siIdx (ix2 r k) ⟨List.idxOf (0 : Fin 2) (rowsDims N C R wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    show (rowsDims N C R wf).start (ix2 r k) idx 1 + (rowsDims N C R wf).batchCoord (ix2 r k) 1
      + (rowsDims N C R wf).offCoord (ix2 r k) 1 = k.val
    have hstart : (rowsDims N C R wf).start (ix2 r k) idx 1 = 0 := by
      unfold GatherDims.start
      rw [dif_neg (show (1 : Fin 2) ∉ (rowsDims N C R wf).startIndexMap from
        fun h => absurd (List.mem_singleton.mp h) (show ¬ ((1 : Fin 2) = 0) by decide))]
    have hbatch : (rowsDims N C R wf).batchCoord (ix2 r k) 1 = 0 :=
      GatherDims.batchCoord_eq_zero _ _ _ List.not_mem_nil
    have hoff : (rowsDims N C R wf).offCoord (ix2 r k) 1 = k.val := by
      unfold GatherDims.offCoord
      rw [dif_pos ((GatherDims.mem_sKept _ _).mpr
        ⟨fun h => absurd (List.mem_singleton.mp h) (show ¬ ((1 : Fin 2) = 0) by decide), List.not_mem_nil⟩)]
      rfl
    omega

/-- The dimension numbers of a gather of whole rows, for an operand `[N, C]`, start indices `[P, A, 1]` and result
    `[P, A, C]`: the result's axis 2 is the offset axis, the operand's axis 0 is collapsed and is the one axis the start
    index names, the index vector is the start indices' axis 2, and a slice is one row, `[1, C]`. Their conditions `wf`
    are decided on a program's literal shapes. -/
abbrev rowsDims3 (N C P A : Nat)
    (wf : GatherDims.WF ⟨2, ![N, C]⟩ ⟨3, ![P, A, 1]⟩ ⟨3, ![P, A, C]⟩ [2] [0] [] [0] [] 2 ![1, C]) :
    GatherDims ⟨2, ![N, C]⟩ ⟨3, ![P, A, 1]⟩ ⟨3, ![P, A, C]⟩ where
  offsetDims := [2]
  collapsedSliceDims := [0]
  operandBatchingDims := []
  startIndicesBatchingDims := []
  startIndexMap := [0]
  indexVectorDim := 2
  sliceSizes := ![1, C]
  wf := wf

/-- THE GATHER OF ROWS READ AT `(p, a, k)`: the operand at the row `idx[p, a, 0]`, read signed and clamped into
    `[0, N − 1]`, and column `k`. -/
theorem gather_rows3_apply {α : Type} {N C P A w : Nat} (hN : 0 < N)
    (wf : GatherDims.WF ⟨2, ![N, C]⟩ ⟨3, ![P, A, 1]⟩ ⟨3, ![P, A, C]⟩ [2] [0] [] [0] [] 2 ![1, C])
    (x : (⟨2, ![N, C]⟩ : Shape).Idx → α) (idx : IVec ⟨3, ![P, A, 1]⟩ w) (p : Fin P) (a : Fin A) (k : Fin C) :
    Host.gather (rowsDims3 N C P A wf) x idx (ix3 p a k)
      = x (ix2 (⟨min (idx (ix3 p a (0 : Fin 1))).toInt.toNat (N - 1), by omega⟩ : Fin N) k) := by
  unfold Host.gather
  congr 1
  funext c
  refine Fin.ext ?_
  match c with
  | ⟨0, _⟩ =>
    show (rowsDims3 N C P A wf).start (ix3 p a k) idx 0 + (rowsDims3 N C P A wf).batchCoord (ix3 p a k) 0
      + (rowsDims3 N C P A wf).offCoord (ix3 p a k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims3 N C P A wf).startIndexMap from List.mem_singleton.mpr rfl)]
    have hsi : (rowsDims3 N C P A wf).siIdx (ix3 p a k) ⟨List.idxOf (0 : Fin 2) (rowsDims3 N C P A wf).startIndexMap,
        List.idxOf_lt_length_iff.2 (List.mem_singleton.mpr rfl)⟩ = ix3 p a (0 : Fin 1) := by
      funext b; refine Fin.ext ?_
      match b with
      | ⟨0, _⟩ => rfl
      | ⟨1, _⟩ => rfl
      | ⟨2, _⟩ => rfl
    rw [hsi]
    rfl
  | ⟨1, _⟩ =>
    show (rowsDims3 N C P A wf).start (ix3 p a k) idx 1 + (rowsDims3 N C P A wf).batchCoord (ix3 p a k) 1
      + (rowsDims3 N C P A wf).offCoord (ix3 p a k) 1 = k.val
    have hstart : (rowsDims3 N C P A wf).start (ix3 p a k) idx 1 = 0 := by
      unfold GatherDims.start
      rw [dif_neg (show (1 : Fin 2) ∉ (rowsDims3 N C P A wf).startIndexMap from
        fun h => absurd (List.mem_singleton.mp h) (show ¬ ((1 : Fin 2) = 0) by decide))]
    have hbatch : (rowsDims3 N C P A wf).batchCoord (ix3 p a k) 1 = 0 :=
      GatherDims.batchCoord_eq_zero _ _ _ List.not_mem_nil
    have hoff : (rowsDims3 N C P A wf).offCoord (ix3 p a k) 1 = k.val := by
      unfold GatherDims.offCoord
      rw [dif_pos ((GatherDims.mem_sKept _ _).mpr
        ⟨fun h => absurd (List.mem_singleton.mp h) (show ¬ ((1 : Fin 2) = 0) by decide), List.not_mem_nil⟩)]
      rfl
    omega

end Idealize.ShloMosaic.RowGather

end
-- ==== Proof.LibGcnAggregate.lean ====
/-
  Scaling a segment sum of gathered rows by a per-node factor, before or after the sum.

  Nodes are numbered 0 … N − 1 and carry a weight `dis i` that is a nonnegative REAL (as an extended real: `0 ≤ dis i`,
  `dis i ≠ ⊤`).  Edge `e` (of R edges) is aggregated at node `row e` and gathers from node `col e`.  For features
  `h : [N, C]` the two arrangements

      agg₁[i, f] = ∑ over the edges e with row e = i of (dis[row e] · dis[col e]) · h[col e, f]      (weights per edge)
      agg₂[i, f] = dis[i] · ∑ over the edges e with row e = i of (dis · h)[col e, f]                 (weights per node)

  are equal entry by entry WHATEVER `h` holds, infinities included: on the edges of segment `i` the first factor
  `dis[row e]` is the constant `dis[i]`, multiplication of extended reals is associative, and a nonnegative finite factor
  distributes over every finite sum of extended reals.  The statement is over the host's operations: an accumulating
  scatter of whole rows (an update whose start index is outside `[0, N)` is dropped; the index is read signed and not
  clamped), gathers of whole rows and of single entries (the index read signed and CLAMPED into `[0, N − 1]`), and the
  "negative index counts from the end" select in front of a gather, which is the identity on the nonnegative indices a
  segment's edges have.

  Also here: the guarded reciprocal square root `if d > 0 then d^(-1/2) else 0` is a nonnegative real for every
  extended real `d` (`⊤ ↦ 0`), which is what makes `dis` such a weight with no assumption on the degrees.
-/
import Idealize.ShloMosaic.PureOps.Ideal
import Idealize.ShloMosaic.PureOps.Ideal.Laws
import Idealize.ShloMosaic.Lib.ValueIdx
import Idealize.ShloMosaic.Lib.Pipeline.Value
import proofs.«107875_j44521630990796_2_alg».proof.Proof.LibRowGather
import proofs.«107875_j44521630990796_2_alg».proof.Proof.LibRowMax

noncomputable section

namespace Cert.LibGcnAggregate

open Idealize.ShloMosaic Idealize.ShloMosaic.ValueIdx

/-! ## Extended reals -/

/-- A nonnegative finite factor distributes over a finite sum of extended reals, whatever the summands. -/
theorem mul_sum_of_nonneg {ι : Type} (s : Finset ι) (f : ι → EReal) {c : EReal} (hc : 0 ≤ c) (hc' : c ≠ ⊤) :
    c * ∑ i ∈ s, f i = ∑ i ∈ s, c * f i := by
  classical
  induction s using Finset.induction_on with
  | empty => simp
  | insert a s ha ih =>
    rw [Finset.sum_insert ha, Finset.sum_insert ha, EReal.left_distrib_of_nonneg_of_ne_top hc hc', ih]

/-- `if d > 0 then d^(-1/2) else 0` is a nonnegative real, for every extended real `d`. -/
theorem rsqrt_guard (d : EReal) :
    (0 : EReal) ≤ Scalar.select (Ideal.cmp .ogt d 0) (Ideal.rsqrt d) 0
      ∧ Scalar.select (Ideal.cmp .ogt d 0) (Ideal.rsqrt d) (0 : EReal) ≠ ⊤ := by
  show (0 : EReal) ≤ (if BitVec.ofBool (decide ((0 : EReal) < d)) = 1 then Ideal.rsqrt d else 0)
      ∧ (if BitVec.ofBool (decide ((0 : EReal) < d)) = 1 then Ideal.rsqrt d else (0 : EReal)) ≠ ⊤
  by_cases h : (0 : EReal) < d
  · have h1 : BitVec.ofBool (decide ((0 : EReal) < d)) = 1 := by simp [h]
    rw [if_pos h1]
    induction d using EReal.rec with
    | bot => exact absurd h (by simp)
    | top => exact ⟨by rw [Ideal.rsqrt_top], by rw [Ideal.rsqrt_top]; exact EReal.zero_ne_top⟩
    | coe r =>
      have hr : 0 < r := by exact_mod_cast h
      rw [Ideal.rsqrt_coe, if_neg (not_lt.mpr hr.le), if_neg hr.ne']
      exact ⟨by exact_mod_cast (inv_nonneg.mpr (Real.sqrt_nonneg r)), EReal.coe_ne_top _⟩
  · have h0 : ¬ BitVec.ofBool (decide ((0 : EReal) < d)) = 1 := by simp [h]
    rw [if_neg h0]
    exact ⟨le_refl _, EReal.zero_ne_top⟩

/-- The host's guarded reciprocal square root of an array, `where(deg > 0, rsqrt(deg), 0)`, is a nonnegative real at
    every index. -/
theorem guarded_rsqrt_weight {s : Shape} (deg z : FVec Ideal s .f32) (hz : ∀ i, z i = 0) (i : s.Idx) :
    0 ≤ select (cmpf .ogt deg z) (Host.rsqrt deg) z i ∧ select (cmpf .ogt deg z) (Host.rsqrt deg) z i ≠ ⊤ := by
  show (0 : EReal) ≤ Scalar.select (Ideal.cmp .ogt (deg i) (z i)) (Ideal.rsqrt (deg i)) (z i)
      ∧ Scalar.select (Ideal.cmp .ogt (deg i) (z i)) (Ideal.rsqrt (deg i)) (z i) ≠ ⊤
  rw [hz i]
  exact rsqrt_guard _

/-! ## The host's layout operations read at an index -/

variable {α : Type}

/-- An `[a]` vector placed as the column `[a, 1]` reads, at `(p, u)`, the vector at `p`. -/
theorem broadcastInDim_a_a1_apply {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- An `[a]` vector as a column across `b` lanes reads, at `(p, q)`, the vector at `p`. -/
theorem column_apply {a b : ℕ} (x : (⟨1, ![a]⟩ : Shape).Idx → α)
    (h1 : (⟨1, ![a]⟩ : Shape).BroadcastsInDim ⟨2, ![a, 1]⟩ ![0])
    (h2 : (⟨2, ![a, 1]⟩ : Shape).BroadcastsInDim ⟨2, ![a, b]⟩ ![0, 1]) (p : Fin a) (q : Fin b) :
    broadcastInDim ⟨2, ![a, b]⟩ ![0, 1] h2 (broadcastInDim ⟨2, ![a, 1]⟩ ![0] h1 x) (ix2 p q) = x (ix1 p) :=
  (Cert.LibRowMax.broadcastInDim_a1_ab_apply _ h2 p q).trans (broadcastInDim_a_a1_apply x h1 p 0)

/-! ## A gather of single entries of a vector -/

/-- The dimension numbers of `x[idx]` for a vector `x : [N]` and start indices `[R, 1]`, result `[R]`: no offset
    axis, the operand's one axis collapsed and named by the start index. -/
abbrev entriesDims (N R : Nat) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- The gather of entries read at `r`: the vector at `idx[r, 0]`, read signed and clamped into `[0, N − 1]`. -/
theorem gather_entries_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (r : Fin R) :
    Host.gather (entriesDims N R wf) x idx (ix1 r)
      = x (ix1 (⟨min (idx (ix2 r (0 : Fin 1))).toInt.toNat (N - 1), by omega⟩ : Fin N)) := by
  unfold Host.gather
  congr 1
  funext a
  refine Fin.ext ?_
  match a with
  | ⟨0, _⟩ =>
    show (entriesDims N R wf).start (ix1 r) idx 0 + (entriesDims N R wf).batchCoord (ix1 r) 0
      + (entriesDims N R wf).offCoord (ix1 r) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (entriesDims N R wf).startIndexMap from List.mem_singleton.mpr rfl)]
    have hsi : (entriesDims N R wf).siIdx (ix1 r) ⟨List.idxOf (0 : Fin 1) (entriesDims N R wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl

/-! ## An accumulating scatter of whole rows -/

/-- The dimension numbers of `zeros([N, C]).at[idx].add(updates)` for start indices `[R, 1]` and updates `[R, C]`: the
    updates' axis 1 is the window axis, the operand's axis 0 is inserted and is the one axis the start index names. -/
abbrev rowsScatter (N C R : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- An update row `e` that lands on the operand's row `t 0` has start index `t 0`, read signed. -/
theorem scatter_rows_hit {N C R w : Nat} (wf : ScatterDims.WF ⟨2, ![N, C]⟩ ⟨2, ![R, 1]⟩ ⟨2, ![R, C]⟩ [1] [0] [0] 1)
    (idx : IVec ⟨2, ![R, 1]⟩ w) (e : Fin R) (f : Fin C) (t : (⟨2, ![N, C]⟩ : Shape).Idx)
    (h : (rowsScatter N C R wf).resultIdx? (ix2 e f) idx = some t) :
    (idx (ix2 e (0 : Fin 1))).toInt = ((t 0).val : ℤ) := by
  have hs : (rowsScatter N C R wf).start (ix2 e f) idx 0 = (idx (ix2 e (0 : Fin 1))).toInt := by
    unfold ScatterDims.start
    rw [dif_pos (show (0 : Fin 2) ∈ (rowsScatter N C R wf).scatterDimsToOperandDims from List.mem_singleton.mpr rfl)]
    have hsi : (rowsScatter N C R wf).siIdx (ix2 e f) ⟨List.idxOf (0 : Fin 2) (rowsScatter N C R wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hw : (rowsScatter N C R wf).window (ix2 e f) 0 = 0 := by
    unfold ScatterDims.window
    rw [dif_neg]
    intro hmem
    have := (List.mem_filter.mp hmem).2
    simp at this
  unfold ScatterDims.resultIdx? at h
  split at h
  · rename_i hall
    have ht := Option.some.inj h
    have h0 : ((rowsScatter N C R wf).start (ix2 e f) idx 0 + ((rowsScatter N C R wf).window (ix2 e f) 0 : ℤ)).toNat
        = (t 0).val := congrArg Fin.val (congrFun ht 0)
    have hpos := (hall 0).1
    rw [hs, hw] at h0 hpos
    omega
  · exact absurd h (by simp)

/-- An accumulating scatter into zeros, entry `t`: if every update that lands on `t` is `c` times the matching update
    of a second scatter, `c` a nonnegative real, then the entry is `c` times the second scatter's entry. -/
theorem scatterAdd_scaled {s si su : Shape} (d : ScatterDims s si su) {w : Nat} (idx : IVec si w)
    (A B : su.Idx → EReal) (t : s.Idx) {c : EReal} (hc : 0 ≤ c) (hc' : c ≠ ⊤)
    (hAB : ∀ u, d.resultIdx? u idx = some t → A u = c * B u) :
    Ideal.hostScatterAdd d (fun _ => 0) idx A t = c * Ideal.hostScatterAdd d (fun _ => 0) idx B t := by
  unfold Ideal.hostScatterAdd
  rw [zero_add, zero_add, mul_sum_of_nonneg _ _ hc hc']
  exact Finset.sum_congr rfl fun u hu => hAB u (Finset.mem_filter.mp hu).2

/-- A start index that is a node number, read signed and clamped into `[0, N − 1]`, is that node. -/
theorem clamp_eq {N : ℕ} (b : BitVec 32) (i : Fin N) (hb : b.toInt = (i.val : ℤ))
    (hlt : min b.toInt.toNat (N - 1) < N) : (⟨min b.toInt.toNat (N - 1), hlt⟩ : Fin N) = i := by
  apply Fin.ext
  show min b.toInt.toNat (N - 1) = i.val
  rw [hb]
  have := i.isLt
  omega

/-! ## The two arrangements of the aggregation -/

section Aggregate

variable {N C R : ℕ}

/-- THE AGGREGATION, WEIGHTED PER EDGE OR PER NODE.  `dis` a nonnegative real weight per node; `row` the node each edge
    is aggregated at (used as it is by the scatter; in front of the gather of `dis` it passes the select that replaces
    a negative index by `X`, which no edge of a segment meets); `colw` the start indices every gather by column uses.
    Scattering the rows `(dis[row e] · dis[col e]) · h[col e, ·]` is, entry by entry, `dis[i]` times scattering the rows
    `(dis · h)[col e, ·]`. -/
theorem aggregate_eq (hN : 0 < N)
    (wfs : ScatterDims.WF ⟨2, ![N, C]⟩ ⟨2, ![R, 1]⟩ ⟨2, ![R, C]⟩ [1] [0] [0] 1)
    (wfg : GatherDims.WF ⟨2, ![N, C]⟩ ⟨2, ![R, 1]⟩ ⟨2, ![R, C]⟩ [1] [0] [] [0] [] 1 ![1, C])
    (wfe : GatherDims.WF ⟨1, ![N]⟩ ⟨2, ![R, 1]⟩ ⟨1, ![R]⟩ [] [0] [] [0] [] 1 ![1])
    (hb0 : (⟨0, ![]⟩ : Shape).BroadcastsInDim ⟨2, ![N, C]⟩ ![])
    (hbz : (⟨0, ![]⟩ : Shape).BroadcastsInDim ⟨1, ![R]⟩ ![])
    (hbR : (⟨1, ![R]⟩ : Shape).BroadcastsInDim ⟨2, ![R, 1]⟩ ![0])
    (hbRC : (⟨2, ![R, 1]⟩ : Shape).BroadcastsInDim ⟨2, ![R, C]⟩ ![0, 1])
    (hbN : (⟨1, ![N]⟩ : Shape).BroadcastsInDim ⟨2, ![N, 1]⟩ ![0])
    (hbNC : (⟨2, ![N, 1]⟩ : Shape).BroadcastsInDim ⟨2, ![N, C]⟩ ![0, 1])
    (dis : FVec Ideal ⟨1, ![N]⟩ .f32) (hdis : ∀ i, 0 ≤ dis i ∧ dis i ≠ ⊤)
    (row X : IVec ⟨1, ![R]⟩ 32) (colw : IVec ⟨2, ![R, 1]⟩ 32) (h : FVec Ideal ⟨2, ![N, C]⟩ .f32) :
    Host.scatterAdd (F := Ideal) (rowsScatter N C R wfs)
        (broadcastInDim ⟨2, ![N, C]⟩ ![] hb0 (constant ⟨0, ![]⟩ .f32 0x00000000#32))
        (broadcastInDim ⟨2, ![R, 1]⟩ ![0] hbR row)
        (mulf
          (broadcastInDim ⟨2, ![R, C]⟩ ![0, 1] hbRC
            (broadcastInDim ⟨2, ![R, 1]⟩ ![0] hbR
              (mulf
                (Host.gather (entriesDims N R wfe) dis
                  (broadcastInDim ⟨2, ![R, 1]⟩ ![0] hbR
                    (select (cmpi .slt row (broadcastInDim ⟨1, ![R]⟩ ![] hbz (constantI ⟨0, ![]⟩ 32 0#32))) X row)))
                (Host.gather (entriesDims N R wfe) dis colw))))
          (Host.gather (Idealize.ShloMosaic.RowGather.rowsDims N C R wfg) h colw))
      = mulf (broadcastInDim ⟨2, ![N, C]⟩ ![0, 1] hbNC (broadcastInDim ⟨2, ![N, 1]⟩ ![0] hbN dis))
          (Host.scatterAdd (F := Ideal) (rowsScatter N C R wfs)
            (broadcastInDim ⟨2, ![N, C]⟩ ![] hb0 (constant ⟨0, ![]⟩ .f32 0x00000000#32))
            (broadcastInDim ⟨2, ![R, 1]⟩ ![0] hbR row)
            (Host.gather (Idealize.ShloMosaic.RowGather.rowsDims N C R wfg)
              (mulf (broadcastInDim ⟨2, ![N, C]⟩ ![0, 1] hbNC (broadcastInDim ⟨2, ![N, 1]⟩ ![0] hbN dis)) h) colw)) := by
  funext j
  obtain ⟨i, f, rfl⟩ : ∃ (i : Fin N) (f : Fin C), j = ix2 i f := ⟨j 0, j 1, eq_ix2 j⟩
  have hz : (broadcastInDim ⟨2, ![N, C]⟩ ![] hb0 (constant (F := Ideal) ⟨0, ![]⟩ .f32 0x00000000#32))
      = fun _ => (0 : EReal) := funext fun _ => Ideal.ofBits_zero_f32
  rw [hz]
  show Ideal.hostScatterAdd (rowsScatter N C R wfs) (fun _ => 0) _ _ (ix2 i f)
    = (broadcastInDim ⟨2, ![N, C]⟩ ![0, 1] hbNC (broadcastInDim ⟨2, ![N, 1]⟩ ![0] hbN dis)) (ix2 i f)
      * Ideal.hostScatterAdd (rowsScatter N C R wfs) (fun _ => 0) _ _ (ix2 i f)
  rw [column_apply dis hbN hbNC i f]
  refine scatterAdd_scaled _ _ _ _ _ (hdis _).1 (hdis _).2 fun u hu => ?_
  obtain ⟨e, g, rfl⟩ : ∃ (e : Fin R) (g : Fin C), u = ix2 e g := ⟨u 0, u 1, eq_ix2 u⟩
  -- the segment's node is the edge's row, read signed
  have hrow : (row (ix1 e)).toInt = (i.val : ℤ) := by
    have := scatter_rows_hit wfs _ e g _ hu
    rwa [broadcastInDim_a_a1_apply row hbR e 0] at this
  -- so the negative-index select keeps it, and the clamp keeps it
  have hsel : (select (cmpi .slt row (broadcastInDim ⟨1, ![R]⟩ ![] hbz (constantI ⟨0, ![]⟩ 32 0#32))) X row) (ix1 e)
      = row (ix1 e) := by
    show Scalar.select (BitVec.ofBool ((row (ix1 e)).slt 0#32)) (X (ix1 e)) (row (ix1 e)) = row (ix1 e)
    have hns : (row (ix1 e)).slt 0#32 = false := by
      rw [BitVec.slt_eq_decide, BitVec.toInt_zero, hrow]
      exact decide_eq_false (by omega)
    rw [hns]
    rfl
  show _ * _ = _ * _
  rw [Cert.LibRowMax.broadcastInDim_a1_ab_apply _ hbRC e g, broadcastInDim_a_a1_apply _ hbR e 0,
    Idealize.ShloMosaic.RowGather.gather_rows_apply hN wfg h colw e g,
    Idealize.ShloMosaic.RowGather.gather_rows_apply hN wfg _ colw e g]
  show (_ * _) * _ = _ * (_ * _)
  rw [gather_entries_apply hN wfe dis _ e, gather_entries_apply hN wfe dis colw e, column_apply dis hbN hbNC]
  have hval : ((broadcastInDim ⟨2, ![R, 1]⟩ ![0] hbR
      (select (cmpi .slt row (broadcastInDim ⟨1, ![R]⟩ ![] hbz (constantI ⟨0, ![]⟩ 32 0#32))) X row))
        (ix2 e (0 : Fin 1))).toInt = (i.val : ℤ) := by
    rw [broadcastInDim_a_a1_apply _ hbR e 0, hsel]; exact hrow
  rw [clamp_eq _ i hval]
  exact mul_assoc _ _ _

end Aggregate

end Cert.LibGcnAggregate

end
-- ==== Proof.Bridge.lean ====
/-
  The node arrangement and the edge arrangement of the two layers are one function of the argument arrays.

  The weight `dis` is `if deg > 0 then deg^(-1/2) else 0`: a nonnegative real at every node, whatever the degree is.
  So in each layer the segment sums weighted per edge equal the segment sums weighted per node, entry by entry and for
  every feature array (the general law for an aggregation of gathered rows); the self-loop term, the bias, the clamp at
  zero and the two products are the same operations of equal operands on both sides.
-/
import proofs.«107875_j44521630990796_2_alg».proof.Proof.Spec
import proofs.«107875_j44521630990796_2_alg».proof.Proof.LibGcnAggregate

noncomputable section

namespace Cert.Bridge

open Idealize.ShloMosaic Cert.ReferenceIdeal Cert.ReferenceIdeal.Facts₀ Cert.Spec

/-- The weight is a nonnegative real at every node. -/
theorem dis_weight (row : IVec S800000 32) (i : S50000.Idx) : 0 ≤ disOf row i ∧ disOf row i ≠ ⊤ := by
  unfold disOf
  exact Cert.LibGcnAggregate.guarded_rsqrt_weight (degOf row) _ (fun _ => Ideal.ofBits_zero_f32) i

/-- Layer 1's segment sums: per edge = per node. -/
theorem agg128 (dis : FVec Ideal S50000 .f32) (hdis : ∀ i, 0 ≤ dis i ∧ dis i ≠ ⊤) (row col : IVec S800000 32)
    (h : FVec Ideal S50000x128 .f32) : aggEdge128 dis row col h = aggNode128 dis row col h := by
  unfold aggEdge128 aggNode128 col128 wrapIdx rawIdx
  exact Cert.LibGcnAggregate.aggregate_eq (N := 50000) (C := 128) (R := 800000) (by decide)
    scatter_S50000x128_S800000x1_S800000x128_1_0_0_1_wf gather_S50000x128_S800000x1_S800000x128_1_0_n_n_0_1_1128_wf
    gather_S50000_S800000x1_S800000_n_0_n_n_0_1_1_wf bcast_S_S50000x128 bcast_S_S800000 bcast_S800000_S800000x1_0
    bcast_S800000x1_S800000x128_0_1 bcast_S50000_S50000x1_0 bcast_S50000x1_S50000x128_0_1 dis hdis row _ _ h

/-- Layer 2's segment sums: per edge = per node. -/
theorem agg40 (dis : FVec Ideal S50000 .f32) (hdis : ∀ i, 0 ≤ dis i ∧ dis i ≠ ⊤) (row col : IVec S800000 32)
    (h : FVec Ideal S50000x40 .f32) : aggEdge40 dis row col h = aggNode40 dis row col h := by
  unfold aggEdge40 aggNode40 col40 wrapIdx rawIdx
  exact Cert.LibGcnAggregate.aggregate_eq (N := 50000) (C := 40) (R := 800000) (by decide)
    scatter_S50000x40_S800000x1_S800000x40_1_0_0_1_wf gather_S50000x40_S800000x1_S800000x40_1_0_n_n_0_1_140_wf
    gather_S50000_S800000x1_S800000_n_0_n_n_0_1_1_wf bcast_S_S50000x40 bcast_S_S800000 bcast_S800000_S800000x1_0
    bcast_S800000x1_S800000x40_0_1 bcast_S50000_S50000x1_0 bcast_S50000x1_S50000x40_0_1 dis hdis row _ _ h

/-- The kernel's arrangement of the two layers is the reference's, for all argument arrays. -/
theorem kerOut_eq_refOut (x : FVec Ideal S50000x256 .f32) (ei : IVec S2x800000 32) (w1 : FVec Ideal S256x128 .f32)
    (b1 : FVec Ideal S128 .f32) (w2 : FVec Ideal S128x40 .f32) (b2 : FVec Ideal S40 .f32) :
    kerOut x ei w1 b1 w2 b2 = refOut x ei w1 b1 w2 b2 := by
  unfold kerOut refOut
  simp only [agg128 _ (dis_weight _), agg40 _ (dis_weight _)]

end Cert.Bridge

end
-- ==== Proof.lean ====
/-
  The certificate of a two-layer graph convolution: a Pallas kernel that multiplies by the weights on the matrix unit
  (the clamp at zero fused into the second product) and weights the neighbour sums PER NODE, against a jnp reference
  that weights them PER EDGE.

  With deg[i] = 1 + #{e | row[e] = i} and dis = deg^(-1/2) where deg > 0 (else 0), a layer is

      out[i, f] = (∑ over the edges e with row[e] = i of dis[row[e]] · dis[col[e]] · h[col[e], f])
                  + (1 · dis[i] · dis[i]) · h[i, f] + b[f].

  The kernel computes dis[i] · ∑ (dis · h)[col[e], f] for the first term.  On the edges of segment i the factor
  dis[row[e]] is the constant dis[i]; dis[i] is a nonnegative real for every degree (the guard sends a non-positive
  degree to 0 and an infinite one to 0), and a nonnegative real factor distributes over any finite sum of extended
  reals: the two are equal for ALL inputs, and the precondition is never opened.  At the extended reals the bf16 casts
  are the identity and both kinds of matrix product are the same sum, so the kernel's two regions hold x · W1 and
  max(h1, 0) · W2.

  The three frames: the kernel's two are the generated frame certificates; the reference's is its run with the result
  dropped.  The idealization rewrote no operation, so `preserves` is `True`.
-/
import proofs.«107875_j44521630990796_2_alg».proof.Defs
import proofs.«107875_j44521630990796_2_alg».proof.Proof.Gen.Kernel
import proofs.«107875_j44521630990796_2_alg».proof.Proof.Gen.Kernel.Frame
import proofs.«107875_j44521630990796_2_alg».proof.Proof.Gen.KernelIdeal
import proofs.«107875_j44521630990796_2_alg».proof.Proof.Gen.KernelIdeal.Frame
import proofs.«107875_j44521630990796_2_alg».proof.Proof.Gen.ReferenceIdeal
import proofs.«107875_j44521630990796_2_alg».proof.Proof.Gen.Pre_finite_inputs
import proofs.«107875_j44521630990796_2_alg».proof.Proof.KernelRun
import proofs.«107875_j44521630990796_2_alg».proof.Proof.RefRun
import proofs.«107875_j44521630990796_2_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.RefRun.run m ρ)

theorem preserves : Cert.preserves_Kernel_KernelIdeal := trivial

/-- Both runs end, the kernel's result at the node arrangement and the reference's at the edge arrangement of the same
    argument arrays: one function. -/
theorem algebraic : Cert.algebraic_KernelIdeal_ReferenceIdeal := by
  intro m ρ m' ρ' _ hagree
  refine ⟨_, Cert.KernelRun.run m ρ, ?_⟩
  refine (θ_run Cert.ReferenceIdeal.defs _ _).mono (fun _ h c => ⟨(h c).1.trans ?_, (h c).2⟩) (Cert.RefRun.run m' ρ')
  rw [(hagree c).1, (hagree c).2.1, (hagree c).2.2.1, (hagree c).2.2.2.1, (hagree c).2.2.2.2.1, (hagree c).2.2.2.2.2]
  exact (Cert.Bridge.kerOut_eq_refOut _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
